-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v21_1)) (v1 : (c : Dev Cert.KernelIdeal.nD) → Buf (Elt Ideal) ((c.tc : Thread Cert.KernelIdeal.nD Cert.KernelIdeal.τ).loc Cert.KernelIdeal.main_v21_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_1) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3 : Shape := ⟨2, ![2048, 3]⟩
abbrev S2048x256 : Shape := ⟨2, ![2048, 256]⟩
abbrev S32768x2 : Shape := ⟨2, ![32768, 2]⟩
abbrev S2048x32768 : Shape := ⟨2, ![2048, 32768]⟩
abbrev S2048x8 : Shape := ⟨2, ![2048, 8]⟩
abbrev S32768x4 : Shape := ⟨2, ![32768, 4]⟩
abbrev S517x256 : Shape := ⟨2, ![517, 256]⟩
abbrev S256 : Shape := ⟨1, ![256]⟩
abbrev S256x256 : Shape := ⟨2, ![256, 256]⟩
abbrev S256x1 : Shape := ⟨2, ![256, 1]⟩
abbrev S520x256 : Shape := ⟨2, ![520, 256]⟩
abbrev S1 : Shape := ⟨1, ![1]⟩
abbrev S_ : Shape := ⟨0, ![]⟩

class Facts : Prop where
  bcast_S_S2048x3 : S_.BroadcastsInDim S2048x3 (![] : Fin 0 → Fin S2048x3.rank)
  reducesTo_S2048x3_S_d0_1 : S2048x3.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S2048x32768 : S_.BroadcastsInDim S2048x32768 (![] : Fin 0 → Fin S2048x32768.rank)
  reducesTo_S2048x32768_S_d0_1 : S2048x32768.ReducesTo [0, 1] S_
  bcast_S_S2048x8 : S_.BroadcastsInDim S2048x8 (![] : Fin 0 → Fin S2048x8.rank)
  reducesTo_S2048x8_S_d0_1 : S2048x8.ReducesTo [0, 1] S_
  bcast_S_S32768x4 : S_.BroadcastsInDim S32768x4 (![] : Fin 0 → Fin S32768x4.rank)
  reducesTo_S32768x4_S_d0_1 : S32768x4.ReducesTo [0, 1] S_
  bcast_S_S517x256 : S_.BroadcastsInDim S517x256 (![] : Fin 0 → Fin S517x256.rank)
  reducesTo_S517x256_S_d0_1 : S517x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S520x256 : S_.BroadcastsInDim S520x256 (![] : Fin 0 → Fin S520x256.rank)
  reducesTo_S520x256_S_d0_1 : S520x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S256x1 .f32) (main_arg20 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x1 .f32 := Host.absf main_arg19
  let main_cst_34 : FVec F S_ .f32 := constant S_ .f32 0x7F800000#32
  let main_v90 : FVec F S256x1 .f32 := broadcastInDim S256x1 ![] bcast_S_S256x1 main_cst_34
  let main_v91 : IVec S256x1 1 := cmpf .olt main_v89 main_v90
  let main_c_35 : IVec S_ 1 := constantI S_ 1 1#1
  let main_v92 : IVec S_ 1 := (fun x v => Host.reduce IntOp.andi x v reducesTo_S256x1_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S520x256 .f32) (main_arg16 : FVec F S256 .f32) (main_arg17 : FVec F S256x256 .f32) (main_arg18 : FVec F S256 .f32) (main_arg19 : FVec F S256x1 .f32) (main_arg20 : FVec F S1 .f32) (main_v63 : IVec S_ 1) (main_v67 : IVec S_ 1) : IVec S_ 1 :=
  let main_v68 : IVec S_ 1 := andi main_v63 main_v67
  let main_v69 : FVec F S520x256 .f32 := Host.absf main_arg15
  let main_cst_26 : FVec F S_ .f32 := constant S_ .f32 0x7F800000#32
  let main_v70 : FVec F S520x256 .f32 := broadcastInDim S520x256 ![] bcast_S_S520x256 main_cst_26
  let main_v71 : IVec S520x256 1 := cmpf .olt main_v69 main_v70
  let main_c_27 : IVec S_ 1 := constantI S_ 1 1#1
  let main_v72 : IVec S_ 1 := (fun x v => Host.reduce IntOp.andi x v reducesTo_S520x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg17
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S256x256 .f32) (main_arg13 : FVec F S256 .f32) (main_arg14 : FVec F S256x1 .f32) (main_arg15 : FVec F S520x256 .f32) (main_arg16 : FVec F S256 .f32) (main_arg17 : FVec F S256x256 .f32) (main_arg18 : FVec F S256 .f32) (main_arg19 : FVec F S256x1 .f32) (main_arg20 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x1 .f32 := Host.absf main_arg14
  let main_cst_24 : FVec F S_ .f32 := constant S_ .f32 0x7F800000#32
  let main_v65 : FVec F S256x1 .f32 := broadcastInDim S256x1 ![] bcast_S_S256x1 main_cst_24
  let main_v66 : IVec S256x1 1 := cmpf .olt main_v64 main_v65
  let main_c_25 : IVec S_ 1 := constantI S_ 1 1#1
  let main_v67 : IVec S_ 1 := (fun x v => Host.reduce IntOp.andi x v reducesTo_S256x1_S_d0_1 h_S_) main_v66 main_c_25
  fn_part4 (F := F) main_arg15 main_arg16 main_arg17 main_arg18 main_arg19 main_arg20 main_v63 main_v67

def fn_part2 {F : FTy → Type} [FloatOps F] (main_arg8 : FVec F S256x256 .f32) (main_arg9 : FVec F S256 .f32) (main_arg10 : FVec F S517x256 .f32) (main_arg11 : FVec F S256 .f32) (main_arg12 : FVec F S256x256 .f32) (main_arg13 : FVec F S256 .f32) (main_arg14 : FVec F S256x1 .f32) (main_arg15 : FVec F S520x256 .f32) (main_arg16 : FVec F S256 .f32) (main_arg17 : FVec F S256x256 .f32) (main_arg18 : FVec F S256 .f32) (main_arg19 : FVec F S256x1 .f32) (main_arg20 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S517x256 .f32 := Host.absf main_arg10
  let main_cst_16 : FVec F S_ .f32 := constant S_ .f32 0x7F800000#32
  let main_v45 : FVec F S517x256 .f32 := broadcastInDim S517x256 ![] bcast_S_S517x256 main_cst_16
  let main_v46 : IVec S517x256 1 := cmpf .olt main_v44 main_v45
  let main_c_17 : IVec S_ 1 := constantI S_ 1 1#1
  let main_v47 : IVec S_ 1 := (fun x v => Host.reduce IntOp.andi x v reducesTo_S517x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S32768x4 .f32) (main_arg6 : FVec F S517x256 .f32) (main_arg7 : FVec F S256 .f32) (main_arg8 : FVec F S256x256 .f32) (main_arg9 : FVec F S256 .f32) (main_arg10 : FVec F S517x256 .f32) (main_arg11 : FVec F S256 .f32) (main_arg12 : FVec F S256x256 .f32) (main_arg13 : FVec F S256 .f32) (main_arg14 : FVec F S256x1 .f32) (main_arg15 : FVec F S520x256 .f32) (main_arg16 : FVec F S256 .f32) (main_arg17 : FVec F S256x256 .f32) (main_arg18 : FVec F S256 .f32) (main_arg19 : FVec F S256x1 .f32) (main_arg20 : FVec F S1 .f32) (main_v13 : IVec S_ 1) (main_v16 : IVec S2048x8 1) : IVec S_ 1 :=
  let main_c_5 : IVec S_ 1 := constantI S_ 1 1#1
  let main_v17 : IVec S_ 1 := (fun x v => Host.reduce IntOp.andi x v reducesTo_S2048x8_S_d0_1 h_S_) main_v16 main_c_5
  let main_v18 : IVec S_ 1 := andi main_v13 main_v17
  let main_v19 : FVec F S32768x4 .f32 := Host.absf main_arg5
  let main_cst_6 : FVec F S_ .f32 := constant S_ .f32 0x7F800000#32
  let main_v20 : FVec F S32768x4 .f32 := broadcastInDim S32768x4 ![] bcast_S_S32768x4 main_cst_6
  let main_v21 : IVec S32768x4 1 := cmpf .olt main_v19 main_v20
  let main_c_7 : IVec S_ 1 := constantI S_ 1 1#1
  let main_v22 : IVec S_ 1 := (fun x v => Host.reduce IntOp.andi x v reducesTo_S32768x4_S_d0_1 h_S_) main_v21 main_c_7
  let main_v23 : IVec S_ 1 := andi main_v18 main_v22
  let main_v24 : FVec F S517x256 .f32 := Host.absf main_arg6
  let main_cst_8 : FVec F S_ .f32 := constant S_ .f32 0x7F800000#32
  let main_v25 : FVec F S517x256 .f32 := broadcastInDim S517x256 ![] bcast_S_S517x256 main_cst_8
  let main_v26 : IVec S517x256 1 := cmpf .olt main_v24 main_v25
  let main_c_9 : IVec S_ 1 := constantI S_ 1 1#1
  let main_v27 : IVec S_ 1 := (fun x v => Host.reduce IntOp.andi x v reducesTo_S517x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S2048x3 .f32) (main_arg1 : FVec F S2048x256 .f32) (main_arg2 : IVec S32768x2 32) (main_arg3 : FVec F S2048x32768 .f32) (main_arg4 : FVec F S2048x8 .f32) (main_arg5 : FVec F S32768x4 .f32) (main_arg6 : FVec F S517x256 .f32) (main_arg7 : FVec F S256 .f32) (main_arg8 : FVec F S256x256 .f32) (main_arg9 : FVec F S256 .f32) (main_arg10 : FVec F S517x256 .f32) (main_arg11 : FVec F S256 .f32) (main_arg12 : FVec F S256x256 .f32) (main_arg13 : FVec F S256 .f32) (main_arg14 : FVec F S256x1 .f32) (main_arg15 : FVec F S520x256 .f32) (main_arg16 : FVec F S256 .f32) (main_arg17 : FVec F S256x256 .f32) (main_arg18 : FVec F S256 .f32) (main_arg19 : FVec F S256x1 .f32) (main_arg20 : FVec F S1 .f32) : IVec S_ 1 :=
  let main_v0 : FVec F S2048x3 .f32 := Host.absf main_arg0
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  let main_c : IVec S_ 1 := constantI S_ 1 1#1
  let main_v3 : IVec S_ 1 := (fun x v => Host.reduce IntOp.andi x v reducesTo_S2048x3_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x32768 .f32 := Host.absf main_arg3
  let main_cst_2 : FVec F S_ .f32 := constant S_ .f32 0x7F800000#32
  let main_v10 : FVec F S2048x32768 .f32 := broadcastInDim S2048x32768 ![] bcast_S_S2048x32768 main_cst_2
  let main_v11 : IVec S2048x32768 1 := cmpf .olt main_v9 main_v10
  let main_c_3 : IVec S_ 1 := constantI S_ 1 1#1
  let main_v12 : IVec S_ 1 := (fun x v => Host.reduce IntOp.andi x v reducesTo_S2048x32768_S_d0_1 h_S_) main_v11 main_c_3
  let main_v13 : IVec S_ 1 := andi main_v8 main_v12
  let main_v14 : FVec F S2048x8 .f32 := Host.absf main_arg4
  let main_cst_4 : FVec F S_ .f32 := constant S_ .f32 0x7F800000#32
  let main_v15 : FVec F S2048x8 .f32 := broadcastInDim S2048x8 ![] bcast_S_S2048x8 main_cst_4
  let main_v16 : IVec S2048x8 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S2048x3 : Shape := ⟨2, ![2048, 3]⟩
abbrev S2048x256 : Shape := ⟨2, ![2048, 256]⟩
abbrev S32768x2 : Shape := ⟨2, ![32768, 2]⟩
abbrev S2048x32768 : Shape := ⟨2, ![2048, 32768]⟩
abbrev S2048x8 : Shape := ⟨2, ![2048, 8]⟩
abbrev S32768x4 : Shape := ⟨2, ![32768, 4]⟩
abbrev S517x256 : Shape := ⟨2, ![517, 256]⟩
abbrev S256 : Shape := ⟨1, ![256]⟩
abbrev S256x256 : Shape := ⟨2, ![256, 256]⟩
abbrev S256x1 : Shape := ⟨2, ![256, 1]⟩
abbrev S520x256 : Shape := ⟨2, ![520, 256]⟩
abbrev S1 : Shape := ⟨1, ![1]⟩
abbrev S_ : Shape := ⟨0, ![]⟩
abbrev S32768x2x1 : Shape := ⟨3, ![32768, 2, 1]⟩
abbrev S32768x2x3 : Shape := ⟨3, ![32768, 2, 3]⟩
abbrev S32768x1x3 : Shape := ⟨3, ![32768, 1, 3]⟩
abbrev S32768x3 : Shape := ⟨2, ![32768, 3]⟩
abbrev S32768x2x256 : Shape := ⟨3, ![32768, 2, 256]⟩
abbrev S32768x512 : Shape := ⟨2, ![32768, 512]⟩
abbrev S32768x7 : Shape := ⟨2, ![32768, 7]⟩
abbrev S512x512 : Shape := ⟨2, ![512, 512]⟩
abbrev S512x7 : Shape := ⟨2, ![512, 7]⟩
abbrev S1024x512 : Shape := ⟨2, ![1024, 512]⟩
abbrev S1024x256 : Shape := ⟨2, ![1024, 256]⟩
abbrev S1024x8 : Shape := ⟨2, ![1024, 8]⟩
abbrev S1024x3 : Shape := ⟨2, ![1024, 3]⟩
abbrev S512x3 : Shape := ⟨2, ![512, 3]⟩
abbrev S512x4 : Shape := ⟨2, ![512, 4]⟩
abbrev S512 : Shape := ⟨1, ![512]⟩
abbrev S512x1 : Shape := ⟨2, ![512, 1]⟩
abbrev S512x517 : Shape := ⟨2, ![512, 517]⟩
abbrev S512x256 : Shape := ⟨2, ![512, 256]⟩
abbrev S1x256 : Shape := ⟨2, ![1, 256]⟩
abbrev S1x1 : Shape := ⟨2, ![1, 1]⟩
abbrev S1024x520 : Shape := ⟨2, ![1024, 520]⟩

abbrev nBuf : Space → Nat
  | .hbm => 48
  | .vmem => 28
  | .smem => 0
  | _ => 0

abbrev bufTy : (tb : Table) → Fin (tcTables nBuf tb) → BufTy
  | .hbm, ⟨0, _⟩ => ⟨S2048x3, .f32⟩
  | .hbm, ⟨1, _⟩ => ⟨S2048x256, .f32⟩
  | .hbm, ⟨2, _⟩ => ⟨S32768x2, .i32⟩
  | .hbm, ⟨3, _⟩ => ⟨S2048x32768, .f32⟩
  | .hbm, ⟨4, _⟩ => ⟨S2048x8, .f32⟩
  | .hbm, ⟨5, _⟩ => ⟨S32768x4, .f32⟩
  | .hbm, ⟨6, _⟩ => ⟨S517x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S517x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x1, .f32⟩
  | .hbm, ⟨15, _⟩ => ⟨S520x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S256x1, .f32⟩
  | .hbm, ⟨20, _⟩ => ⟨S1, .f32⟩
  | .hbm, ⟨21, _⟩ => ⟨S_, .i32⟩
  | .hbm, ⟨22, _⟩ => ⟨S32768x2, .i32⟩
  | .hbm, ⟨23, _⟩ => ⟨S32768x2, .i1⟩
  | .hbm, ⟨24, _⟩ => ⟨S_, .i32⟩
  | .hbm, ⟨25, _⟩ => ⟨S32768x2, .i32⟩
  | .hbm, ⟨26, _⟩ => ⟨S32768x2, .i32⟩
  | .hbm, ⟨27, _⟩ => ⟨S32768x2, .i32⟩
  | .hbm, ⟨28, _⟩ => ⟨S32768x2x1, .i32⟩
  | .hbm, ⟨29, _⟩ => ⟨S32768x2x3, .f32⟩
  | .hbm, ⟨30, _⟩ => ⟨S32768x1x3, .f32⟩
  | .hbm, ⟨31, _⟩ => ⟨S32768x3, .f32⟩
  | .hbm, ⟨32, _⟩ => ⟨S32768x1x3, .f32⟩
  | .hbm, ⟨33, _⟩ => ⟨S32768x3, .f32⟩
  | .hbm, ⟨34, _⟩ => ⟨S32768x3, .f32⟩
  | .hbm, ⟨35, _⟩ => ⟨S_, .i32⟩
  | .hbm, ⟨36, _⟩ => ⟨S32768x2, .i32⟩
  | .hbm, ⟨37, _⟩ => ⟨S32768x2, .i1⟩
  | .hbm, ⟨38, _⟩ => ⟨S_, .i32⟩
  | .hbm, ⟨39, _⟩ => ⟨S32768x2, .i32⟩
  | .hbm, ⟨40, _⟩ => ⟨S32768x2, .i32⟩
  | .hbm, ⟨41, _⟩ => ⟨S32768x2, .i32⟩
  | .hbm, ⟨42, _⟩ => ⟨S32768x2x1, .i32⟩
  | .hbm, ⟨43, _⟩ => ⟨S32768x2x256, .f32⟩
  | .hbm, ⟨44, _⟩ => ⟨S32768x512, .f32⟩
  | .hbm, ⟨45, _⟩ => ⟨S32768x7, .f32⟩
  | .hbm, ⟨46, _⟩ => ⟨S2048x256, .f32⟩
  | .hbm, ⟨47, _⟩ => ⟨S2048x3, .f32⟩
  | .local _ .vmem, ⟨0, _⟩ => ⟨S512x512, .f32⟩
  | .local _ .vmem, ⟨1, _⟩ => ⟨S512x512, .f32⟩
  | .local _ .vmem, ⟨2, _⟩ => ⟨S512x7, .f32⟩
  | .local _ .vmem, ⟨3, _⟩ => ⟨S512x7, .f32⟩
  | .local _ .vmem, ⟨4, _⟩ => ⟨S1024x512, .f32⟩
  | .local _ .vmem, ⟨5, _⟩ => ⟨S1024x512, .f32⟩
  | .local _ .vmem, ⟨6, _⟩ => ⟨S517x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S517x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x1, .f32⟩
  | .local _ .vmem, ⟨15, _⟩ => ⟨S256x1, .f32⟩
  | .local _ .vmem, ⟨16, _⟩ => ⟨S1, .f32⟩
  | .local _ .vmem, ⟨17, _⟩ => ⟨S1024x256, .f32⟩
  | .local _ .vmem, ⟨18, _⟩ => ⟨S1024x8, .f32⟩
  | .local _ .vmem, ⟨19, _⟩ => ⟨S1024x3, .f32⟩
  | .local _ .vmem, ⟨20, _⟩ => ⟨S520x256, .f32⟩
  | .local _ .vmem, ⟨21, _⟩ => ⟨S256, .f32⟩
  | .local _ .vmem, ⟨22, _⟩ => ⟨S256x256, .f32⟩
  | .local _ .vmem, ⟨23, _⟩ => ⟨S256, .f32⟩
  | .local _ .vmem, ⟨24, _⟩ => ⟨S1024x256, .f32⟩
  | .local _ .vmem, ⟨25, _⟩ => ⟨S1024x3, .f32⟩
  | .local _ .vmem, ⟨26, _⟩ => ⟨S1024x256, .f32⟩
  | .local _ .vmem, ⟨27, _⟩ => ⟨S1024x3, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21_0 : Ref sig .tc := ⟨.hbm, 46, rfl⟩
abbrev main_v21_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v96 : BitVec 1 := Scalar.cmpi .eq arg1 c63_i32
  let v97 : BitVec 32 := Scalar.extui v96
  let c0_i32_42 : BitVec 32 := 0#32
  let v98 : BitVec 1 := Scalar.cmpi .ne v97 c0_i32_42
  v98

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S517x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S517x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S1024x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]

abbrev stage0_16 : Fin 1 → Memref sig .tc .vmem S1024x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]

abbrev stage0_17 : Fin 1 → Memref sig .tc .vmem S520x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true, false]

abbrev stage0_22 : Fin 1 → Memref sig .tc .vmem S1024x3 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true, false]

class Facts₀ : Prop where
  bcast_S_S32768x2 : S_.BroadcastsInDim S32768x2 (![] : Fin 0 → Fin S32768x2.rank)
  bcast_S32768x2_S32768x2x1_0_1 : S32768x2.BroadcastsInDim S32768x2x1 (![0, 1] : Fin 2 → Fin S32768x2x1.rank)
  slices_S32768x2x3_S32768x1x3_0_0_0 : S32768x2x3.Slices ![0, 0, 0] S32768x1x3
  shapeCasts_S32768x1x3_S32768x3 : S32768x1x3.ShapeCasts S32768x3
  slices_S32768x2x3_S32768x1x3_0_1_0 : S32768x2x3.Slices ![0, 1, 0] S32768x1x3
  shapeCasts_S32768x2x256_S32768x512 : S32768x2x256.ShapeCasts S32768x512
  concatenates_S32768x3_S32768x4_S32768x7_d1 : Shape.Concatenates [S32768x3, S32768x4] S32768x7 1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x7_S512x7_0_0 : ∀ a, (![0, 0] : Fin 2 → Nat) a + S512x7.size a ≤ S512x7.size a
  h_S512x7 : 0 < S512x7.numel
  shapeCasts_S512x7_S512x7 : S512x7.ShapeCasts S512x7
  slices_S512x7_o0_0_S512x3 : S512x7.Slices ![0, 0] S512x3
  slices_S512x7_o0_3_S512x4 : S512x7.Slices ![0, 3] S512x4
  reduces_S512x3_S512 : S512x3.Reduces [1] S512
  shapeCasts_S512_S512x1 : S512.ShapeCasts S512x1
  concatenates_S512x512_S512x1_S512x4_S512x517_d1 : Shape.Concatenates [S512x512, S512x1, S512x4] S512x517 1
  inb_S517x256_S517x256_0_0 : ∀ a, (![0, 0] : Fin 2 → Nat) a + S517x256.size a ≤ S517x256.size a
  h_S517x256 : 0 < S517x256.numel
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  bitsLt_bf16_f32 : FTy.bits .bf16 < FTy.bits .f32
  shapeCasts_S256_S1x256 : S256.ShapeCasts S1x256
  broadcasts_S1x256_S512x256 : S1x256.Broadcasts S512x256
  shapeCasts_S1_S1x1 : S1.ShapeCasts S1x1
  broadcasts_S1x1_S512x1 : S1x1.Broadcasts S512x1
  broadcasts_S512x1_S512x256 : S512x1.Broadcasts S512x256
  broadcasts_S512x1_S512x3 : S512x1.Broadcasts S512x3
  inb_S1024x512_S1024x512_0_0 : ∀ a, (![0, 0] : Fin 2 → Nat) a + S1024x512.size a ≤ S1024x512.size a
  h_S1024x512 : 0 < S1024x512.numel
  inb_S1024x8_S1024x8_0_0 : ∀ a, (![0, 0] : Fin 2 → Nat) a + S1024x8.size a ≤ S1024x8.size a
  h_S1024x8 : 0 < S1024x8.numel
  concatenates_S1024x256_S1024x256_S1024x8_S1024x520_d1 : Shape.Concatenates [S1024x256, S1024x256, S1024x8] S1024x520 1
  inb_S520x256_S520x256_0_0 : ∀ a, (![0, 0] : Fin 2 → Nat) a + S520x256.size a ≤ S520x256.size a
  h_S520x256 : 0 < S520x256.numel
  broadcasts_S1x256_S1024x256 : S1x256.Broadcasts S1024x256
  gather_S2048x3_S32768x2x1_S32768x2x3_2_0_n_n_0_2_13_wf : GatherDims.WF S2048x3 S32768x2x1 S32768x2x3 [2] [0] [] [0] [] 2 ![1, 3]
  gather_S2048x256_S32768x2x1_S32768x2x256_2_0_n_n_0_2_1256_wf : GatherDims.WF S2048x256 S32768x2x1 S32768x2x256 [2] [0] [] [0] [] 2 ![1, 256]
  dot_S512x517_S517x256_S512x256_1_0_0_1_n_n_wf : DotDims.WF S512x517 S517x256 S512x256 [1] [0] [0] [1] [] []
  dot_S512x256_S256x256_S512x256_1_0_0_1_n_n_wf : DotDims.WF S512x256 S256x256 S512x256 [1] [0] [0] [1] [] []
  dot_S512x256_S256x1_S512x1_1_0_0_1_n_n_wf : DotDims.WF S512x256 S256x1 S512x1 [1] [0] [0] [1] [] []
  dot_S1024x512_S512x256_S1024x256_1_0_0_1_n_n_wf : DotDims.WF S1024x512 S512x256 S1024x256 [1] [0] [0] [1] [] []
  dot_S1024x512_S512x3_S1024x3_1_0_0_1_n_n_wf : DotDims.WF S1024x512 S512x3 S1024x3 [1] [0] [0] [1] [] []
  dot_S1024x520_S520x256_S1024x256_1_0_0_1_n_n_wf : DotDims.WF S1024x520 S520x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x7.size a ≤ S32768x7.size a
  hwx0_1 : ∀ i : grid0.Coords, EltTy.bits .f32 = 32 ∨ (Rect.block (s := S32768x7) S512x7.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S2048x32768.size a
  hwx0_2 : ∀ i : grid0.Coords, EltTy.bits .f32 = 32 ∨ (Rect.block (s := S2048x32768) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S517x256.size a ≤ S517x256.size a
  hwx0_3 : ∀ i : grid0.Coords, EltTy.bits .f32 = 32 ∨ (Rect.block (s := S517x256) S517x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S517x256.size a ≤ S517x256.size a
  hwx0_7 : ∀ i : grid0.Coords, EltTy.bits .f32 = 32 ∨ (Rect.block (s := S517x256) S517x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S256x1.size a
  hwx0_11 : ∀ i : grid0.Coords, EltTy.bits .f32 = 32 ∨ (Rect.block (s := S256x1) S256x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S256x1.size a
  hwx0_12 : ∀ i : grid0.Coords, EltTy.bits .f32 = 32 ∨ (Rect.block (s := S256x1) S256x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x256.size a ≤ S2048x256.size a
  hwx0_14 : ∀ i : grid0.Coords, EltTy.bits .f32 = 32 ∨ (Rect.block (s := S2048x256) S1024x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x8.size a ≤ S2048x8.size a
  hwx0_15 : ∀ i : grid0.Coords, EltTy.bits .f32 = 32 ∨ (Rect.block (s := S2048x8) S1024x8.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1024x3.size a ≤ S2048x3.size a
  hwx0_16 : ∀ i : grid0.Coords, EltTy.bits .f32 = 32 ∨ (Rect.block (s := S2048x3) S1024x3.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S520x256.size a ≤ S520x256.size a
  hwx0_17 : ∀ i : grid0.Coords, EltTy.bits .f32 = 32 ∨ (Rect.block (s := S520x256) S520x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S256x256.size a
  hwx0_19 : ∀ i : grid0.Coords, EltTy.bits .f32 = 32 ∨ (Rect.block (s := S256x256) S256x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1024x256.size a ≤ S2048x256.size a
  hwx0_21 : ∀ i : grid0.Coords, EltTy.bits .f32 = 32 ∨ (Rect.block (s := S2048x256) S1024x256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1024x3.size a ≤ S2048x3.size a
  hwx0_22 : ∀ i : grid0.Coords, EltTy.bits .f32 = 32 ∨ (Rect.block (s := S2048x3) S1024x3.size (cc0_transform_22 i) (hinb0_22 i)).WholeWords (EltTy.packing .f32)

variable [Facts₀]

def gather_S2048x3_S32768x2x1_S32768x2x3_2_0_n_n_0_2_13 : GatherDims S2048x3 S32768x2x1 S32768x2x3 where
  offsetDims := [2]
  collapsedSliceDims := [0]
  operandBatchingDims := []
  startIndicesBatchingDims := []
  startIndexMap := [0]
  indexVectorDim := 2
  sliceSizes := ![1, 3]
  wf := gather_S2048x3_S32768x2x1_S32768x2x3_2_0_n_n_0_2_13_wf
def gather_S2048x256_S32768x2x1_S32768x2x256_2_0_n_n_0_2_1256 : GatherDims S2048x256 S32768x2x1 S32768x2x256 where
  offsetDims := [2]
  collapsedSliceDims := [0]
  operandBatchingDims := []
  startIndicesBatchingDims := []
  startIndexMap := [0]
  indexVectorDim := 2
  sliceSizes := ![1, 256]
  wf := gather_S2048x256_S32768x2x1_S32768x2x256_2_0_n_n_0_2_1256_wf
def dot_S512x517_S517x256_S512x256_1_0_0_1_n_n : DotDims S512x517 S517x256 S512x256 where
  lhsContracting := [1]
  rhsContracting := [0]
  lhsNonContracting := [0]
  rhsNonContracting := [1]
  lhsBatch := []
  rhsBatch := []
  wf := dot_S512x517_S517x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x512_S512x3_S1024x3_1_0_0_1_n_n : DotDims S1024x512 S512x3 S1024x3 where
  lhsContracting := [1]
  rhsContracting := [0]
  lhsNonContracting := [0]
  rhsNonContracting := [1]
  lhsBatch := []
  rhsBatch := []
  wf := dot_S1024x512_S512x3_S1024x3_1_0_0_1_n_n_wf
def dot_S1024x520_S520x256_S1024x256_1_0_0_1_n_n : DotDims S1024x520 S520x256 S1024x256 where
  lhsContracting := [1]
  rhsContracting := [0]
  lhsNonContracting := [0]
  rhsNonContracting := [1]
  lhsBatch := []
  rhsBatch := []
  wf := dot_S1024x520_S520x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v19) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S517x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S517x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S256x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg19) S256x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg20) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg1) S1024x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg4) S1024x8.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg0) S1024x3.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg15) S520x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg16) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg17) S256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg18) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v21_0) S1024x256.size cc0_transform_21 reads0_21 true true 1 stage0_21 sem0_21
    hrank0 hreads0_21 hinb0_21 nbuf0_21 (Memref.isWhole_whole _) hwx0_21 hstage0_21

abbrev win0_22 : Pipeline.Window sig grid0 :=
  Pipeline.Window.ofSpec (Memref.whole main_v21_1) S1024x3.size cc0_transform_22 reads0_22 true true 1 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

abbrev idle0 : Fin 23 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun i => !(k0_cond2 i == 1#1) | 22 => fun i => !(k0_cond2 i == 1#1) | ⟨_ + 23, h⟩ => absurd h (Nat.not_lt.2 (Nat.le_add_left _ _))

class Facts : Prop extends Facts₀ where

variable [Facts]
-- ==== ReferenceIdeal.lean ====
abbrev S2048x3 : Shape := ⟨2, ![2048, 3]⟩
abbrev S2048x256 : Shape := ⟨2, ![2048, 256]⟩
abbrev S32768x2 : Shape := ⟨2, ![32768, 2]⟩
abbrev S2048x32768 : Shape := ⟨2, ![2048, 32768]⟩
abbrev S2048x8 : Shape := ⟨2, ![2048, 8]⟩
abbrev S32768x4 : Shape := ⟨2, ![32768, 4]⟩
abbrev S517x256 : Shape := ⟨2, ![517, 256]⟩
abbrev S256 : Shape := ⟨1, ![256]⟩
abbrev S256x256 : Shape := ⟨2, ![256, 256]⟩
abbrev S256x1 : Shape := ⟨2, ![256, 1]⟩
abbrev S520x256 : Shape := ⟨2, ![520, 256]⟩
abbrev S1 : Shape := ⟨1, ![1]⟩
abbrev S_ : Shape := ⟨0, ![]⟩
abbrev S32768x2x1 : Shape := ⟨3, ![32768, 2, 1]⟩
abbrev S32768x2x3 : Shape := ⟨3, ![32768, 2, 3]⟩
abbrev S32768x2x256 : Shape := ⟨3, ![32768, 2, 256]⟩
abbrev S32768x512 : Shape := ⟨2, ![32768, 512]⟩
abbrev S32768x1x3 : Shape := ⟨3, ![32768, 1, 3]⟩
abbrev S32768x3 : Shape := ⟨2, ![32768, 3]⟩
abbrev S32768 : Shape := ⟨1, ![32768]⟩
abbrev S32768x1 : Shape := ⟨2, ![32768, 1]⟩
abbrev S32768x517 : Shape := ⟨2, ![32768, 517]⟩
abbrev S32768x256 : Shape := ⟨2, ![32768, 256]⟩
abbrev S1x256 : Shape := ⟨2, ![1, 256]⟩
abbrev S1x1 : Shape := ⟨2, ![1, 1]⟩
abbrev S2048x520 : Shape := ⟨2, ![2048, 520]⟩

abbrev nBuf : Space → Nat
  | .hbm => 155
  | .vmem => 0
  | .smem => 0
  | _ => 0

abbrev hbmTy0_0 (i : Nat) : BufTy := match i % 128 with
  | 0 => ⟨S2048x3, .f32⟩
  | 1 => ⟨S2048x256, .f32⟩
  | 2 => ⟨S32768x2, .i32⟩
  | 3 => ⟨S2048x32768, .f32⟩
  | 4 => ⟨S2048x8, .f32⟩
  | 5 => ⟨S32768x4, .f32⟩
  | 6 => ⟨S517x256, .f32⟩
  | 7 => ⟨S256, .f32⟩
  | 8 => ⟨S256x256, .f32⟩
  | 9 => ⟨S256, .f32⟩
  | 10 => ⟨S517x256, .f32⟩
  | 11 => ⟨S256, .f32⟩
  | 12 => ⟨S256x256, .f32⟩
  | 13 => ⟨S256, .f32⟩
  | 14 => ⟨S256x1, .f32⟩
  | 15 => ⟨S520x256, .f32⟩
  | 16 => ⟨S256, .f32⟩
  | 17 => ⟨S256x256, .f32⟩
  | 18 => ⟨S256, .f32⟩
  | 19 => ⟨S256x1, .f32⟩
  | 20 => ⟨S1, .f32⟩
  | 21 => ⟨S_, .i32⟩
  | 22 => ⟨S32768x2, .i32⟩
  | 23 => ⟨S32768x2, .i1⟩
  | 24 => ⟨S_, .i32⟩
  | 25 => ⟨S32768x2, .i32⟩
  | 26 => ⟨S32768x2, .i32⟩
  | 27 => ⟨S32768x2, .i32⟩
  | 28 => ⟨S32768x2x1, .i32⟩
  | 29 => ⟨S32768x2x3, .f32⟩
  | 30 => ⟨S_, .i32⟩
  | 31 => ⟨S32768x2, .i32⟩
  | 32 => ⟨S32768x2, .i1⟩
  | 33 => ⟨S_, .i32⟩
  | 34 => ⟨S32768x2, .i32⟩
  | 35 => ⟨S32768x2, .i32⟩
  | 36 => ⟨S32768x2, .i32⟩
  | 37 => ⟨S32768x2x1, .i32⟩
  | 38 => ⟨S32768x2x256, .f32⟩
  | 39 => ⟨S32768x512, .f32⟩
  | 40 => ⟨S32768x1x3, .f32⟩
  | 41 => ⟨S32768x3, .f32⟩
  | 42 => ⟨S32768x1x3, .f32⟩
  | 43 => ⟨S32768x3, .f32⟩
  | 44 => ⟨S32768x3, .f32⟩
  | 45 => ⟨S32768x3, .f32⟩
  | 46 => ⟨S_, .f32⟩
  | 47 => ⟨S32768, .f32⟩
  | 48 => ⟨S32768x1, .f32⟩
  | 49 => ⟨S32768x1, .f32⟩
  | 50 => ⟨S32768x1, .f32⟩
  | 51 => ⟨S32768x517, .f32⟩
  | 52 => ⟨S32768x256, .f32⟩
  | 53 => ⟨S1x256, .f32⟩
  | 54 => ⟨S32768x256, .f32⟩
  | 55 => ⟨S32768x256, .f32⟩
  | 56 => ⟨S32768x256, .f32⟩
  | 57 => ⟨S32768x256, .f32⟩
  | 58 => ⟨S_, .f32⟩
  | 59 => ⟨S32768x256, .f32⟩
  | 60 => ⟨S32768x256, .f32⟩
  | 61 => ⟨S_, .f32⟩
  | 62 => ⟨S32768x256, .f32⟩
  | 63 => ⟨S32768x256, .f32⟩
  | 64 => ⟨S32768x256, .f32⟩
  | 65 => ⟨S32768x256, .f32⟩
  | 66 => ⟨S1x256, .f32⟩
  | 67 => ⟨S32768x256, .f32⟩
  | 68 => ⟨S32768x256, .f32⟩
  | 69 => ⟨S32768x256, .f32⟩
  | 70 => ⟨S32768x256, .f32⟩
  | 71 => ⟨S_, .f32⟩
  | 72 => ⟨S32768x256, .f32⟩
  | 73 => ⟨S32768x256, .f32⟩
  | 74 => ⟨S_, .f32⟩
  | 75 => ⟨S32768x256, .f32⟩
  | 76 => ⟨S32768x256, .f32⟩
  | 77 => ⟨S32768x256, .f32⟩
  | 78 => ⟨S32768x256, .f32⟩
  | 79 => ⟨S1x256, .f32⟩
  | 80 => ⟨S32768x256, .f32⟩
  | 81 => ⟨S32768x256, .f32⟩
  | 82 => ⟨S32768x256, .f32⟩
  | 83 => ⟨S32768x256, .f32⟩
  | 84 => ⟨S_, .f32⟩
  | 85 => ⟨S32768x256, .f32⟩
  | 86 => ⟨S32768x256, .f32⟩
  | 87 => ⟨S_, .f32⟩
  | 88 => ⟨S32768x256, .f32⟩
  | 89 => ⟨S32768x256, .f32⟩
  | 90 => ⟨S32768x256, .f32⟩
  | 91 => ⟨S32768x256, .f32⟩
  | 92 => ⟨S1x256, .f32⟩
  | 93 => ⟨S32768x256, .f32⟩
  | 94 => ⟨S32768x256, .f32⟩
  | 95 => ⟨S32768x256, .f32⟩
  | 96 => ⟨S32768x256, .f32⟩
  | 97 => ⟨S_, .f32⟩
  | 98 => ⟨S32768x256, .f32⟩
  | 99 => ⟨S32768x256, .f32⟩
  | 100 => ⟨S_, .f32⟩
  | 101 => ⟨S32768x256, .f32⟩
  | 102 => ⟨S32768x256, .f32⟩
  | 103 => ⟨S32768x256, .f32⟩
  | 104 => ⟨S32768x1, .f32⟩
  | 105 => ⟨S32768x1, .f32⟩
  | 106 => ⟨S1x1, .f32⟩
  | 107 => ⟨S32768x1, .f32⟩
  | 108 => ⟨S32768x1, .f32⟩
  | 109 => ⟨S32768x1, .f32⟩
  | 110 => ⟨S32768x1, .f32⟩
  | 111 => ⟨S_, .f32⟩
  | 112 => ⟨S32768x1, .f32⟩
  | 113 => ⟨S32768x1, .f32⟩
  | 114 => ⟨S_, .f32⟩
  | 115 => ⟨S32768x1, .f32⟩
  | 116 => ⟨S32768x1, .f32⟩
  | 117 => ⟨S32768x256, .f32⟩
  | 118 => ⟨S32768x256, .f32⟩
  | 119 => ⟨S2048x256, .f32⟩
  | 120 => ⟨S2048x520, .f32⟩
  | 121 => ⟨S2048x256, .f32⟩
  | 122 => ⟨S1x256, .f32⟩
  | 123 => ⟨S2048x256, .f32⟩
  | 124 => ⟨S2048x256, .f32⟩
  | 125 => ⟨S2048x256, .f32⟩
  | 126 => ⟨S2048x256, .f32⟩
  | 127 => ⟨S_, .f32⟩
  | _ => ⟨S2048x3, .f32⟩

abbrev hbmTy0_1 (i : Nat) : BufTy := match i % 128 with
  | 0 => ⟨S2048x256, .f32⟩
  | 1 => ⟨S2048x256, .f32⟩
  | 2 => ⟨S_, .f32⟩
  | 3 => ⟨S2048x256, .f32⟩
  | 4 => ⟨S2048x256, .f32⟩
  | 5 => ⟨S2048x256, .f32⟩
  | 6 => ⟨S2048x256, .f32⟩
  | 7 => ⟨S1x256, .f32⟩
  | 8 => ⟨S2048x256, .f32⟩
  | 9 => ⟨S2048x256, .f32⟩
  | 10 => ⟨S2048x256, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S32768x3, .f32⟩
  | 22 => ⟨S32768x3, .f32⟩
  | 23 => ⟨S32768x3, .f32⟩
  | 24 => ⟨S32768x3, .f32⟩
  | 25 => ⟨S2048x3, .f32⟩
  | 26 => ⟨S2048x3, .f32⟩
  | _ => ⟨S2048x3, .f32⟩

abbrev hbmTy (i : Nat) : BufTy := match i / 128 with
  | 0 => hbmTy0_0 i
  | 1 => hbmTy0_1 i
  | _ => ⟨S2048x3, .f32⟩

abbrev bufTy : (tb : Table) → Fin (tcTables nBuf tb) → BufTy
  | .hbm, ⟨i, _⟩ => hbmTy i
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_call2_v5 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_cst : Ref sig .tc := ⟨.hbm, 111, rfl⟩
abbrev main_v50 : Ref sig .tc := ⟨.hbm, 112, rfl⟩
abbrev main_v51 : Ref sig .tc := ⟨.hbm, 113, rfl⟩
abbrev main_cst_3 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_call5_v0 : Ref sig .tc := ⟨.hbm, 125, rfl⟩
abbrev main_call5_v1 : Ref sig .tc := ⟨.hbm, 126, rfl⟩
abbrev main_call5_cst : Ref sig .tc := ⟨.hbm, 127, rfl⟩
abbrev main_call5_v2 : Ref sig .tc := ⟨.hbm, 128, rfl⟩
abbrev main_call5_v3 : Ref sig .tc := ⟨.hbm, 129, rfl⟩
abbrev main_call5_cst_0 : Ref sig .tc := ⟨.hbm, 130, rfl⟩
abbrev main_call5_v4 : Ref sig .tc := ⟨.hbm, 131, rfl⟩
abbrev main_call5_v5 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_cst_4 : Ref sig .tc := ⟨.hbm, 140, rfl⟩
abbrev main_v69 : Ref sig .tc := ⟨.hbm, 141, rfl⟩
abbrev main_v70 : Ref sig .tc := ⟨.hbm, 142, rfl⟩
abbrev main_cst_5 : Ref sig .tc := ⟨.hbm, 143, rfl⟩
abbrev main_v71 : Ref sig .tc := ⟨.hbm, 144, rfl⟩
abbrev main_v72 : Ref sig .tc := ⟨.hbm, 145, rfl⟩
abbrev main_cst_6 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩

abbrev nD : Nat := 1
abbrev τ : Topo := Topo.v7x

variable {F : FTy → Type} [FloatOps F]

class Facts₀ : Prop where
  bcast_S_S32768x2 : S_.BroadcastsInDim S32768x2 (![] : Fin 0 → Fin S32768x2.rank)
  bcast_S32768x2_S32768x2x1_0_1 : S32768x2.BroadcastsInDim S32768x2x1 (![0, 1] : Fin 2 → Fin S32768x2x1.rank)
  shapeCasts_S32768x2x256_S32768x512 : S32768x2x256.ShapeCasts S32768x512
  slices_S32768x2x3_S32768x1x3_0_0_0 : S32768x2x3.Slices ![0, 0, 0] S32768x1x3
  shapeCasts_S32768x1x3_S32768x3 : S32768x1x3.ShapeCasts S32768x3
  slices_S32768x2x3_S32768x1x3_0_1_0 : S32768x2x3.Slices ![0, 1, 0] S32768x1x3
  reducesTo_S32768x3_S32768_d1 : S32768x3.ReducesTo [1] S32768
  h_S_ : 0 < S_.numel
  bcast_S32768_S32768x1_0 : S32768.BroadcastsInDim S32768x1 (![0] : Fin 1 → Fin S32768x1.rank)
  concatenates_S32768x512_S32768x1_S32768x4_S32768x517_d1 : Shape.Concatenates [S32768x512, S32768x1, S32768x4] S32768x517 1
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  concatenates_S2048x256_S2048x256_S2048x8_S2048x520_d1 : Shape.Concatenates [S2048x256, S2048x256, S2048x8] S2048x520 1
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bcast_S32768x1_S32768x3_0_1 : S32768x1.BroadcastsInDim S32768x3 (![0, 1] : Fin 2 → Fin S32768x3.rank)
  gather_S2048x3_S32768x2x1_S32768x2x3_2_0_n_n_0_2_13_wf : GatherDims.WF S2048x3 S32768x2x1 S32768x2x3 [2] [0] [] [0] [] 2 ![1, 3]
  gather_S2048x256_S32768x2x1_S32768x2x256_2_0_n_n_0_2_1256_wf : GatherDims.WF S2048x256 S32768x2x1 S32768x2x256 [2] [0] [] [0] [] 2 ![1, 256]
  dot_S32768x517_S517x256_S32768x256_1_0_0_1_n_n_wf : DotDims.WF S32768x517 S517x256 S32768x256 [1] [0] [0] [1] [] []
  dot_S32768x256_S256x256_S32768x256_1_0_0_1_n_n_wf : DotDims.WF S32768x256 S256x256 S32768x256 [1] [0] [0] [1] [] []
  dot_S32768x256_S256x1_S32768x1_1_0_0_1_n_n_wf : DotDims.WF S32768x256 S256x1 S32768x1 [1] [0] [0] [1] [] []
  dot_S2048x32768_S32768x256_S2048x256_1_0_0_1_n_n_wf : DotDims.WF S2048x32768 S32768x256 S2048x256 [1] [0] [0] [1] [] []
  dot_S2048x520_S520x256_S2048x256_1_0_0_1_n_n_wf : DotDims.WF S2048x520 S520x256 S2048x256 [1] [0] [0] [1] [] []
  dot_S2048x256_S256x256_S2048x256_1_0_0_1_n_n_wf : DotDims.WF S2048x256 S256x256 S2048x256 [1] [0] [0] [1] [] []
  dot_S2048x32768_S32768x3_S2048x3_1_0_0_1_n_n_wf : DotDims.WF S2048x32768 S32768x3 S2048x3 [1] [0] [0] [1] [] []

variable [Facts₀]

def gather_S2048x3_S32768x2x1_S32768x2x3_2_0_n_n_0_2_13 : GatherDims S2048x3 S32768x2x1 S32768x2x3 where
  offsetDims := [2]
  collapsedSliceDims := [0]
  operandBatchingDims := []
  startIndicesBatchingDims := []
  startIndexMap := [0]
  indexVectorDim := 2
  sliceSizes := ![1, 3]
  wf := gather_S2048x3_S32768x2x1_S32768x2x3_2_0_n_n_0_2_13_wf
def gather_S2048x256_S32768x2x1_S32768x2x256_2_0_n_n_0_2_1256 : GatherDims S2048x256 S32768x2x1 S32768x2x256 where
  offsetDims := [2]
  collapsedSliceDims := [0]
  operandBatchingDims := []
  startIndicesBatchingDims := []
  startIndexMap := [0]
  indexVectorDim := 2
  sliceSizes := ![1, 256]
  wf := gather_S2048x256_S32768x2x1_S32768x2x256_2_0_n_n_0_2_1256_wf
def dot_S32768x517_S517x256_S32768x256_1_0_0_1_n_n : DotDims S32768x517 S517x256 S32768x256 where
  lhsContracting := [1]
  rhsContracting := [0]
  lhsNonContracting := [0]
  rhsNonContracting := [1]
  lhsBatch := []
  rhsBatch := []
  wf := dot_S32768x517_S517x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf
def dot_S2048x32768_S32768x256_S2048x256_1_0_0_1_n_n : DotDims S2048x32768 S32768x256 S2048x256 where
  lhsContracting := [1]
  rhsContracting := [0]
  lhsNonContracting := [0]
  rhsNonContracting := [1]
  lhsBatch := []
  rhsBatch := []
  wf := dot_S2048x32768_S32768x256_S2048x256_1_0_0_1_n_n_wf
def dot_S2048x520_S520x256_S2048x256_1_0_0_1_n_n : DotDims S2048x520 S520x256 S2048x256 where
  lhsContracting := [1]
  rhsContracting := [0]
  lhsNonContracting := [0]
  rhsNonContracting := [1]
  lhsBatch := []
  rhsBatch := []
  wf := dot_S2048x520_S520x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x32768_S32768x3_S2048x3_1_0_0_1_n_n : DotDims S2048x32768 S32768x3 S2048x3 where
  lhsContracting := [1]
  rhsContracting := [0]
  lhsNonContracting := [0]
  rhsNonContracting := [1]
  lhsBatch := []
  rhsBatch := []
  wf := dot_S2048x32768_S32768x3_S2048x3_1_0_0_1_n_n_wf

class Facts : Prop extends Facts₀ where

variable [Facts]
-- ==== Proof.KBlocks.lean ====
/-
  Which entries of its array a window's block holds.

  The grid has 128 points, `t = 64·n + k`: `n` picks a half of the 2048 nodes, `k` a tile of 512 of the 32768
  edges. A block's entry sits in its array, on each axis, at the block's index times the block's extent plus the
  entry's coordinate inside the block. The edge tiles move with `k`, the node blocks with `n`, the 0/1 matrix's block
  with both, and every weight's block is its whole array.
-/
import proofs.«148962_j8203387535901_2_alg».proof.Proof.Gen.KernelIdeal.Frame.Runs
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem N128 : cfg0.N = 128 := N_0

/-- The block indices of the moving windows, at every point. -/
theorem idxE0 : ∀ t : Fin cfg0.N, win0_0.index t 0 = t.val % 64 ∧ win0_0.index t 1 = 0 :=
  (by decide +kernel : ∀ t : Fin grid0.N, _)
theorem idxE1 : ∀ t : Fin cfg0.N, win0_1.index t 0 = t.val % 64 ∧ win0_1.index t 1 = 0 :=
  (by decide +kernel : ∀ t : Fin grid0.N, _)
theorem idxR : ∀ t : Fin cfg0.N, win0_2.index t 0 = t.val / 64 ∧ win0_2.index t 1 = t.val % 64 :=
  (by decide +kernel : ∀ t : Fin grid0.N, _)
theorem idxN14 : ∀ t : Fin cfg0.N, win0_14.index t 0 = t.val / 64 ∧ win0_14.index t 1 = 0 :=
  (by decide +kernel : ∀ t : Fin grid0.N, _)
theorem idxN15 : ∀ t : Fin cfg0.N, win0_15.index t 0 = t.val / 64 ∧ win0_15.index t 1 = 0 :=
  (by decide +kernel : ∀ t : Fin grid0.N, _)
theorem idxN16 : ∀ t : Fin cfg0.N, win0_16.index t 0 = t.val / 64 ∧ win0_16.index t 1 = 0 :=
  (by decide +kernel : ∀ t : Fin grid0.N, _)
theorem idxO21 : ∀ t : Fin cfg0.N, win0_21.index t 0 = t.val / 64 ∧ win0_21.index t 1 = 0 :=
  (by decide +kernel : ∀ t : Fin grid0.N, _)
theorem idxO22 : ∀ t : Fin cfg0.N, win0_22.index t 0 = t.val / 64 ∧ win0_22.index t 1 = 0 :=
  (by decide +kernel : ∀ t : Fin grid0.N, _)

/-- Edge `e` of tile `k` is edge `512·k + e`; row `r` of node half `n` is node `1024·n + r`. -/
def edgeOf (t : Fin cfg0.N) (e : Fin 512) : Fin 32768 :=
  ⟨(t.val % 64) * 512 + e.val, by have := e.isLt; have := Nat.mod_lt t.val (show 64 > 0 by decide); omega⟩
def nodeOf (t : Fin cfg0.N) (r : Fin 1024) : Fin 2048 :=
  ⟨1024 * (t.val / 64) + r.val, by have := r.isLt; have h : t.val < 128 := lt_of_lt_of_eq t.isLt N128; omega⟩

theorem blkE0 (c : Dev nD) (t : Fin cfg0.N) (e : Fin 512) (j : Fin 512) :
    iblk m c 0 t (ix2 e j) = V m c main_v19 (ix2 (edgeOf t e) j) := by
  unfold iblk
  rw [View.read_apply]
  show V m c main_v19 _ = _
  refine congrArg _ (funext fun a => Fin.ext ?_)
  match a with
  | ⟨0, _⟩ => show win0_0.index t 0 * 512 + 1 * e.val = (t.val % 64) * 512 + e.val; rw [(idxE0 t).1]; omega
  | ⟨1, _⟩ => show win0_0.index t 1 * 512 + 1 * j.val = j.val; rw [(idxE0 t).2]; omega

theorem blkE1 (c : Dev nD) (t : Fin cfg0.N) (e : Fin 512) (j : Fin 7) :
    iblk m c 1 t (ix2 e j) = V m c main_v20 (ix2 (edgeOf t e) j) := by
  unfold iblk
  rw [View.read_apply]
  show V m c main_v20 _ = _
  refine congrArg _ (funext fun a => Fin.ext ?_)
  match a with
  | ⟨0, _⟩ => show win0_1.index t 0 * 512 + 1 * e.val = (t.val % 64) * 512 + e.val; rw [(idxE1 t).1]; omega
  | ⟨1, _⟩ => show win0_1.index t 1 * 7 + 1 * j.val = j.val; rw [(idxE1 t).2]; omega

theorem blkR (c : Dev nD) (t : Fin cfg0.N) (r : Fin 1024) (e : Fin 512) :
    iblk m c 2 t (ix2 r e) = V m c main_arg3 (ix2 (nodeOf t r) (edgeOf t e)) := by
  unfold iblk
  rw [View.read_apply]
  show V m c main_arg3 _ = _
  refine congrArg _ (funext fun a => Fin.ext ?_)
  match a with
  | ⟨0, _⟩ => show win0_2.index t 0 * 1024 + 1 * r.val = 1024 * (t.val / 64) + r.val; rw [(idxR t).1]; omega
  | ⟨1, _⟩ => show win0_2.index t 1 * 512 + 1 * e.val = (t.val % 64) * 512 + e.val; rw [(idxR t).2]; omega

theorem blkN14 (c : Dev nD) (t : Fin cfg0.N) (r : Fin 1024) (j : Fin 256) :
    iblk m c 14 t (ix2 r j) = V m c main_arg1 (ix2 (nodeOf t r) j) := by
  unfold iblk
  rw [View.read_apply]
  show V m c main_arg1 _ = _
  refine congrArg _ (funext fun a => Fin.ext ?_)
  match a with
  | ⟨0, _⟩ => show win0_14.index t 0 * 1024 + 1 * r.val = 1024 * (t.val / 64) + r.val; rw [(idxN14 t).1]; omega
  | ⟨1, _⟩ => show win0_14.index t 1 * 256 + 1 * j.val = j.val; rw [(idxN14 t).2]; omega

theorem blkN15 (c : Dev nD) (t : Fin cfg0.N) (r : Fin 1024) (j : Fin 8) :
    iblk m c 15 t (ix2 r j) = V m c main_arg4 (ix2 (nodeOf t r) j) := by
  unfold iblk
  rw [View.read_apply]
  show V m c main_arg4 _ = _
  refine congrArg _ (funext fun a => Fin.ext ?_)
  match a with
  | ⟨0, _⟩ => show win0_15.index t 0 * 1024 + 1 * r.val = 1024 * (t.val / 64) + r.val; rw [(idxN15 t).1]; omega
  | ⟨1, _⟩ => show win0_15.index t 1 * 8 + 1 * j.val = j.val; rw [(idxN15 t).2]; omega

theorem blkN16 (c : Dev nD) (t : Fin cfg0.N) (r : Fin 1024) (j : Fin 3) :
    iblk m c 16 t (ix2 r j) = V m c main_arg0 (ix2 (nodeOf t r) j) := by
  unfold iblk
  rw [View.read_apply]
  show V m c main_arg0 _ = _
  refine congrArg _ (funext fun a => Fin.ext ?_)
  match a with
  | ⟨0, _⟩ => show win0_16.index t 0 * 1024 + 1 * r.val = 1024 * (t.val / 64) + r.val; rw [(idxN16 t).1]; omega
  | ⟨1, _⟩ => show win0_16.index t 1 * 3 + 1 * j.val = j.val; rw [(idxN16 t).2]; omega

/-! Every weight's block is its whole array. -/

theorem idxW3 : ∀ t : Fin cfg0.N, win0_3.index t 0 = 0 ∧ win0_3.index t 1 = 0 := (by decide +kernel : ∀ t : Fin grid0.N, _)
theorem blkW3 (c : Dev nD) (t : Fin cfg0.N) : (iblk m c 3 t : Vec F S517x256 .f32) = V m c main_arg6 := by
  funext y
  unfold iblk
  rw [View.read_apply]
  show V m c main_arg6 _ = _
  refine congrArg _ (funext fun a => Fin.ext ?_)
  match a with
  | ⟨0, _⟩ => show win0_3.index t 0 * 517 + 1 * (y 0).val = (y 0).val; rw [(idxW3 t).1]; omega
  | ⟨1, _⟩ => show win0_3.index t 1 * 256 + 1 * (y 1).val = (y 1).val; rw [(idxW3 t).2]; omega

theorem idxW4 : ∀ t : Fin cfg0.N, win0_4.index t 0 = 0 := (by decide +kernel : ∀ t : Fin grid0.N, _)
theorem blkW4 (c : Dev nD) (t : Fin cfg0.N) : (iblk m c 4 t : Vec F S256 .f32) = V m c main_arg7 := by
  funext y
  unfold iblk
  rw [View.read_apply]
  show V m c main_arg7 _ = _
  refine congrArg _ (funext fun a => Fin.ext ?_)
  match a with
  | ⟨0, _⟩ => show win0_4.index t 0 * 256 + 1 * (y 0).val = (y 0).val; rw [idxW4 t]; omega

theorem idxW5 : ∀ t : Fin cfg0.N, win0_5.index t 0 = 0 ∧ win0_5.index t 1 = 0 := (by decide +kernel : ∀ t : Fin grid0.N, _)
theorem blkW5 (c : Dev nD) (t : Fin cfg0.N) : (iblk m c 5 t : Vec F S256x256 .f32) = V m c main_arg8 := by
  funext y
  unfold iblk
  rw [View.read_apply]
  show V m c main_arg8 _ = _
  refine congrArg _ (funext fun a => Fin.ext ?_)
  match a with
  | ⟨0, _⟩ => show win0_5.index t 0 * 256 + 1 * (y 0).val = (y 0).val; rw [(idxW5 t).1]; omega
  | ⟨1, _⟩ => show win0_5.index t 1 * 256 + 1 * (y 1).val = (y 1).val; rw [(idxW5 t).2]; omega

theorem idxW6 : ∀ t : Fin cfg0.N, win0_6.index t 0 = 0 := (by decide +kernel : ∀ t : Fin grid0.N, _)
theorem blkW6 (c : Dev nD) (t : Fin cfg0.N) : (iblk m c 6 t : Vec F S256 .f32) = V m c main_arg9 := by
  funext y
  unfold iblk
  rw [View.read_apply]
  show V m c main_arg9 _ = _
  refine congrArg _ (funext fun a => Fin.ext ?_)
  match a with
  | ⟨0, _⟩ => show win0_6.index t 0 * 256 + 1 * (y 0).val = (y 0).val; rw [idxW6 t]; omega

theorem idxW7 : ∀ t : Fin cfg0.N, win0_7.index t 0 = 0 ∧ win0_7.index t 1 = 0 := (by decide +kernel : ∀ t : Fin grid0.N, _)
theorem blkW7 (c : Dev nD) (t : Fin cfg0.N) : (iblk m c 7 t : Vec F S517x256 .f32) = V m c main_arg10 := by
  funext y
  unfold iblk
  rw [View.read_apply]
  show V m c main_arg10 _ = _
  refine congrArg _ (funext fun a => Fin.ext ?_)
  match a with
  | ⟨0, _⟩ => show win0_7.index t 0 * 517 + 1 * (y 0).val = (y 0).val; rw [(idxW7 t).1]; omega
  | ⟨1, _⟩ => show win0_7.index t 1 * 256 + 1 * (y 1).val = (y 1).val; rw [(idxW7 t).2]; omega

theorem idxW8 : ∀ t : Fin cfg0.N, win0_8.index t 0 = 0 := (by decide +kernel : ∀ t : Fin grid0.N, _)
theorem blkW8 (c : Dev nD) (t : Fin cfg0.N) : (iblk m c 8 t : Vec F S256 .f32) = V m c main_arg11 := by
  funext y
  unfold iblk
  rw [View.read_apply]
  show V m c main_arg11 _ = _
  refine congrArg _ (funext fun a => Fin.ext ?_)
  match a with
  | ⟨0, _⟩ => show win0_8.index t 0 * 256 + 1 * (y 0).val = (y 0).val; rw [idxW8 t]; omega

theorem idxW9 : ∀ t : Fin cfg0.N, win0_9.index t 0 = 0 ∧ win0_9.index t 1 = 0 := (by decide +kernel : ∀ t : Fin grid0.N, _)
theorem blkW9 (c : Dev nD) (t : Fin cfg0.N) : (iblk m c 9 t : Vec F S256x256 .f32) = V m c main_arg12 := by
  funext y
  unfold iblk
  rw [View.read_apply]
  show V m c main_arg12 _ = _
  refine congrArg _ (funext fun a => Fin.ext ?_)
  match a with
  | ⟨0, _⟩ => show win0_9.index t 0 * 256 + 1 * (y 0).val = (y 0).val; rw [(idxW9 t).1]; omega
  | ⟨1, _⟩ => show win0_9.index t 1 * 256 + 1 * (y 1).val = (y 1).val; rw [(idxW9 t).2]; omega

theorem idxW10 : ∀ t : Fin cfg0.N, win0_10.index t 0 = 0 := (by decide +kernel : ∀ t : Fin grid0.N, _)
theorem blkW10 (c : Dev nD) (t : Fin cfg0.N) : (iblk m c 10 t : Vec F S256 .f32) = V m c main_arg13 := by
  funext y
  unfold iblk
  rw [View.read_apply]
  show V m c main_arg13 _ = _
  refine congrArg _ (funext fun a => Fin.ext ?_)
  match a with
  | ⟨0, _⟩ => show win0_10.index t 0 * 256 + 1 * (y 0).val = (y 0).val; rw [idxW10 t]; omega

theorem idxW11 : ∀ t : Fin cfg0.N, win0_11.index t 0 = 0 ∧ win0_11.index t 1 = 0 := (by decide +kernel : ∀ t : Fin grid0.N, _)
theorem blkW11 (c : Dev nD) (t : Fin cfg0.N) : (iblk m c 11 t : Vec F S256x1 .f32) = V m c main_arg14 := by
  funext y
  unfold iblk
  rw [View.read_apply]
  show V m c main_arg14 _ = _
  refine congrArg _ (funext fun a => Fin.ext ?_)
  match a with
  | ⟨0, _⟩ => show win0_11.index t 0 * 256 + 1 * (y 0).val = (y 0).val; rw [(idxW11 t).1]; omega
  | ⟨1, _⟩ => show win0_11.index t 1 * 1 + 1 * (y 1).val = (y 1).val; rw [(idxW11 t).2]; omega

theorem idxW12 : ∀ t : Fin cfg0.N, win0_12.index t 0 = 0 ∧ win0_12.index t 1 = 0 := (by decide +kernel : ∀ t : Fin grid0.N, _)
theorem blkW12 (c : Dev nD) (t : Fin cfg0.N) : (iblk m c 12 t : Vec F S256x1 .f32) = V m c main_arg19 := by
  funext y
  unfold iblk
  rw [View.read_apply]
  show V m c main_arg19 _ = _
  refine congrArg _ (funext fun a => Fin.ext ?_)
  match a with
  | ⟨0, _⟩ => show win0_12.index t 0 * 256 + 1 * (y 0).val = (y 0).val; rw [(idxW12 t).1]; omega
  | ⟨1, _⟩ => show win0_12.index t 1 * 1 + 1 * (y 1).val = (y 1).val; rw [(idxW12 t).2]; omega

theorem idxW13 : ∀ t : Fin cfg0.N, win0_13.index t 0 = 0 := (by decide +kernel : ∀ t : Fin grid0.N, _)
theorem blkW13 (c : Dev nD) (t : Fin cfg0.N) : (iblk m c 13 t : Vec F S1 .f32) = V m c main_arg20 := by
  funext y
  unfold iblk
  rw [View.read_apply]
  show V m c main_arg20 _ = _
  refine congrArg _ (funext fun a => Fin.ext ?_)
  match a with
  | ⟨0, _⟩ => show win0_13.index t 0 * 1 + 1 * (y 0).val = (y 0).val; rw [idxW13 t]; omega

theorem idxW17 : ∀ t : Fin cfg0.N, win0_17.index t 0 = 0 ∧ win0_17.index t 1 = 0 := (by decide +kernel : ∀ t : Fin grid0.N, _)
theorem blkW17 (c : Dev nD) (t : Fin cfg0.N) : (iblk m c 17 t : Vec F S520x256 .f32) = V m c main_arg15 := by
  funext y
  unfold iblk
  rw [View.read_apply]
  show V m c main_arg15 _ = _
  refine congrArg _ (funext fun a => Fin.ext ?_)
  match a with
  | ⟨0, _⟩ => show win0_17.index t 0 * 520 + 1 * (y 0).val = (y 0).val; rw [(idxW17 t).1]; omega
  | ⟨1, _⟩ => show win0_17.index t 1 * 256 + 1 * (y 1).val = (y 1).val; rw [(idxW17 t).2]; omega

theorem idxW18 : ∀ t : Fin cfg0.N, win0_18.index t 0 = 0 := (by decide +kernel : ∀ t : Fin grid0.N, _)
theorem blkW18 (c : Dev nD) (t : Fin cfg0.N) : (iblk m c 18 t : Vec F S256 .f32) = V m c main_arg16 := by
  funext y
  unfold iblk
  rw [View.read_apply]
  show V m c main_arg16 _ = _
  refine congrArg _ (funext fun a => Fin.ext ?_)
  match a with
  | ⟨0, _⟩ => show win0_18.index t 0 * 256 + 1 * (y 0).val = (y 0).val; rw [idxW18 t]; omega

theorem idxW19 : ∀ t : Fin cfg0.N, win0_19.index t 0 = 0 ∧ win0_19.index t 1 = 0 := (by decide +kernel : ∀ t : Fin grid0.N, _)
theorem blkW19 (c : Dev nD) (t : Fin cfg0.N) : (iblk m c 19 t : Vec F S256x256 .f32) = V m c main_arg17 := by
  funext y
  unfold iblk
  rw [View.read_apply]
  show V m c main_arg17 _ = _
  refine congrArg _ (funext fun a => Fin.ext ?_)
  match a with
  | ⟨0, _⟩ => show win0_19.index t 0 * 256 + 1 * (y 0).val = (y 0).val; rw [(idxW19 t).1]; omega
  | ⟨1, _⟩ => show win0_19.index t 1 * 256 + 1 * (y 1).val = (y 1).val; rw [(idxW19 t).2]; omega

theorem idxW20 : ∀ t : Fin cfg0.N, win0_20.index t 0 = 0 := (by decide +kernel : ∀ t : Fin grid0.N, _)
theorem blkW20 (c : Dev nD) (t : Fin cfg0.N) : (iblk m c 20 t : Vec F S256 .f32) = V m c main_arg18 := by
  funext y
  unfold iblk
  rw [View.read_apply]
  show V m c main_arg18 _ = _
  refine congrArg _ (funext fun a => Fin.ext ?_)
  match a with
  | ⟨0, _⟩ => show win0_20.index t 0 * 256 + 1 * (y 0).val = (y 0).val; rw [idxW20 t]; omega

end Cert.KernelIdeal.Val

end
-- ==== Proof.SumTiles.lean ====
/-
  Adding the edges up a tile at a time.

  The sum over all edges `e < m·n` of `f e` is reached by `m` steps, the `k`-th adding the `n` terms
  `f (k·n), …, f (k·n + n − 1)` to what the steps before it gathered. The terms are indexed by natural numbers, with
  an array read as zero outside its extent, so that a partial sum is a sum over an initial segment.
-/
import Idealize.ShloMosaic.PureOps.Ideal

noncomputable section

namespace Cert.Tiles

/-- A two-axis array at natural-number coordinates: zero outside its extents. -/
def ext2 (a b : ℕ) (A : Fin a → Fin b → EReal) (i j : ℕ) : EReal :=
  if h : i < a ∧ j < b then A ⟨i, h.1⟩ ⟨j, h.2⟩ else 0

theorem ext2_of_lt (a b : ℕ) (A : Fin a → Fin b → EReal) (i j : ℕ) (hi : i < a) (hj : j < b) :
    ext2 a b A i j = A ⟨i, hi⟩ ⟨j, hj⟩ := dif_pos ⟨hi, hj⟩

/-- Rows indexed by natural numbers: the zero row outside the extent. -/
def ext1 {β : Type} (a : ℕ) (A : Fin a → β → EReal) (i : ℕ) (x : β) : EReal :=
  if h : i < a then A ⟨i, h⟩ x else 0

theorem ext1_of_lt {β : Type} (a : ℕ) (A : Fin a → β → EReal) (i : ℕ) (x : β) (hi : i < a) :
    ext1 a A i x = A ⟨i, hi⟩ x := dif_pos hi

/-- A sum of `(k+1)·n` terms is the sum of the first `k·n` and the next `n`. -/
theorem sum_range_succ_mul {M : Type*} [AddCommMonoid M] (f : ℕ → M) (k n : ℕ) :
    ∑ e ∈ Finset.range ((k + 1) * n), f e = ∑ e ∈ Finset.range (k * n), f e + ∑ j ∈ Finset.range n, f (k * n + j) := by
  rw [Nat.succ_mul, Finset.sum_range_add]

/-- One more tile: what was gathered over the first `k` tiles, plus the `n` terms of tile `k`. -/
theorem acc_step {M : Type*} [AddCommMonoid M] (f : ℕ → M) (k n : ℕ) (g : Fin n → M)
    (hg : ∀ j : Fin n, g j = f (k * n + j.val)) (acc : M) (hacc : acc = ∑ e ∈ Finset.range (k * n), f e) :
    acc + ∑ j : Fin n, g j = ∑ e ∈ Finset.range ((k + 1) * n), f e := by
  rw [sum_range_succ_mul, hacc]
  congr 1
  rw [Finset.sum_range (fun j => f (k * n + j))]
  exact Finset.sum_congr rfl fun j _ => hg j

/-- The first tile, from zero. -/
theorem acc_first {M : Type*} [AddCommMonoid M] (f : ℕ → M) (n : ℕ) (g : Fin n → M)
    (hg : ∀ j : Fin n, g j = f j.val) : (0 : M) + ∑ j : Fin n, g j = ∑ e ∈ Finset.range ((0 + 1) * n), f e :=
  acc_step f 0 n g (fun j => by rw [hg j, Nat.zero_mul, Nat.zero_add]) 0 (by rw [Nat.zero_mul, Finset.sum_range_zero])

/-- After the last tile the sum runs over every edge: the node's row of the matrix against the edges' values. -/
theorem sum_all (R : Fin 2048 → Fin 32768 → EReal) {β : Type} (v : Fin 32768 → β → EReal) (row : ℕ) (hrow : row < 2048) (x : β) :
    ∑ e ∈ Finset.range (64 * 512), ext2 2048 32768 R row e * ext1 32768 v e x
      = ∑ e : Fin 32768, R ⟨row, hrow⟩ e * v e x := by
  rw [show (64 * 512 : ℕ) = 32768 from rfl, Finset.sum_range]
  exact Finset.sum_congr rfl fun e _ => by rw [ext2_of_lt _ _ _ _ _ hrow e.isLt, ext1_of_lt _ _ _ _ e.isLt]

end Cert.Tiles

end
-- ==== Proof.Spec.lean ====
/-
  The layer both programs compute, written once over the extended reals, row by row.

  An edge `e` carries the 512 features of its two end nodes, the difference `d` of their coordinates and 4 edge
  attributes. With `s = d·d` (the squared length) its input row is `[features | s | attributes]` (517 entries).
  Two two-layer silu networks read that row: the message network, whose 256 outputs are gated by
  `σ(φ·iW + ib)`, and the coordinate network, whose scalar output `φ_x` scales the normalised difference,
  `15·tanh(φ_x) · d / (max(√s, ε) + 1)`. A node sums the messages and coordinate updates of the edges the 0/1
  matrix `R` assigns to it; its features are updated by one more silu network over
  `[features | summed messages | node attributes]` (520 entries), its coordinates by the summed updates.

  The laws that join the two programs are here too: `√s·√s = s` for a sum of squares (one program feeds `s`, the
  other `(√s)²`), the float word of 1.0 is the real 1 (one program applies the logistic function, the other spells
  `1/(1+e⁻ˣ)` with that word), and a sum over `m·n` terms is the sum of `m` consecutive partial sums of `n` terms
  (one program adds the edges up 512 at a time).
-/
import Idealize.ShloMosaic.PureOps.Ideal
import Idealize.ShloMosaic.Lib.ValueIdx

noncomputable section

namespace Cert.Spec

open Idealize.ShloMosaic

/-- The float words the layer uses: 15, the floor `ε` under the distance, and 1. They are never evaluated except
    for `one_word` below. -/
def c15 : EReal := Ideal.ofBits .f32 0x41700000#32
def cEps : EReal := Ideal.ofBits .f32 0x3727C5AC#32
def cOne : EReal := Ideal.ofBits .f32 0x3F800000#32

/-- A two-axis array, a one-axis array and a one-column array, read by literal coordinates. -/
def arr2 (a b : ℕ) (W : (⟨2, ![a, b]⟩ : Shape).Idx → EReal) (i : Fin a) (j : Fin b) : EReal := W (ValueIdx.ix2 i j)
def arr1 (a : ℕ) (v : (⟨1, ![a]⟩ : Shape).Idx → EReal) (i : Fin a) : EReal := v (ValueIdx.ix1 i)
def col1 (a : ℕ) (W : (⟨2, ![a, 1]⟩ : Shape).Idx → EReal) (i : Fin a) : EReal := W (ValueIdx.ix2 i 0)

/-- `x · σ(x)`. -/
def silu (x : EReal) : EReal := x * Ideal.logistic x

/-- One output of a dense layer: `Σₖ xₖ·Wₖₕ + bₕ`. -/
def lin {K N : ℕ} (x : Fin K → EReal) (W : Fin K → Fin N → EReal) (b : Fin N → EReal) (h : Fin N) : EReal :=
  (∑ k : Fin K, x k * W k h) + b h

/-- Two dense layers, each followed by silu. -/
def mlp2 {K : ℕ} (x : Fin K → EReal) (W1 : Fin K → Fin 256 → EReal) (b1 : Fin 256 → EReal)
    (W2 : Fin 256 → Fin 256 → EReal) (b2 : Fin 256 → EReal) (h : Fin 256) : EReal :=
  silu (lin (fun j => silu (lin x W1 b1 j)) W2 b2 h)

/-- The squared length of a 3-vector. -/
def sqLen (d : Fin 3 → EReal) : EReal := ∑ a : Fin 3, d a * d a

/-- Columns 0–2 and 3–6 of a 7-column row (the difference, then the edge attributes). -/
def lo3 (a : Fin 3) : Fin 7 := ⟨a.val, by omega⟩
def hi4 (a : Fin 4) : Fin 7 := ⟨3 + a.val, by omega⟩

/-- An edge's input row `[f | s | ea]`. -/
def edgeIn (f : Fin 512 → EReal) (s : EReal) (ea : Fin 4 → EReal) (j : Fin 517) : EReal :=
  if hj : j.val < 512 then f ⟨j.val, hj⟩
  else if h2 : j.val = 512 then s
  else ea ⟨j.val - 513, by have := j.isLt; omega⟩

/-- A node's input row `[f | g | na]`. -/
def nodeIn (f g : Fin 256 → EReal) (na : Fin 8 → EReal) (j : Fin 520) : EReal :=
  if hj : j.val < 256 then f ⟨j.val, hj⟩
  else if h2 : j.val < 512 then g ⟨j.val - 256, by omega⟩
  else na ⟨j.val - 512, by have := j.isLt; omega⟩

/-- The gated message of an edge with input row `x`. -/
def msgRow (x : Fin 517 → EReal) (eW1 : Fin 517 → Fin 256 → EReal) (eb1 : Fin 256 → EReal)
    (eW2 : Fin 256 → Fin 256 → EReal) (eb2 : Fin 256 → EReal) (iW : Fin 256 → EReal) (ib : EReal)
    (h : Fin 256) : EReal :=
  mlp2 x eW1 eb1 eW2 eb2 h * Ideal.logistic ((∑ j : Fin 256, mlp2 x eW1 eb1 eW2 eb2 j * iW j) + ib)

/-- The coordinate update of an edge with input row `x`, difference `d`, squared length `s`. -/
def crdRow (x : Fin 517 → EReal) (d : Fin 3 → EReal) (s : EReal) (cW1 : Fin 517 → Fin 256 → EReal)
    (cb1 : Fin 256 → EReal) (cW2 : Fin 256 → Fin 256 → EReal) (cb2 : Fin 256 → EReal) (cW3 : Fin 256 → EReal)
    (a : Fin 3) : EReal :=
  (c15 * Ideal.tanh (∑ j : Fin 256, mlp2 x cW1 cb1 cW2 cb2 j * cW3 j))
    * Ideal.div (d a) (max (Ideal.sqrt s) cEps + cOne)

/-- An edge's message and coordinate update from its data. -/
def edgeMsg (f : Fin 512 → EReal) (d : Fin 3 → EReal) (ea : Fin 4 → EReal) (eW1 : Fin 517 → Fin 256 → EReal)
    (eb1 : Fin 256 → EReal) (eW2 : Fin 256 → Fin 256 → EReal) (eb2 : Fin 256 → EReal) (iW : Fin 256 → EReal)
    (ib : EReal) (h : Fin 256) : EReal :=
  msgRow (edgeIn f (sqLen d) ea) eW1 eb1 eW2 eb2 iW ib h

def edgeCrd (f : Fin 512 → EReal) (d : Fin 3 → EReal) (ea : Fin 4 → EReal) (cW1 : Fin 517 → Fin 256 → EReal)
    (cb1 : Fin 256 → EReal) (cW2 : Fin 256 → Fin 256 → EReal) (cb2 : Fin 256 → EReal) (cW3 : Fin 256 → EReal)
    (a : Fin 3) : EReal :=
  crdRow (edgeIn f (sqLen d) ea) d (sqLen d) cW1 cb1 cW2 cb2 cW3 a

/-- A node's new features from its features `f`, its summed messages `g`, its attributes `na`. -/
def nodeRow (f g : Fin 256 → EReal) (na : Fin 8 → EReal) (nW1 : Fin 520 → Fin 256 → EReal) (nb1 : Fin 256 → EReal)
    (nW2 : Fin 256 → Fin 256 → EReal) (nb2 : Fin 256 → EReal) (c : Fin 256) : EReal :=
  f c + lin (fun j => silu (lin (nodeIn f g na) nW1 nb1 j)) nW2 nb2 c

/-- The new features of node `n`, column `c`: the edges' messages `msg` summed through `R`, then the node network. -/
def featOut (feat : Fin 2048 → Fin 256 → EReal) (R : Fin 2048 → Fin 32768 → EReal) (na : Fin 2048 → Fin 8 → EReal)
    (msg : Fin 32768 → Fin 256 → EReal) (nW1 : Fin 520 → Fin 256 → EReal) (nb1 : Fin 256 → EReal)
    (nW2 : Fin 256 → Fin 256 → EReal) (nb2 : Fin 256 → EReal) (n : Fin 2048) (c : Fin 256) : EReal :=
  nodeRow (feat n) (fun h => ∑ e : Fin 32768, R n e * msg e h) (na n) nW1 nb1 nW2 nb2 c

/-- The new coordinates of node `n`: its own plus the edges' updates `upd` summed through `R`. -/
def crdOut (crd : Fin 2048 → Fin 3 → EReal) (R : Fin 2048 → Fin 32768 → EReal) (upd : Fin 32768 → Fin 3 → EReal)
    (n : Fin 2048) (a : Fin 3) : EReal :=
  crd n a + ∑ e : Fin 32768, R n e * upd e a

/-! ## The laws -/

/-- A product of an extended real with itself is not negative. -/
theorem mul_self_nonneg' (x : EReal) : 0 ≤ x * x := by
  induction x using EReal.rec with
  | bot => simp
  | coe r => rw [← EReal.coe_mul]; exact_mod_cast mul_self_nonneg r
  | top => simp

theorem sqLen_nonneg (d : Fin 3 → EReal) : 0 ≤ sqLen d :=
  Finset.sum_nonneg fun a _ => mul_self_nonneg' (d a)

/-- `√s·√s = s` for `0 ≤ s`, infinity included. -/
theorem sqrt_mul_self {s : EReal} (hs : 0 ≤ s) : Ideal.sqrt s * Ideal.sqrt s = s := by
  induction s using EReal.rec with
  | bot => simp at hs
  | coe r =>
    have hr : 0 ≤ r := by exact_mod_cast hs
    rw [Ideal.sqrt_coe, if_neg (not_lt.2 hr), ← EReal.coe_mul, Real.mul_self_sqrt hr]
  | top => simp

theorem sqrt_mul_self_sqLen (d : Fin 3 → EReal) : Ideal.sqrt (sqLen d) * Ideal.sqrt (sqLen d) = sqLen d :=
  sqrt_mul_self (sqLen_nonneg d)

/-- The float word of 1.0 is the real number 1. -/
theorem one_word : cOne = 1 := by
  unfold cOne
  simp [Ideal.ofBits, Ideal.ieee, -EReal.coe_mul]
  norm_num

/-- A sum of `(m+1)·n` terms is the sum of the first `m·n` and the next `n`. -/
theorem sum_range_succ_mul {M : Type*} [AddCommMonoid M] (f : ℕ → M) (m n : ℕ) :
    ∑ e ∈ Finset.range ((m + 1) * n), f e = ∑ e ∈ Finset.range (m * n), f e + ∑ j ∈ Finset.range n, f (m * n + j) := by
  rw [Nat.succ_mul, Finset.sum_range_add]

end Cert.Spec

end
-- ==== Proof.KStep.lean ====
/-
  One grid point's contribution to the two carried sums.

  At point `t = 64·n + k` the body forms the messages and coordinate updates of the 512 edges of tile `k`, multiplies
  them by its block of the 0/1 matrix — rows `1024·n …`, columns `k·512 …` — and adds the products to the sums the
  point before left. Read entry by entry, that step adds to a sum over the edges `< k·512` the terms of the edges
  `k·512, …, k·512 + 511`: it lengthens an initial segment of the sum over all edges by one tile.
-/
import proofs.«148962_j8203387535901_2_alg».proof.Proof.KBlocks
import proofs.«148962_j8203387535901_2_alg».proof.Proof.SumTiles
import proofs.«148962_j8203387535901_2_alg».proof.Proof.Spec

noncomputable section

namespace Cert.KernelIdeal.Val

open Cert.KernelIdeal Cert.KernelIdeal.Gen Idealize.ShloMosaic Idealize.ShloMosaic.TcCoe Idealize.SL.Sem
open Idealize.ShloMosaic.ValueIdx Cert.Spec Cert.Tiles

/-- The tile's messages and coordinate updates, as the body computes them from the tile's blocks and the weights. -/
abbrev tileMsg {F : FTy → Type} [FloatOps F] (x0 : Vec F S512x512 .f32) (x1 : Vec F S512x7 .f32) (x3 : Vec F S517x256 .f32)
    (x4 : Vec F S256 .f32) (x5 : Vec F S256x256 .f32) (x6 : Vec F S256 .f32) (x12 : Vec F S256x1 .f32) (x13 : Vec F S1 .f32) :
    FVec F S512x256 .f32 :=
  k0_pay14 x5 x6 x12 x13 (k0_pay12 x0 x1 x3 x4) (k0_pay13 x0 x1 x3 x4)
abbrev tileUpd {F : FTy → Type} [FloatOps F] (x0 : Vec F S512x512 .f32) (x1 : Vec F S512x7 .f32) (x7 : Vec F S517x256 .f32)
    (x8 : Vec F S256 .f32) (x9 : Vec F S256x256 .f32) (x10 : Vec F S256 .f32) (x11 : Vec F S256x1 .f32) : FVec F S512x3 .f32 :=
  k0_pay15 (k0_pay8 x1) (k0_pay10 x1) (k0_pay11 x0 x1) x7 x8 x9 x10 x11

section
variable {F : FTy → Type} [FloatOps F]
variable (m : (ℓ : Loc nD τ sig) → Buf (Elt F) ℓ) (c : Dev nD)

/-- The two sums after point `t`, from what they held before it. -/
def next0 (t : Fin cfg0.N) (xs0 : Vec F S1024x256 .f32) : FVec F S1024x256 .f32 :=
  k0_pay1 (tileMsg (iblk m c 0 t) (iblk m c 1 t) (iblk m c 3 t) (iblk m c 4 t) (iblk m c 5 t) (iblk m c 6 t) (iblk m c 12 t) (iblk m c 13 t)) (k0_pay16 (iblk m c 2 t)) xs0
def next1 (t : Fin cfg0.N) (xs1 : Vec F S1024x3 .f32) : FVec F S1024x3 .f32 :=
  k0_pay2 (tileUpd (iblk m c 0 t) (iblk m c 1 t) (iblk m c 7 t) (iblk m c 8 t) (iblk m c 9 t) (iblk m c 10 t) (iblk m c 11 t)) (k0_pay16 (iblk m c 2 t)) xs1
end

/-- What the body's arithmetic is, entry by entry, over the extended reals: the facts this part of the proof rests on
    (each is proved where the body's operations are read at an index). -/
structure PayFacts : Prop where
  pay16 : ∀ v80 : Vec Ideal S1024x512 .f32, k0_pay16 (F := Ideal) v80 = v80
  pay5 : ∀ j : S1024x256.Idx, k0_pay5 (F := Ideal) j = 0
  pay6 : ∀ j : S1024x3.Idx, k0_pay6 (F := Ideal) j = 0
  pay4 : ∀ (v101 v103 : Vec Ideal S1024x3 .f32) (j : S1024x3.Idx), k0_pay4 (F := Ideal) v101 v103 j = v101 j + v103 j
  pay1 : ∀ (v68 : FVec Ideal S512x256 .f32) (v81 : FVec Ideal S1024x512 .bf16) (v82 : Vec Ideal S1024x256 .f32) (r : Fin 1024) (h : Fin 256),
    k0_pay1 (F := Ideal) v68 v81 v82 (ix2 r h) = v82 (ix2 r h) + ∑ e : Fin 512, v81 (ix2 r e) * v68 (ix2 e h)
  pay2 : ∀ (v79 : FVec Ideal S512x3 .f32) (v81 : FVec Ideal S1024x512 .bf16) (v89 : Vec Ideal S1024x3 .f32) (r : Fin 1024) (a : Fin 3),
    k0_pay2 (F := Ideal) v79 v81 v89 (ix2 r a) = v89 (ix2 r a) + ∑ e : Fin 512, v81 (ix2 r e) * v79 (ix2 e a)
  msg : ∀ (v3 : Vec Ideal S512x512 .f32) (v5 : Vec Ideal S512x7 .f32) (v14 : Vec Ideal S517x256 .f32) (v15 : Vec Ideal S256 .f32)
      (v16 : Vec Ideal S256x256 .f32) (v17 : Vec Ideal S256 .f32) (v23 : Vec Ideal S256x1 .f32) (v24 : Vec Ideal S1 .f32) (e : Fin 512) (h : Fin 256),
    k0_pay14 (F := Ideal) v16 v17 v23 v24 (k0_pay12 v3 v5 v14 v15) (k0_pay13 v3 v5 v14 v15) (ix2 e h)
      = edgeMsg (arr2 512 512 v3 e) (fun a => v5 (ix2 e (lo3 a))) (fun a => v5 (ix2 e (hi4 a)))
          (arr2 517 256 v14) (arr1 256 v15) (arr2 256 256 v16) (arr1 256 v17) (col1 256 v23) (v24 (ix1 0)) h
  upd : ∀ (v3 : Vec Ideal S512x512 .f32) (v5 : Vec Ideal S512x7 .f32) (v18 : Vec Ideal S517x256 .f32) (v19 : Vec Ideal S256 .f32)
      (v20 : Vec Ideal S256x256 .f32) (v21 : Vec Ideal S256 .f32) (v22 : Vec Ideal S256x1 .f32) (e : Fin 512) (a : Fin 3),
    k0_pay15 (F := Ideal) (k0_pay8 v5) (k0_pay10 v5) (k0_pay11 v3 v5) v18 v19 v20 v21 v22 (ix2 e a)
      = edgeCrd (arr2 512 512 v3 e) (fun a => v5 (ix2 e (lo3 a))) (fun a => v5 (ix2 e (hi4 a)))
          (arr2 517 256 v18) (arr1 256 v19) (arr2 256 256 v20) (arr1 256 v21) (col1 256 v22) a
  node : ∀ (v99 : Vec Ideal S1024x256 .f32) (v100 : Vec Ideal S1024x8 .f32) (v102 : Vec Ideal S1024x256 .f32) (v105 : Vec Ideal S520x256 .f32)
      (v106 : Vec Ideal S256 .f32) (v107 : Vec Ideal S256x256 .f32) (v108 : Vec Ideal S256 .f32) (r : Fin 1024) (q : Fin 256),
    k0_pay3 (F := Ideal) v99 v100 v102 v105 v106 v107 v108 (ix2 r q)
      = nodeRow (arr2 1024 256 v99 r) (arr2 1024 256 v102 r) (arr2 1024 8 v100 r) (arr2 520 256 v105) (arr1 256 v106) (arr2 256 256 v107) (arr1 256 v108) q

variable (m : (ℓ : Loc nD τ sig) → Buf (Elt Ideal) ℓ) (c : Dev nD)

/-- Edge `e`'s message and coordinate update, from the arrays as the region finds them. -/
def kMsg (e : Fin 32768) (h : Fin 256) : EReal :=
  edgeMsg (arr2 32768 512 (V m c main_v19) e) (fun a => V m c main_v20 (ix2 e (lo3 a))) (fun a => V m c main_v20 (ix2 e (hi4 a)))
    (arr2 517 256 (V m c main_arg6)) (arr1 256 (V m c main_arg7)) (arr2 256 256 (V m c main_arg8)) (arr1 256 (V m c main_arg9))
    (col1 256 (V m c main_arg19)) (V m c main_arg20 (ix1 0)) h
def kUpd (e : Fin 32768) (a : Fin 3) : EReal :=
  edgeCrd (arr2 32768 512 (V m c main_v19) e) (fun a => V m c main_v20 (ix2 e (lo3 a))) (fun a => V m c main_v20 (ix2 e (hi4 a)))
    (arr2 517 256 (V m c main_arg10)) (arr1 256 (V m c main_arg11)) (arr2 256 256 (V m c main_arg12)) (arr1 256 (V m c main_arg13))
    (col1 256 (V m c main_arg14)) a

/-- The new features and coordinates, as functions of the arrays the region finds. -/
def kFeat (n : Fin 2048) (q : Fin 256) : EReal :=
  featOut (arr2 2048 256 (V m c main_arg1)) (arr2 2048 32768 (V m c main_arg3)) (arr2 2048 8 (V m c main_arg4)) (kMsg m c)
    (arr2 520 256 (V m c main_arg15)) (arr1 256 (V m c main_arg16)) (arr2 256 256 (V m c main_arg17)) (arr1 256 (V m c main_arg18)) n q
def kCrd (n : Fin 2048) (a : Fin 3) : EReal :=
  crdOut (arr2 2048 3 (V m c main_arg0)) (arr2 2048 32768 (V m c main_arg3)) (kUpd m c) n a

/-- The terms of node row `row`'s two sums, edge by edge (zero past the arrays). -/
def fMsg (row : ℕ) (h : Fin 256) (e : ℕ) : EReal :=
  ext2 2048 32768 (arr2 2048 32768 (V m c main_arg3)) row e * ext1 32768 (kMsg m c) e h
def fUpd (row : ℕ) (a : Fin 3) (e : ℕ) : EReal :=
  ext2 2048 32768 (arr2 2048 32768 (V m c main_arg3)) row e * ext1 32768 (kUpd m c) e a

/-- The tile's message at its edge `e` is edge `k·512 + e`'s. -/
theorem tileMsg_eq (hP : PayFacts) (t : Fin cfg0.N) (e : Fin 512) (h : Fin 256) :
    tileMsg (iblk m c 0 t) (iblk m c 1 t) (iblk m c 3 t) (iblk m c 4 t) (iblk m c 5 t) (iblk m c 6 t) (iblk m c 12 t) (iblk m c 13 t) (ix2 e h) = kMsg m c (edgeOf t e) h := by
  refine (hP.msg (iblk m c 0 t) (iblk m c 1 t) (iblk m c 3 t) (iblk m c 4 t) (iblk m c 5 t) (iblk m c 6 t) (iblk m c 12 t) (iblk m c 13 t) e h).trans ?_
  unfold kMsg
  rw [blkW3 m c t, blkW4 m c t, blkW5 m c t, blkW6 m c t, blkW12 m c t, blkW13 m c t]
  have h0 : arr2 512 512 (iblk m c 0 t) e = arr2 32768 512 (V m c main_v19) (edgeOf t e) := funext fun j => blkE0 m c t e j
  have h1 : (fun a => iblk m c 1 t (ix2 e (lo3 a))) = fun a => V m c main_v20 (ix2 (edgeOf t e) (lo3 a)) :=
    funext fun a => blkE1 m c t e (lo3 a)
  have h2 : (fun a => iblk m c 1 t (ix2 e (hi4 a))) = fun a => V m c main_v20 (ix2 (edgeOf t e) (hi4 a)) :=
    funext fun a => blkE1 m c t e (hi4 a)
  rw [h0, h1, h2]

theorem tileUpd_eq (hP : PayFacts) (t : Fin cfg0.N) (e : Fin 512) (a : Fin 3) :
    tileUpd (iblk m c 0 t) (iblk m c 1 t) (iblk m c 7 t) (iblk m c 8 t) (iblk m c 9 t) (iblk m c 10 t) (iblk m c 11 t) (ix2 e a) = kUpd m c (edgeOf t e) a := by
  refine (hP.upd (iblk m c 0 t) (iblk m c 1 t) (iblk m c 7 t) (iblk m c 8 t) (iblk m c 9 t) (iblk m c 10 t) (iblk m c 11 t) e a).trans ?_
  unfold kUpd
  rw [blkW7 m c t, blkW8 m c t, blkW9 m c t, blkW10 m c t, blkW11 m c t]
  have h0 : arr2 512 512 (iblk m c 0 t) e = arr2 32768 512 (V m c main_v19) (edgeOf t e) := funext fun j => blkE0 m c t e j
  have h1 : (fun a => iblk m c 1 t (ix2 e (lo3 a))) = fun a => V m c main_v20 (ix2 (edgeOf t e) (lo3 a)) :=
    funext fun a => blkE1 m c t e (lo3 a)
  have h2 : (fun a => iblk m c 1 t (ix2 e (hi4 a))) = fun a => V m c main_v20 (ix2 (edgeOf t e) (hi4 a)) :=
    funext fun a => blkE1 m c t e (hi4 a)
  rw [h0, h1, h2]

/-- The product the body forms at entry `(r, ·)` for the tile's edge `e` is the sum's term of edge `k·512 + e`. -/
theorem term0 (hP : PayFacts) (t : Fin cfg0.N) (r : Fin 1024) (h : Fin 256) (e : Fin 512) :
    k0_pay16 (iblk m c 2 t) (ix2 r e) * tileMsg (iblk m c 0 t) (iblk m c 1 t) (iblk m c 3 t) (iblk m c 4 t) (iblk m c 5 t) (iblk m c 6 t) (iblk m c 12 t) (iblk m c 13 t) (ix2 e h)
      = fMsg m c (1024 * (t.val / 64) + r.val) h (t.val % 64 * 512 + e.val) := by
  have a1 : k0_pay16 (iblk m c 2 t) (ix2 r e) = V m c main_arg3 (ix2 (nodeOf t r) (edgeOf t e)) :=
    (congrFun (hP.pay16 (iblk m c 2 t)) (ix2 r e)).trans (blkR m c t r e)
  rw [a1, tileMsg_eq m c hP t e h]
  unfold fMsg
  rw [ext2_of_lt 2048 32768 _ (1024 * (t.val / 64) + r.val) (t.val % 64 * 512 + e.val) (nodeOf t r).isLt (edgeOf t e).isLt,
    ext1_of_lt 32768 _ (t.val % 64 * 512 + e.val) _ (edgeOf t e).isLt]
  rfl

theorem term1 (hP : PayFacts) (t : Fin cfg0.N) (r : Fin 1024) (a : Fin 3) (e : Fin 512) :
    k0_pay16 (iblk m c 2 t) (ix2 r e) * tileUpd (iblk m c 0 t) (iblk m c 1 t) (iblk m c 7 t) (iblk m c 8 t) (iblk m c 9 t) (iblk m c 10 t) (iblk m c 11 t) (ix2 e a)
      = fUpd m c (1024 * (t.val / 64) + r.val) a (t.val % 64 * 512 + e.val) := by
  have a1 : k0_pay16 (iblk m c 2 t) (ix2 r e) = V m c main_arg3 (ix2 (nodeOf t r) (edgeOf t e)) :=
    (congrFun (hP.pay16 (iblk m c 2 t)) (ix2 r e)).trans (blkR m c t r e)
  rw [a1, tileUpd_eq m c hP t e a]
  unfold fUpd
  rw [ext2_of_lt 2048 32768 _ (1024 * (t.val / 64) + r.val) (t.val % 64 * 512 + e.val) (nodeOf t r).isLt (edgeOf t e).isLt,
    ext1_of_lt 32768 _ (t.val % 64 * 512 + e.val) _ (edgeOf t e).isLt]
  rfl

/-- ONE POINT: if the sum held the terms of the edges before tile `k`, it now holds those of the edges through tile `k`. -/
theorem step0 (hP : PayFacts) (t : Fin cfg0.N) (xs0 : Vec Ideal S1024x256 .f32) (r : Fin 1024) (h : Fin 256)
    (hacc : xs0 (ix2 r h) = ∑ e ∈ Finset.range (t.val % 64 * 512), fMsg m c (1024 * (t.val / 64) + r.val) h e) :
    next0 m c t xs0 (ix2 r h) = ∑ e ∈ Finset.range ((t.val % 64 + 1) * 512), fMsg m c (1024 * (t.val / 64) + r.val) h e := by
  unfold next0
  refine (hP.pay1 (tileMsg (iblk m c 0 t) (iblk m c 1 t) (iblk m c 3 t) (iblk m c 4 t) (iblk m c 5 t) (iblk m c 6 t) (iblk m c 12 t) (iblk m c 13 t)) (k0_pay16 (iblk m c 2 t)) xs0 r h).trans ?_
  exact acc_step (fMsg m c (1024 * (t.val / 64) + r.val) h) (t.val % 64) 512 _ (fun e => term0 m c hP t r h e) _ hacc

theorem step1 (hP : PayFacts) (t : Fin cfg0.N) (xs1 : Vec Ideal S1024x3 .f32) (r : Fin 1024) (a : Fin 3)
    (hacc : xs1 (ix2 r a) = ∑ e ∈ Finset.range (t.val % 64 * 512), fUpd m c (1024 * (t.val / 64) + r.val) a e) :
    next1 m c t xs1 (ix2 r a) = ∑ e ∈ Finset.range ((t.val % 64 + 1) * 512), fUpd m c (1024 * (t.val / 64) + r.val) a e := by
  unfold next1
  refine (hP.pay2 (tileUpd (iblk m c 0 t) (iblk m c 1 t) (iblk m c 7 t) (iblk m c 8 t) (iblk m c 9 t) (iblk m c 10 t) (iblk m c 11 t)) (k0_pay16 (iblk m c 2 t)) xs1 r a).trans ?_
  exact acc_step (fUpd m c (1024 * (t.val / 64) + r.val) a) (t.val % 64) 512 _ (fun e => term1 m c hP t r a e) _ hacc

end Cert.KernelIdeal.Val

end
-- ==== Proof.KCase.lean ====
/-
  What one grid point leaves behind, case by case.

  The body adds, into two sums it carries from point to point, the products of its block of the 0/1 matrix with the
  tile's messages and with the tile's coordinate updates. At the first point of a run of 64 it starts both sums from
  zero; at the last it also writes the two result blocks, from the finished sums. Each lemma below reads one of
  those stores back as a plain term in the point's input blocks and the sums the point before left; the second half
  restates them at a grid point.
-/
import proofs.«148962_j8203387535901_2_alg».proof.Proof.GenP.KernelIdeal.Frame
import proofs.«148962_j8203387535901_2_alg».proof.Proof.KStep
import Idealize.ShloMosaic.Lib.Pipeline.Value
import Idealize.ShloMosaic.Lib.Tactic

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

set_option maxHeartbeats 1000000 in
/-- A middle point adds its product into the first carried sum. -/
theorem sB0 (c : Dev nD) (i : grid0.Coords) (arg2 : Memref sig .tc .vmem S512x512 .f32) (harg2 : arg2.IsWhole) (arg3 : Memref sig .tc .vmem S512x7 .f32) (harg3 : arg3.IsWhole) (arg4 : Memref sig .tc .vmem S1024x512 .f32) (harg4 : arg4.IsWhole) (arg5 : Memref sig .tc .vmem S517x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S517x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S1 .f32) (harg15 : arg15.IsWhole) (arg16 : Memref sig .tc .vmem S1024x256 .f32) (harg16 : arg16.IsWhole) (arg17 : Memref sig .tc .vmem S1024x8 .f32) (harg17 : arg17.IsWhole) (arg18 : Memref sig .tc .vmem S1024x3 .f32) (harg18 : arg18.IsWhole) (arg19 : Memref sig .tc .vmem S520x256 .f32) (harg19 : arg19.IsWhole) (arg20 : Memref sig .tc .vmem S256 .f32) (harg20 : arg20.IsWhole) (arg21 : Memref sig .tc .vmem S256x256 .f32) (harg21 : arg21.IsWhole) (arg22 : Memref sig .tc .vmem S256 .f32) (harg22 : arg22.IsWhole) (arg23 : Memref sig .tc .vmem S1024x256 .f32) (harg23 : arg23.IsWhole) (arg24 : Memref sig .tc .vmem S1024x3 .f32) (harg24 : arg24.IsWhole) (arg25 : Memref sig .tc .vmem S1024x256 .f32) (harg25 : arg25.IsWhole) (arg26 : Memref sig .tc .vmem S1024x3 .f32) (harg26 : arg26.IsWhole) (hc0 : ¬cond0_0 i) (hc1 : ¬cond0_1 i) (x0 : Vec F S512x512 .f32) (x1 : Vec F S512x7 .f32) (x2 : Vec F S1024x512 .f32) (x3 : Vec F S517x256 .f32) (x4 : Vec F S256 .f32) (x5 : Vec F S256x256 .f32) (x6 : Vec F S256 .f32) (x7 : Vec F S517x256 .f32) (x8 : Vec F S256 .f32) (x9 : Vec F S256x256 .f32) (x10 : Vec F S256 .f32) (x11 : Vec F S256x1 .f32) (x12 : Vec F S256x1 .f32) (x13 : Vec F S1 .f32) (x14 : Vec F S1024x256 .f32) (x15 : Vec F S1024x8 .f32) (x16 : Vec F S1024x3 .f32) (x17 : Vec F S520x256 .f32) (x18 : Vec F S256 .f32) (x19 : Vec F S256x256 .f32) (x20 : Vec F S256 .f32) (xs0 : Vec F S1024x256 .f32) (xs1 : Vec F S1024x3 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1
      = k0_pay1 (tileMsg x0 x1 x3 x4 x5 x6 x12 x13) (k0_pay16 x2) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.ld_unit_zero (S := S512x512) hz, View.ld_unit_zero (S := S512x7) hz, View.ld_unit_zero (S := S1024x512) hz, View.ld_unit_zero (S := S517x256) hz, View.ld_unit_zero (S := S256x256) hz, View.ld_unit_zero (S := S256x1) hz, View.ld_unit_zero (S := S1024x256) hz, View.ld_unit_zero (S := S1024x8) hz, View.ld_unit_zero (S := S1024x3) hz, View.ld_unit_zero (S := S520x256) hz, View.ld_unit_zero (S := S256) hz1, View.ld_unit_zero (S := S1) hz1]

set_option maxHeartbeats 1000000 in
/-- A middle point adds its product into the second carried sum. -/
theorem sB1 (c : Dev nD) (i : grid0.Coords) (arg2 : Memref sig .tc .vmem S512x512 .f32) (harg2 : arg2.IsWhole) (arg3 : Memref sig .tc .vmem S512x7 .f32) (harg3 : arg3.IsWhole) (arg4 : Memref sig .tc .vmem S1024x512 .f32) (harg4 : arg4.IsWhole) (arg5 : Memref sig .tc .vmem S517x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S517x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S1 .f32) (harg15 : arg15.IsWhole) (arg16 : Memref sig .tc .vmem S1024x256 .f32) (harg16 : arg16.IsWhole) (arg17 : Memref sig .tc .vmem S1024x8 .f32) (harg17 : arg17.IsWhole) (arg18 : Memref sig .tc .vmem S1024x3 .f32) (harg18 : arg18.IsWhole) (arg19 : Memref sig .tc .vmem S520x256 .f32) (harg19 : arg19.IsWhole) (arg20 : Memref sig .tc .vmem S256 .f32) (harg20 : arg20.IsWhole) (arg21 : Memref sig .tc .vmem S256x256 .f32) (harg21 : arg21.IsWhole) (arg22 : Memref sig .tc .vmem S256 .f32) (harg22 : arg22.IsWhole) (arg23 : Memref sig .tc .vmem S1024x256 .f32) (harg23 : arg23.IsWhole) (arg24 : Memref sig .tc .vmem S1024x3 .f32) (harg24 : arg24.IsWhole) (arg25 : Memref sig .tc .vmem S1024x256 .f32) (harg25 : arg25.IsWhole) (arg26 : Memref sig .tc .vmem S1024x3 .f32) (harg26 : arg26.IsWhole) (hc0 : ¬cond0_0 i) (hc1 : ¬cond0_1 i) (x0 : Vec F S512x512 .f32) (x1 : Vec F S512x7 .f32) (x2 : Vec F S1024x512 .f32) (x3 : Vec F S517x256 .f32) (x4 : Vec F S256 .f32) (x5 : Vec F S256x256 .f32) (x6 : Vec F S256 .f32) (x7 : Vec F S517x256 .f32) (x8 : Vec F S256 .f32) (x9 : Vec F S256x256 .f32) (x10 : Vec F S256 .f32) (x11 : Vec F S256x1 .f32) (x12 : Vec F S256x1 .f32) (x13 : Vec F S1 .f32) (x14 : Vec F S1024x256 .f32) (x15 : Vec F S1024x8 .f32) (x16 : Vec F S1024x3 .f32) (x17 : Vec F S520x256 .f32) (x18 : Vec F S256 .f32) (x19 : Vec F S256x256 .f32) (x20 : Vec F S256 .f32) (xs0 : Vec F S1024x256 .f32) (xs1 : Vec F S1024x3 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1
      = k0_pay2 (tileUpd x0 x1 x7 x8 x9 x10 x11) (k0_pay16 x2) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.ld_unit_zero (S := S512x512) hz, View.ld_unit_zero (S := S512x7) hz, View.ld_unit_zero (S := S1024x512) hz, View.ld_unit_zero (S := S517x256) hz, View.ld_unit_zero (S := S256x256) hz, View.ld_unit_zero (S := S256x1) hz, View.ld_unit_zero (S := S1024x256) hz, View.ld_unit_zero (S := S1024x8) hz, View.ld_unit_zero (S := S1024x3) hz, View.ld_unit_zero (S := S520x256) hz, View.ld_unit_zero (S := S256) hz1, View.ld_unit_zero (S := S1) hz1]

set_option maxHeartbeats 1000000 in
/-- The first point of a run starts the first sum from zero. -/
theorem sA0 (c : Dev nD) (i : grid0.Coords) (arg2 : Memref sig .tc .vmem S512x512 .f32) (harg2 : arg2.IsWhole) (arg3 : Memref sig .tc .vmem S512x7 .f32) (harg3 : arg3.IsWhole) (arg4 : Memref sig .tc .vmem S1024x512 .f32) (harg4 : arg4.IsWhole) (arg5 : Memref sig .tc .vmem S517x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S517x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S1 .f32) (harg15 : arg15.IsWhole) (arg16 : Memref sig .tc .vmem S1024x256 .f32) (harg16 : arg16.IsWhole) (arg17 : Memref sig .tc .vmem S1024x8 .f32) (harg17 : arg17.IsWhole) (arg18 : Memref sig .tc .vmem S1024x3 .f32) (harg18 : arg18.IsWhole) (arg19 : Memref sig .tc .vmem S520x256 .f32) (harg19 : arg19.IsWhole) (arg20 : Memref sig .tc .vmem S256 .f32) (harg20 : arg20.IsWhole) (arg21 : Memref sig .tc .vmem S256x256 .f32) (harg21 : arg21.IsWhole) (arg22 : Memref sig .tc .vmem S256 .f32) (harg22 : arg22.IsWhole) (arg23 : Memref sig .tc .vmem S1024x256 .f32) (harg23 : arg23.IsWhole) (arg24 : Memref sig .tc .vmem S1024x3 .f32) (harg24 : arg24.IsWhole) (arg25 : Memref sig .tc .vmem S1024x256 .f32) (harg25 : arg25.IsWhole) (arg26 : Memref sig .tc .vmem S1024x3 .f32) (harg26 : arg26.IsWhole) (hc0 : cond0_0 i) (hc1 : ¬cond0_1 i) (x0 : Vec F S512x512 .f32) (x1 : Vec F S512x7 .f32) (x2 : Vec F S1024x512 .f32) (x3 : Vec F S517x256 .f32) (x4 : Vec F S256 .f32) (x5 : Vec F S256x256 .f32) (x6 : Vec F S256 .f32) (x7 : Vec F S517x256 .f32) (x8 : Vec F S256 .f32) (x9 : Vec F S256x256 .f32) (x10 : Vec F S256 .f32) (x11 : Vec F S256x1 .f32) (x12 : Vec F S256x1 .f32) (x13 : Vec F S1 .f32) (x14 : Vec F S1024x256 .f32) (x15 : Vec F S1024x8 .f32) (x16 : Vec F S1024x3 .f32) (x17 : Vec F S520x256 .f32) (x18 : Vec F S256 .f32) (x19 : Vec F S256x256 .f32) (x20 : Vec F S256 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20
      = k0_pay1 (tileMsg x0 x1 x3 x4 x5 x6 x12 x13) (k0_pay16 x2) k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20)]
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.ld_unit_zero (S := S512x512) hz, View.ld_unit_zero (S := S512x7) hz, View.ld_unit_zero (S := S1024x512) hz, View.ld_unit_zero (S := S517x256) hz, View.ld_unit_zero (S := S256x256) hz, View.ld_unit_zero (S := S256x1) hz, View.ld_unit_zero (S := S1024x256) hz, View.ld_unit_zero (S := S1024x8) hz, View.ld_unit_zero (S := S1024x3) hz, View.ld_unit_zero (S := S520x256) hz, View.ld_unit_zero (S := S256) hz1, View.ld_unit_zero (S := S1) hz1]

set_option maxHeartbeats 1000000 in
/-- The first point of a run starts the second sum from zero. -/
theorem sA1 (c : Dev nD) (i : grid0.Coords) (arg2 : Memref sig .tc .vmem S512x512 .f32) (harg2 : arg2.IsWhole) (arg3 : Memref sig .tc .vmem S512x7 .f32) (harg3 : arg3.IsWhole) (arg4 : Memref sig .tc .vmem S1024x512 .f32) (harg4 : arg4.IsWhole) (arg5 : Memref sig .tc .vmem S517x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S517x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S1 .f32) (harg15 : arg15.IsWhole) (arg16 : Memref sig .tc .vmem S1024x256 .f32) (harg16 : arg16.IsWhole) (arg17 : Memref sig .tc .vmem S1024x8 .f32) (harg17 : arg17.IsWhole) (arg18 : Memref sig .tc .vmem S1024x3 .f32) (harg18 : arg18.IsWhole) (arg19 : Memref sig .tc .vmem S520x256 .f32) (harg19 : arg19.IsWhole) (arg20 : Memref sig .tc .vmem S256 .f32) (harg20 : arg20.IsWhole) (arg21 : Memref sig .tc .vmem S256x256 .f32) (harg21 : arg21.IsWhole) (arg22 : Memref sig .tc .vmem S256 .f32) (harg22 : arg22.IsWhole) (arg23 : Memref sig .tc .vmem S1024x256 .f32) (harg23 : arg23.IsWhole) (arg24 : Memref sig .tc .vmem S1024x3 .f32) (harg24 : arg24.IsWhole) (arg25 : Memref sig .tc .vmem S1024x256 .f32) (harg25 : arg25.IsWhole) (arg26 : Memref sig .tc .vmem S1024x3 .f32) (harg26 : arg26.IsWhole) (hc0 : cond0_0 i) (hc1 : ¬cond0_1 i) (x0 : Vec F S512x512 .f32) (x1 : Vec F S512x7 .f32) (x2 : Vec F S1024x512 .f32) (x3 : Vec F S517x256 .f32) (x4 : Vec F S256 .f32) (x5 : Vec F S256x256 .f32) (x6 : Vec F S256 .f32) (x7 : Vec F S517x256 .f32) (x8 : Vec F S256 .f32) (x9 : Vec F S256x256 .f32) (x10 : Vec F S256 .f32) (x11 : Vec F S256x1 .f32) (x12 : Vec F S256x1 .f32) (x13 : Vec F S1 .f32) (x14 : Vec F S1024x256 .f32) (x15 : Vec F S1024x8 .f32) (x16 : Vec F S1024x3 .f32) (x17 : Vec F S520x256 .f32) (x18 : Vec F S256 .f32) (x19 : Vec F S256x256 .f32) (x20 : Vec F S256 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20
      = k0_pay2 (tileUpd x0 x1 x7 x8 x9 x10 x11) (k0_pay16 x2) k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20)]
  unfold kernelRun0_A
  dsimp only
  sl_unfold_words
  rw [View.canon_cons_unit_zero (S := S1024x3) hz, View.readCov_unit_zero (S := S1024x3) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.ld_unit_zero (S := S512x512) hz, View.ld_unit_zero (S := S512x7) hz, View.ld_unit_zero (S := S1024x512) hz, View.ld_unit_zero (S := S517x256) hz, View.ld_unit_zero (S := S256x256) hz, View.ld_unit_zero (S := S256x1) hz, View.ld_unit_zero (S := S1024x256) hz, View.ld_unit_zero (S := S1024x8) hz, View.ld_unit_zero (S := S1024x3) hz, View.ld_unit_zero (S := S520x256) hz, View.ld_unit_zero (S := S256) hz1, View.ld_unit_zero (S := S1) hz1]

set_option maxHeartbeats 1000000 in
/-- The last point of a run adds its product into the first sum like any other. -/
theorem sC0 (c : Dev nD) (i : grid0.Coords) (arg2 : Memref sig .tc .vmem S512x512 .f32) (harg2 : arg2.IsWhole) (arg3 : Memref sig .tc .vmem S512x7 .f32) (harg3 : arg3.IsWhole) (arg4 : Memref sig .tc .vmem S1024x512 .f32) (harg4 : arg4.IsWhole) (arg5 : Memref sig .tc .vmem S517x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S517x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S1 .f32) (harg15 : arg15.IsWhole) (arg16 : Memref sig .tc .vmem S1024x256 .f32) (harg16 : arg16.IsWhole) (arg17 : Memref sig .tc .vmem S1024x8 .f32) (harg17 : arg17.IsWhole) (arg18 : Memref sig .tc .vmem S1024x3 .f32) (harg18 : arg18.IsWhole) (arg19 : Memref sig .tc .vmem S520x256 .f32) (harg19 : arg19.IsWhole) (arg20 : Memref sig .tc .vmem S256 .f32) (harg20 : arg20.IsWhole) (arg21 : Memref sig .tc .vmem S256x256 .f32) (harg21 : arg21.IsWhole) (arg22 : Memref sig .tc .vmem S256 .f32) (harg22 : arg22.IsWhole) (arg23 : Memref sig .tc .vmem S1024x256 .f32) (harg23 : arg23.IsWhole) (arg24 : Memref sig .tc .vmem S1024x3 .f32) (harg24 : arg24.IsWhole) (arg25 : Memref sig .tc .vmem S1024x256 .f32) (harg25 : arg25.IsWhole) (arg26 : Memref sig .tc .vmem S1024x3 .f32) (harg26 : arg26.IsWhole) (hc0 : ¬cond0_0 i) (hc1 : cond0_1 i) (x0 : Vec F S512x512 .f32) (x1 : Vec F S512x7 .f32) (x2 : Vec F S1024x512 .f32) (x3 : Vec F S517x256 .f32) (x4 : Vec F S256 .f32) (x5 : Vec F S256x256 .f32) (x6 : Vec F S256 .f32) (x7 : Vec F S517x256 .f32) (x8 : Vec F S256 .f32) (x9 : Vec F S256x256 .f32) (x10 : Vec F S256 .f32) (x11 : Vec F S256x1 .f32) (x12 : Vec F S256x1 .f32) (x13 : Vec F S1 .f32) (x14 : Vec F S1024x256 .f32) (x15 : Vec F S1024x8 .f32) (x16 : Vec F S1024x3 .f32) (x17 : Vec F S520x256 .f32) (x18 : Vec F S256 .f32) (x19 : Vec F S256x256 .f32) (x20 : Vec F S256 .f32) (xs0 : Vec F S1024x256 .f32) (xs1 : Vec F S1024x3 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1
      = k0_pay1 (tileMsg x0 x1 x3 x4 x5 x6 x12 x13) (k0_pay16 x2) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.ld_unit_zero (S := S512x512) hz, View.ld_unit_zero (S := S512x7) hz, View.ld_unit_zero (S := S1024x512) hz, View.ld_unit_zero (S := S517x256) hz, View.ld_unit_zero (S := S256x256) hz, View.ld_unit_zero (S := S256x1) hz, View.ld_unit_zero (S := S1024x256) hz, View.ld_unit_zero (S := S1024x8) hz, View.ld_unit_zero (S := S1024x3) hz, View.ld_unit_zero (S := S520x256) hz, View.ld_unit_zero (S := S256) hz1, View.ld_unit_zero (S := S1) hz1]

set_option maxHeartbeats 1000000 in
/-- The last point of a run adds its product into the second sum like any other. -/
theorem sC1 (c : Dev nD) (i : grid0.Coords) (arg2 : Memref sig .tc .vmem S512x512 .f32) (harg2 : arg2.IsWhole) (arg3 : Memref sig .tc .vmem S512x7 .f32) (harg3 : arg3.IsWhole) (arg4 : Memref sig .tc .vmem S1024x512 .f32) (harg4 : arg4.IsWhole) (arg5 : Memref sig .tc .vmem S517x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S517x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S1 .f32) (harg15 : arg15.IsWhole) (arg16 : Memref sig .tc .vmem S1024x256 .f32) (harg16 : arg16.IsWhole) (arg17 : Memref sig .tc .vmem S1024x8 .f32) (harg17 : arg17.IsWhole) (arg18 : Memref sig .tc .vmem S1024x3 .f32) (harg18 : arg18.IsWhole) (arg19 : Memref sig .tc .vmem S520x256 .f32) (harg19 : arg19.IsWhole) (arg20 : Memref sig .tc .vmem S256 .f32) (harg20 : arg20.IsWhole) (arg21 : Memref sig .tc .vmem S256x256 .f32) (harg21 : arg21.IsWhole) (arg22 : Memref sig .tc .vmem S256 .f32) (harg22 : arg22.IsWhole) (arg23 : Memref sig .tc .vmem S1024x256 .f32) (harg23 : arg23.IsWhole) (arg24 : Memref sig .tc .vmem S1024x3 .f32) (harg24 : arg24.IsWhole) (arg25 : Memref sig .tc .vmem S1024x256 .f32) (harg25 : arg25.IsWhole) (arg26 : Memref sig .tc .vmem S1024x3 .f32) (harg26 : arg26.IsWhole) (hc0 : ¬cond0_0 i) (hc1 : cond0_1 i) (x0 : Vec F S512x512 .f32) (x1 : Vec F S512x7 .f32) (x2 : Vec F S1024x512 .f32) (x3 : Vec F S517x256 .f32) (x4 : Vec F S256 .f32) (x5 : Vec F S256x256 .f32) (x6 : Vec F S256 .f32) (x7 : Vec F S517x256 .f32) (x8 : Vec F S256 .f32) (x9 : Vec F S256x256 .f32) (x10 : Vec F S256 .f32) (x11 : Vec F S256x1 .f32) (x12 : Vec F S256x1 .f32) (x13 : Vec F S1 .f32) (x14 : Vec F S1024x256 .f32) (x15 : Vec F S1024x8 .f32) (x16 : Vec F S1024x3 .f32) (x17 : Vec F S520x256 .f32) (x18 : Vec F S256 .f32) (x19 : Vec F S256x256 .f32) (x20 : Vec F S256 .f32) (xs0 : Vec F S1024x256 .f32) (xs1 : Vec F S1024x3 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1
      = k0_pay2 (tileUpd x0 x1 x7 x8 x9 x10 x11) (k0_pay16 x2) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.ld_unit_zero (S := S512x512) hz, View.ld_unit_zero (S := S512x7) hz, View.ld_unit_zero (S := S1024x512) hz, View.ld_unit_zero (S := S517x256) hz, View.ld_unit_zero (S := S256x256) hz, View.ld_unit_zero (S := S256x1) hz, View.ld_unit_zero (S := S1024x256) hz, View.ld_unit_zero (S := S1024x8) hz, View.ld_unit_zero (S := S1024x3) hz, View.ld_unit_zero (S := S520x256) hz, View.ld_unit_zero (S := S256) hz1, View.ld_unit_zero (S := S1) hz1]

set_option maxHeartbeats 1000000 in
/-- The last point of a run writes the new features from the finished first sum. -/
theorem oC21 (c : Dev nD) (i : grid0.Coords) (arg2 : Memref sig .tc .vmem S512x512 .f32) (harg2 : arg2.IsWhole) (arg3 : Memref sig .tc .vmem S512x7 .f32) (harg3 : arg3.IsWhole) (arg4 : Memref sig .tc .vmem S1024x512 .f32) (harg4 : arg4.IsWhole) (arg5 : Memref sig .tc .vmem S517x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S517x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S1 .f32) (harg15 : arg15.IsWhole) (arg16 : Memref sig .tc .vmem S1024x256 .f32) (harg16 : arg16.IsWhole) (arg17 : Memref sig .tc .vmem S1024x8 .f32) (harg17 : arg17.IsWhole) (arg18 : Memref sig .tc .vmem S1024x3 .f32) (harg18 : arg18.IsWhole) (arg19 : Memref sig .tc .vmem S520x256 .f32) (harg19 : arg19.IsWhole) (arg20 : Memref sig .tc .vmem S256 .f32) (harg20 : arg20.IsWhole) (arg21 : Memref sig .tc .vmem S256x256 .f32) (harg21 : arg21.IsWhole) (arg22 : Memref sig .tc .vmem S256 .f32) (harg22 : arg22.IsWhole) (arg23 : Memref sig .tc .vmem S1024x256 .f32) (harg23 : arg23.IsWhole) (arg24 : Memref sig .tc .vmem S1024x3 .f32) (harg24 : arg24.IsWhole) (arg25 : Memref sig .tc .vmem S1024x256 .f32) (harg25 : arg25.IsWhole) (arg26 : Memref sig .tc .vmem S1024x3 .f32) (harg26 : arg26.IsWhole) (hc0 : ¬cond0_0 i) (hc1 : cond0_1 i) (x0 : Vec F S512x512 .f32) (x1 : Vec F S512x7 .f32) (x2 : Vec F S1024x512 .f32) (x3 : Vec F S517x256 .f32) (x4 : Vec F S256 .f32) (x5 : Vec F S256x256 .f32) (x6 : Vec F S256 .f32) (x7 : Vec F S517x256 .f32) (x8 : Vec F S256 .f32) (x9 : Vec F S256x256 .f32) (x10 : Vec F S256 .f32) (x11 : Vec F S256x1 .f32) (x12 : Vec F S256x1 .f32) (x13 : Vec F S1 .f32) (x14 : Vec F S1024x256 .f32) (x15 : Vec F S1024x8 .f32) (x16 : Vec F S1024x3 .f32) (x17 : Vec F S520x256 .f32) (x18 : Vec F S256 .f32) (x19 : Vec F S256x256 .f32) (x20 : Vec F S256 .f32) (xs0 : Vec F S1024x256 .f32) (xs1 : Vec F S1024x3 .f32) :
    out0_C_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1
      = k0_pay3 x14 x15 (k0_pay1 (tileMsg x0 x1 x3 x4 x5 x6 x12 x13) (k0_pay16 x2) xs0) x17 x18 x19 x20 := by
  unfold out0_C_21
  rw [View.read_writes_eq_canon _ _ _ (cover0_C_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1)]
  unfold kernelRun0_C
  dsimp only
  sl_unfold_words
  rw [View.canon_unit_zero hz, View.readCov_unit_zero (S := S1024x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.ld_unit_zero (S := S512x512) hz, View.ld_unit_zero (S := S512x7) hz, View.ld_unit_zero (S := S1024x512) hz, View.ld_unit_zero (S := S517x256) hz, View.ld_unit_zero (S := S256x256) hz, View.ld_unit_zero (S := S256x1) hz, View.ld_unit_zero (S := S1024x256) hz, View.ld_unit_zero (S := S1024x8) hz, View.ld_unit_zero (S := S1024x3) hz, View.ld_unit_zero (S := S520x256) hz, View.ld_unit_zero (S := S256) hz1, View.ld_unit_zero (S := S1) hz1]

set_option maxHeartbeats 1000000 in
/-- The last point of a run writes the new coordinates from the finished second sum. -/
theorem oC22 (c : Dev nD) (i : grid0.Coords) (arg2 : Memref sig .tc .vmem S512x512 .f32) (harg2 : arg2.IsWhole) (arg3 : Memref sig .tc .vmem S512x7 .f32) (harg3 : arg3.IsWhole) (arg4 : Memref sig .tc .vmem S1024x512 .f32) (harg4 : arg4.IsWhole) (arg5 : Memref sig .tc .vmem S517x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S517x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x1 .f32) (harg13 : arg13.IsWhole) (arg14 : Memref sig .tc .vmem S256x1 .f32) (harg14 : arg14.IsWhole) (arg15 : Memref sig .tc .vmem S1 .f32) (harg15 : arg15.IsWhole) (arg16 : Memref sig .tc .vmem S1024x256 .f32) (harg16 : arg16.IsWhole) (arg17 : Memref sig .tc .vmem S1024x8 .f32) (harg17 : arg17.IsWhole) (arg18 : Memref sig .tc .vmem S1024x3 .f32) (harg18 : arg18.IsWhole) (arg19 : Memref sig .tc .vmem S520x256 .f32) (harg19 : arg19.IsWhole) (arg20 : Memref sig .tc .vmem S256 .f32) (harg20 : arg20.IsWhole) (arg21 : Memref sig .tc .vmem S256x256 .f32) (harg21 : arg21.IsWhole) (arg22 : Memref sig .tc .vmem S256 .f32) (harg22 : arg22.IsWhole) (arg23 : Memref sig .tc .vmem S1024x256 .f32) (harg23 : arg23.IsWhole) (arg24 : Memref sig .tc .vmem S1024x3 .f32) (harg24 : arg24.IsWhole) (arg25 : Memref sig .tc .vmem S1024x256 .f32) (harg25 : arg25.IsWhole) (arg26 : Memref sig .tc .vmem S1024x3 .f32) (harg26 : arg26.IsWhole) (hc0 : ¬cond0_0 i) (hc1 : cond0_1 i) (x0 : Vec F S512x512 .f32) (x1 : Vec F S512x7 .f32) (x2 : Vec F S1024x512 .f32) (x3 : Vec F S517x256 .f32) (x4 : Vec F S256 .f32) (x5 : Vec F S256x256 .f32) (x6 : Vec F S256 .f32) (x7 : Vec F S517x256 .f32) (x8 : Vec F S256 .f32) (x9 : Vec F S256x256 .f32) (x10 : Vec F S256 .f32) (x11 : Vec F S256x1 .f32) (x12 : Vec F S256x1 .f32) (x13 : Vec F S1 .f32) (x14 : Vec F S1024x256 .f32) (x15 : Vec F S1024x8 .f32) (x16 : Vec F S1024x3 .f32) (x17 : Vec F S520x256 .f32) (x18 : Vec F S256 .f32) (x19 : Vec F S256x256 .f32) (x20 : Vec F S256 .f32) (xs0 : Vec F S1024x256 .f32) (xs1 : Vec F S1024x3 .f32) :
    out0_C_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1
      = k0_pay4 x16 (k0_pay2 (tileUpd x0 x1 x7 x8 x9 x10 x11) (k0_pay16 x2) xs1) := by
  unfold out0_C_22
  rw [View.read_writes_eq_canon _ _ _ (cover0_C_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xs0 xs1)]
  unfold kernelRun0_C
  dsimp only
  sl_unfold_words
  rw [View.canon_unit_zero hz, View.readCov_unit_zero (S := S1024x3) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.ld_unit_zero (S := S512x512) hz, View.ld_unit_zero (S := S512x7) hz, View.ld_unit_zero (S := S1024x512) hz, View.ld_unit_zero (S := S517x256) hz, View.ld_unit_zero (S := S256x256) hz, View.ld_unit_zero (S := S256x1) hz, View.ld_unit_zero (S := S1024x256) hz, View.ld_unit_zero (S := S1024x8) hz, View.ld_unit_zero (S := S1024x3) hz, View.ld_unit_zero (S := S520x256) hz, View.ld_unit_zero (S := S256) hz1, View.ld_unit_zero (S := S1) hz1]

/-! ## At a grid point -/

variable (m : (ℓ : Loc nD τ sig) → Buf (Elt F) ℓ) (c : Dev nD)

/-- At the first point of a run the first sum is the point's product over zero. -/
theorem at_A0 (t : Fin cfg0.N) (h0 : t.val % 64 = 0) (h1 : ¬t.val % 64 = 63) :
    (outsAt0 m c t.val t.isLt).2.2.1 = next0 m c t k0_pay5 := by
  unfold next0
  rw [outsAt0_A m c t h0 h1]
  dsimp only
  exact sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- At the first point of a run the second sum is the point's product over zero. -/
theorem at_A1 (t : Fin cfg0.N) (h0 : t.val % 64 = 0) (h1 : ¬t.val % 64 = 63) :
    (outsAt0 m c t.val t.isLt).2.2.2 = next1 m c t k0_pay6 := by
  unfold next1
  rw [outsAt0_A m c t h0 h1]
  dsimp only
  exact sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- At a middle point the first sum is the point's product over what the point before left. -/
theorem at_B0 (t : Fin cfg0.N) (h0 : ¬t.val % 64 = 0) (h1 : ¬t.val % 64 = 63) :
    (outsAt0 m c t.val t.isLt).2.2.1 = next0 m c t (outsAt0 m c (t.val - 1) (Nat.lt_of_le_of_lt (Nat.sub_le _ _) t.isLt)).2.2.1 := by
  unfold next0
  rw [outsAt0_B m c t h0 h1]
  dsimp only
  exact sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At a middle point the second sum is the point's product over what the point before left. -/
theorem at_B1 (t : Fin cfg0.N) (h0 : ¬t.val % 64 = 0) (h1 : ¬t.val % 64 = 63) :
    (outsAt0 m c t.val t.isLt).2.2.2 = next1 m c t (outsAt0 m c (t.val - 1) (Nat.lt_of_le_of_lt (Nat.sub_le _ _) t.isLt)).2.2.2 := by
  unfold next1
  rw [outsAt0_B m c t h0 h1]
  dsimp only
  exact sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At the last point of a run the first sum is updated like at any other. -/
theorem at_C0 (t : Fin cfg0.N) (h0 : ¬t.val % 64 = 0) (h1 : t.val % 64 = 63) :
    (outsAt0 m c t.val t.isLt).2.2.1 = next0 m c t (outsAt0 m c (t.val - 1) (Nat.lt_of_le_of_lt (Nat.sub_le _ _) t.isLt)).2.2.1 := by
  unfold next0
  rw [outsAt0_C m c t h0 h1]
  dsimp only
  exact sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At the last point of a run the second sum is updated like at any other. -/
theorem at_C1 (t : Fin cfg0.N) (h0 : ¬t.val % 64 = 0) (h1 : t.val % 64 = 63) :
    (outsAt0 m c t.val t.isLt).2.2.2 = next1 m c t (outsAt0 m c (t.val - 1) (Nat.lt_of_le_of_lt (Nat.sub_le _ _) t.isLt)).2.2.2 := by
  unfold next1
  rw [outsAt0_C m c t h0 h1]
  dsimp only
  exact sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At the last point of a run the features block is the node network of the finished first sum. -/
theorem at_C21 (t : Fin cfg0.N) (h0 : ¬t.val % 64 = 0) (h1 : t.val % 64 = 63) :
    (outsAt0 m c t.val t.isLt).1 = k0_pay3 (iblk m c 14 t) (iblk m c 15 t) (next0 m c t (outsAt0 m c (t.val - 1) (Nat.lt_of_le_of_lt (Nat.sub_le _ _) t.isLt)).2.2.1) (iblk m c 17 t) (iblk m c 18 t) (iblk m c 19 t) (iblk m c 20 t) := by
  unfold next0
  rw [outsAt0_C m c t h0 h1]
  dsimp only
  exact oC21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At the last point of a run the coordinates block is the node's coordinates plus the finished second sum. -/
theorem at_C22 (t : Fin cfg0.N) (h0 : ¬t.val % 64 = 0) (h1 : t.val % 64 = 63) :
    (outsAt0 m c t.val t.isLt).2.1 = k0_pay4 (iblk m c 16 t) (next1 m c t (outsAt0 m c (t.val - 1) (Nat.lt_of_le_of_lt (Nat.sub_le _ _) t.isLt)).2.2.2) := by
  unfold next1
  rw [outsAt0_C m c t h0 h1]
  dsimp only
  exact oC22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Val

end
-- ==== Proof.KFold.lean ====
/-
  The two carried sums after every grid point, and the blocks the last point of a run writes.

  After point `t = 64·n + k` the first sum holds, at row `r` and column `h`, the terms of node `1024·n + r` over the
  edges of tiles `0 … k`: by induction on the point — a run's first point starts from zero, every later one adds its
  tile to what the point before left. At `k = 63` the tiles are all 32768 edges, so the sum is the node's row of the
  0/1 matrix against every edge's message; the second sum likewise against the coordinate updates. The two blocks
  written there are then the specification's new features and new coordinates of the block's nodes.
-/
import proofs.«148962_j8203387535901_2_alg».proof.Proof.KCase

noncomputable section

namespace Cert.KernelIdeal.Val

open Cert.KernelIdeal Cert.KernelIdeal.Gen Idealize.ShloMosaic Idealize.ShloMosaic.TcCoe Idealize.SL.Sem
open Idealize.ShloMosaic.ValueIdx Cert.Spec Cert.Tiles

variable (m : (ℓ : Loc nD τ sig) → Buf (Elt Ideal) ℓ) (c : Dev nD)

/-- What the two sums hold after point `n`, at row `r`. -/
def SumsAt (n : ℕ) (hn : n < cfg0.N) (r : Fin 1024) : Prop :=
  (∀ h : Fin 256, (outsAt0 m c n hn).2.2.1 (ix2 r h)
      = ∑ e ∈ Finset.range ((n % 64 + 1) * 512), fMsg m c (1024 * (n / 64) + r.val) h e)
  ∧ (∀ a : Fin 3, (outsAt0 m c n hn).2.2.2 (ix2 r a)
      = ∑ e ∈ Finset.range ((n % 64 + 1) * 512), fUpd m c (1024 * (n / 64) + r.val) a e)

/-- A run's first point: both sums are its tile's terms. -/
theorem sums_first (hP : PayFacts) (t : Fin cfg0.N) (h0 : t.val % 64 = 0) (r : Fin 1024) : SumsAt m c t.val t.isLt r := by
  have h1 : ¬t.val % 64 = 63 := by omega
  refine ⟨fun h => ?_, fun a => ?_⟩
  · refine (congrFun (at_A0 m c t h0 h1) (ix2 r h)).trans ?_
    exact step0 m c hP t (k0_pay5 (F := Ideal)) r h (by rw [hP.pay5, h0, Nat.zero_mul, Finset.sum_range_zero])
  · refine (congrFun (at_A1 m c t h0 h1) (ix2 r a)).trans ?_
    exact step1 m c hP t (k0_pay6 (F := Ideal)) r a (by rw [hP.pay6, h0, Nat.zero_mul, Finset.sum_range_zero])

/-- A later point of a run: both sums grow by its tile. -/
theorem sums_next (hP : PayFacts) (t : Fin cfg0.N) (h0 : ¬t.val % 64 = 0) (r : Fin 1024)
    (ih : SumsAt m c (t.val - 1) (Nat.lt_of_le_of_lt (Nat.sub_le _ _) t.isLt) r) : SumsAt m c t.val t.isLt r := by
  have e0 : (outsAt0 m c t.val t.isLt).2.2.1 = next0 m c t (outsAt0 m c (t.val - 1) (Nat.lt_of_le_of_lt (Nat.sub_le _ _) t.isLt)).2.2.1 := by
    by_cases h1 : t.val % 64 = 63
    · exact at_C0 m c t h0 h1
    · exact at_B0 m c t h0 h1
  have e1 : (outsAt0 m c t.val t.isLt).2.2.2 = next1 m c t (outsAt0 m c (t.val - 1) (Nat.lt_of_le_of_lt (Nat.sub_le _ _) t.isLt)).2.2.2 := by
    by_cases h1 : t.val % 64 = 63
    · exact at_C1 m c t h0 h1
    · exact at_B1 m c t h0 h1
  have k1 : (t.val - 1) % 64 + 1 = t.val % 64 := by omega
  have k2 : (t.val - 1) / 64 = t.val / 64 := by omega
  refine ⟨fun h => (congrFun e0 (ix2 r h)).trans (step0 m c hP t _ r h ?_), fun a => (congrFun e1 (ix2 r a)).trans (step1 m c hP t _ r a ?_)⟩
  · have := ih.1 h; rw [k1, k2] at this; exact this
  · have := ih.2 a; rw [k1, k2] at this; exact this

theorem sums (hP : PayFacts) : ∀ (n : ℕ) (hn : n < cfg0.N) (r : Fin 1024), SumsAt m c n hn r
  | 0, hn, r => sums_first m c hP ⟨0, hn⟩ rfl r
  | n + 1, hn, r => by
    by_cases h0 : (n + 1) % 64 = 0
    · exact sums_first m c hP ⟨n + 1, hn⟩ h0 r
    · exact sums_next m c hP ⟨n + 1, hn⟩ h0 r (sums hP n (Nat.lt_of_succ_lt hn) r)

/-- At a run's last point the sums run over every edge. -/
theorem sum0_done (hP : PayFacts) (t : Fin cfg0.N) (h63 : t.val % 64 = 63) (r : Fin 1024) (h : Fin 256) :
    (outsAt0 m c t.val t.isLt).2.2.1 (ix2 r h)
      = ∑ e : Fin 32768, arr2 2048 32768 (V m c main_arg3) (nodeOf t r) e * kMsg m c e h := by
  rw [(sums m c hP t.val t.isLt r).1 h, h63]
  exact sum_all (arr2 2048 32768 (V m c main_arg3)) (kMsg m c) _ (nodeOf t r).isLt h

theorem sum1_done (hP : PayFacts) (t : Fin cfg0.N) (h63 : t.val % 64 = 63) (r : Fin 1024) (a : Fin 3) :
    (outsAt0 m c t.val t.isLt).2.2.2 (ix2 r a)
      = ∑ e : Fin 32768, arr2 2048 32768 (V m c main_arg3) (nodeOf t r) e * kUpd m c e a := by
  rw [(sums m c hP t.val t.isLt r).2 a, h63]
  exact sum_all (arr2 2048 32768 (V m c main_arg3)) (kUpd m c) _ (nodeOf t r).isLt a

/-- The features block a run's last point writes is the new features of its 1024 nodes. -/
theorem out21_C (hP : PayFacts) (t : Fin cfg0.N) (h63 : t.val % 64 = 63) (r : Fin 1024) (q : Fin 256) :
    (outsAt0 m c t.val t.isLt).1 (ix2 r q) = kFeat m c (nodeOf t r) q := by
  have h0 : ¬t.val % 64 = 0 := by omega
  refine (congrFun (at_C21 m c t h0 h63) (ix2 r q)).trans ?_
  refine (hP.node (iblk m c 14 t) (iblk m c 15 t) (next0 m c t (outsAt0 m c (t.val - 1) (Nat.lt_of_le_of_lt (Nat.sub_le _ _) t.isLt)).2.2.1) (iblk m c 17 t) (iblk m c 18 t) (iblk m c 19 t) (iblk m c 20 t) r q).trans ?_
  unfold kFeat featOut
  rw [blkW17 m c t, blkW18 m c t, blkW19 m c t, blkW20 m c t]
  have f1 : arr2 1024 256 (iblk m c 14 t) r = arr2 2048 256 (V m c main_arg1) (nodeOf t r) := funext fun j => blkN14 m c t r j
  have f2 : arr2 1024 8 (iblk m c 15 t) r = arr2 2048 8 (V m c main_arg4) (nodeOf t r) := funext fun j => blkN15 m c t r j
  have f3 : arr2 1024 256 (next0 m c t (outsAt0 m c (t.val - 1) (Nat.lt_of_le_of_lt (Nat.sub_le _ _) t.isLt)).2.2.1) r
      = fun h => ∑ e : Fin 32768, arr2 2048 32768 (V m c main_arg3) (nodeOf t r) e * kMsg m c e h :=
    funext fun h => (congrFun (at_C0 m c t h0 h63) (ix2 r h)).symm.trans (sum0_done m c hP t h63 r h)
  rw [f1, f2, f3]

/-- The coordinates block a run's last point writes is the new coordinates of its 1024 nodes. -/
theorem out22_C (hP : PayFacts) (t : Fin cfg0.N) (h63 : t.val % 64 = 63) (r : Fin 1024) (a : Fin 3) :
    (outsAt0 m c t.val t.isLt).2.1 (ix2 r a) = kCrd m c (nodeOf t r) a := by
  have h0 : ¬t.val % 64 = 0 := by omega
  refine (congrFun (at_C22 m c t h0 h63) (ix2 r a)).trans ?_
  refine (hP.pay4 (iblk m c 16 t) (next1 m c t (outsAt0 m c (t.val - 1) (Nat.lt_of_le_of_lt (Nat.sub_le _ _) t.isLt)).2.2.2) (ix2 r a)).trans ?_
  have g1 : next1 m c t (outsAt0 m c (t.val - 1) (Nat.lt_of_le_of_lt (Nat.sub_le _ _) t.isLt)).2.2.2 (ix2 r a)
      = ∑ e : Fin 32768, arr2 2048 32768 (V m c main_arg3) (nodeOf t r) e * kUpd m c e a :=
    (congrFun (at_C1 m c t h0 h63) (ix2 r a)).symm.trans (sum1_done m c hP t h63 r a)
  rw [blkN16 m c t r a, g1]
  rfl

end Cert.KernelIdeal.Val

end
-- ==== Proof.KFinal.lean ====
/-
  From the blocks the last point of each run writes back to the two result arrays, and the run.

  The grid's 128 points are `t = 64·n + k`. The node-feature and the coordinate results are written back only at the
  points with `k = 63`; the block written at such a point holds the rows `1024·n … 1024·n + 1023` of its array and all
  its columns. So if at those points the two staging blocks hold a function `G` of the node and the column, the two
  blocks of each array tile it (row `i` lies in the block of the point `64·(i / 1024) + 63`), and the arrays end holding `G`.
-/
import proofs.«148962_j8203387535901_2_alg».proof.Proof.GenP.KernelIdeal.Value
import proofs.«148962_j8203387535901_2_alg».proof.Proof.KBlocks
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The point that writes row `r` back: the last point of the run of its node half. -/
def lastPt (r : ℕ) (hr : r < 2048) : Fin cfg0.N := ⟨64 * (r / 1024) + 63, by rw [N128]; omega⟩

theorem lastPt_mod (r : ℕ) (hr : r < 2048) : (lastPt r hr).val % 64 = 63 := by
  show (64 * (r / 1024) + 63) % 64 = 63
  omega

theorem lastPt_div (r : ℕ) (hr : r < 2048) : (lastPt r hr).val / 64 = r / 1024 := by
  show (64 * (r / 1024) + 63) / 64 = r / 1024
  omega

/-! ## The node features (output window 21) -/

/-- What a writing point writes back is its block of `G`. -/
theorem flushed21_eq (c : Dev nD) (G : Fin 2048 → Fin 256 → EReal)
    (hG : ∀ (t : Fin cfg0.N), t.val % 64 = 63 → ∀ (r : Fin 1024) (q : Fin 256),
      (outsAt0 m c t.val t.isLt).1 (ix2 r q) = G (nodeOf t r) q)
    (t : Fin cfg0.N) (hf : (cfg0.win 21).flush t = true) :
    (dats m 0 c).flushed 21 t = ((cfg0.win 21).blk t).view.read (Elt Ideal) (fun i => G (i 0) (i 1)) := by
  have h63 : t.val % 64 = 63 := (flush0_21 t).mp hf
  rw [Cert.KernelIdeal.Value.flushed21 m c t]
  funext j
  rw [View.read_apply]
  have hr : (j 0).val < 1024 := (j 0).isLt
  have hq : (j 1).val < 256 := (j 1).isLt
  refine (congrArg (outsAt0 m c t.val t.isLt).1
    (?_ : _ = ix2 (⟨(j 0).val, hr⟩ : Fin 1024) (⟨(j 1).val, hq⟩ : Fin 256))).trans ?_
  · funext a
    apply Fin.ext
    match a with
    | ⟨0, _⟩ => rfl
    | ⟨1, _⟩ => rfl
  rw [hG t h63]
  refine congrArg₂ G (Fin.ext ?_) (Fin.ext ?_)
  · show 1024 * (t.val / 64) + (j 0).val = win0_21.index t 0 * 1024 + 1 * (j 0).val
    rw [(idxO21 t).1]; omega
  · show (j 1).val = win0_21.index t 1 * 256 + 1 * (j 1).val
    rw [(idxO21 t).2]; omega

/-- An index of the array is in point `t`'s block iff each coordinate is in the block's range on its axis. -/
theorem mem_blk21 (t : Fin cfg0.N) (i : S2048x256.Idx) :
    i ∈ ((cfg0.win 21).blk t).view.set ↔ ∀ a : Fin 2, win0_21.index t a * S1024x256.size a ≤ (i a).val
      ∧ (i a).val < win0_21.index t a * S1024x256.size a + S1024x256.size a := by
  show i ∈ ((View.whole main_v21_0).slice (win0_21.rect t)).set ↔ _
  rw [View.set_slice_whole, Rect.mem_set_unit]
  exact Iff.rfl

/-- Every entry of the array is in the block of the last point of its node half's run. -/
theorem cover21 (i : S2048x256.Idx) :
    ∃ t : Fin cfg0.N, (cfg0.win 21).flush t = true ∧ i ∈ ((cfg0.win 21).blk t).view.set := by
  have h0 : (i 0).val < 2048 := (i 0).isLt
  have h1 : (i 1).val < 256 := (i 1).isLt
  refine ⟨lastPt (i 0).val h0, (flush0_21 _).mpr (lastPt_mod _ h0), ?_⟩
  rw [mem_blk21]
  intro a
  match a with
  | ⟨0, _⟩ =>
    show win0_21.index (lastPt (i 0).val h0) 0 * 1024 ≤ (i 0).val
      ∧ (i 0).val < win0_21.index (lastPt (i 0).val h0) 0 * 1024 + 1024
    rw [(idxO21 (lastPt (i 0).val h0)).1, lastPt_div]; omega
  | ⟨1, _⟩ =>
    show win0_21.index (lastPt (i 0).val h0) 1 * 256 ≤ (i 1).val
      ∧ (i 1).val < win0_21.index (lastPt (i 0).val h0) 1 * 256 + 256
    rw [(idxO21 (lastPt (i 0).val h0)).2]; omega

/-- The node-feature array after the run. -/
theorem final21 (c : Dev nD) (G : Fin 2048 → Fin 256 → EReal)
    (hG : ∀ (t : Fin cfg0.N), t.val % 64 = 63 → ∀ (r : Fin 1024) (q : Fin 256),
      (outsAt0 m c t.val t.isLt).1 (ix2 r q) = G (nodeOf t r) q) :
    (dats m 0 c).arrAt 21 cfg0.N = fun i => G (i 0) (i 1) :=
  (dats m 0 c).arrAt_eq_of_cover 21 (fun i => G (i 0) (i 1)) (flushed21_eq m c G hG) cover21

/-! ## The coordinates (output window 22) -/

theorem flushed22_eq (c : Dev nD) (G : Fin 2048 → Fin 3 → EReal)
    (hG : ∀ (t : Fin cfg0.N), t.val % 64 = 63 → ∀ (r : Fin 1024) (a : Fin 3),
      (outsAt0 m c t.val t.isLt).2.1 (ix2 r a) = G (nodeOf t r) a)
    (t : Fin cfg0.N) (hf : (cfg0.win 22).flush t = true) :
    (dats m 0 c).flushed 22 t = ((cfg0.win 22).blk t).view.read (Elt Ideal) (fun i => G (i 0) (i 1)) := by
  have h63 : t.val % 64 = 63 := (flush0_22 t).mp hf
  rw [Cert.KernelIdeal.Value.flushed22 m c t]
  funext j
  rw [View.read_apply]
  have hr : (j 0).val < 1024 := (j 0).isLt
  have hq : (j 1).val < 3 := (j 1).isLt
  refine (congrArg (outsAt0 m c t.val t.isLt).2.1
    (?_ : _ = ix2 (⟨(j 0).val, hr⟩ : Fin 1024) (⟨(j 1).val, hq⟩ : Fin 3))).trans ?_
  · funext a
    apply Fin.ext
    match a with
    | ⟨0, _⟩ => rfl
    | ⟨1, _⟩ => rfl
  rw [hG t h63]
  refine congrArg₂ G (Fin.ext ?_) (Fin.ext ?_)
  · show 1024 * (t.val / 64) + (j 0).val = win0_22.index t 0 * 1024 + 1 * (j 0).val
    rw [(idxO22 t).1]; omega
  · show (j 1).val = win0_22.index t 1 * 3 + 1 * (j 1).val
    rw [(idxO22 t).2]; omega

theorem mem_blk22 (t : Fin cfg0.N) (i : S2048x3.Idx) :
    i ∈ ((cfg0.win 22).blk t).view.set ↔ ∀ a : Fin 2, win0_22.index t a * S1024x3.size a ≤ (i a).val
      ∧ (i a).val < win0_22.index t a * S1024x3.size a + S1024x3.size a := by
  show i ∈ ((View.whole main_v21_1).slice (win0_22.rect t)).set ↔ _
  rw [View.set_slice_whole, Rect.mem_set_unit]
  exact Iff.rfl

theorem cover22 (i : S2048x3.Idx) :
    ∃ t : Fin cfg0.N, (cfg0.win 22).flush t = true ∧ i ∈ ((cfg0.win 22).blk t).view.set := by
  have h0 : (i 0).val < 2048 := (i 0).isLt
  have h1 : (i 1).val < 3 := (i 1).isLt
  refine ⟨lastPt (i 0).val h0, (flush0_22 _).mpr (lastPt_mod _ h0), ?_⟩
  rw [mem_blk22]
  intro a
  match a with
  | ⟨0, _⟩ =>
    show win0_22.index (lastPt (i 0).val h0) 0 * 1024 ≤ (i 0).val
      ∧ (i 0).val < win0_22.index (lastPt (i 0).val h0) 0 * 1024 + 1024
    rw [(idxO22 (lastPt (i 0).val h0)).1, lastPt_div]; omega
  | ⟨1, _⟩ =>
    show win0_22.index (lastPt (i 0).val h0) 1 * 3 ≤ (i 1).val
      ∧ (i 1).val < win0_22.index (lastPt (i 0).val h0) 1 * 3 + 3
    rw [(idxO22 (lastPt (i 0).val h0)).2]; omega

/-- The coordinate array after the run. -/
theorem final22 (c : Dev nD) (G : Fin 2048 → Fin 3 → EReal)
    (hG : ∀ (t : Fin cfg0.N), t.val % 64 = 63 → ∀ (r : Fin 1024) (a : Fin 3),
      (outsAt0 m c t.val t.isLt).2.1 (ix2 r a) = G (nodeOf t r) a) :
    (dats m 0 c).arrAt 22 cfg0.N = fun i => G (i 0) (i 1) :=
  (dats m 0 c).arrAt_eq_of_cover 22 (fun i => G (i 0) (i 1)) (flushed22_eq m c G hG) cover22

/-! ## The run -/

/-- The run, with both result arrays at their functions of the node and the column, and the arguments unchanged. -/
theorem run_of (G21 : Dev nD → Fin 2048 → Fin 256 → EReal) (G22 : Dev nD → Fin 2048 → Fin 3 → EReal)
    (h21 : ∀ (c : Dev nD) (t : Fin cfg0.N), t.val % 64 = 63 → ∀ (r : Fin 1024) (q : Fin 256),
      (outsAt0 m c t.val t.isLt).1 (ix2 r q) = G21 c (nodeOf t r) q)
    (h22 : ∀ (c : Dev nD) (t : Fin cfg0.N), t.val % 64 = 63 → ∀ (r : Fin 1024) (a : Fin 3),
      (outsAt0 m c t.val t.isLt).2.1 (ix2 r a) = G22 c (nodeOf t r) a) :
    θ_run defs (onTc (τ := τ) (main (F := Ideal))) ⟨m, fun _ => 0, ρ⟩ fun r => ∀ c : Dev nD,
      r.2.mem ((c : Thread nD τ).loc main_v21_1) = (fun i => G22 c (i 0) (i 1))
      ∧ r.2.mem ((c : Thread nD τ).loc main_v21_0) = (fun i => G21 c (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => by
      obtain ⟨a21, a22, rest⟩ := h c
      exact ⟨a22.trans (final22 m c (G22 c) (h22 c)), a21.trans (final21 m c (G21 c) (h21 c)), rest⟩)
    (Cert.KernelIdeal.Value.run_blocks m ρ)

end Cert.KernelIdeal.Val

end
-- ==== Proof.KGlue.lean ====
/-
  The kernel program prepares an edge's data as the reference does.

  Before its fused part the kernel program gathers, for every edge, the features of its two end nodes side by side and
  the difference of their coordinates, by the very operations of the reference: a negative node number is wrapped by
  2048, both end nodes' rows are gathered, the two rows of coordinates are sliced apart and subtracted. It then lays
  the difference and the 4 edge attributes side by side in one array of 7 columns. So the 512-column array its fused
  part reads is the reference's array of end-node features, columns 0–2 of the 7-column array are the reference's
  difference, and columns 3–6 are the edge attributes.
-/
import proofs.«148962_j8203387535901_2_alg».proof.Proof.Gen.KernelIdeal.Frame.Runs
import proofs.«148962_j8203387535901_2_alg».proof.Proof.Gen.ReferenceIdeal.Read
import proofs.«148962_j8203387535901_2_alg».proof.Proof.Spec
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Val

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The array of end-node features the fused part reads is the reference's: the same wrap of the node numbers, the
    same gather of both end nodes' rows, the same reshape to 512 columns. -/
theorem glue_h (c : Dev nD) : (V m c main_v19 : S32768x512.Idx → EReal)
    = Cert.ReferenceIdeal.Read.val_main_v14 (F := Ideal) (m ((c : Thread nD τ).loc main_arg1)) (m ((c : Thread nD τ).loc main_arg2)) := by
  dsimp only [Gen.V, Gen.hostOps0]
  after_results_simp
  rfl

/-- The 7-column array the fused part reads is the reference's difference of coordinates and the edge attributes
    laid side by side. -/
theorem v20_eq (c : Dev nD) : (V m c main_v20 : S32768x7.Idx → EReal)
    = concatenate S32768x7 1 [⟨S32768x3, Cert.ReferenceIdeal.Read.val_main_v19 (F := Ideal) (m ((c : Thread nD τ).loc main_arg0)) (m ((c : Thread nD τ).loc main_arg2))⟩,
        ⟨S32768x4, m ((c : Thread nD τ).loc main_arg5)⟩] concatenates_S32768x3_S32768x4_S32768x7_d1 := by
  dsimp only [Gen.V, Gen.hostOps0]
  after_results_simp
  rfl

/-- Columns 0–2 of the 7-column array are the reference's difference of coordinates. -/
theorem glue_d (c : Dev nD) (e : Fin 32768) (a : Fin 3) : V m c main_v20 (ix2 e (Cert.Spec.lo3 a))
    = Cert.ReferenceIdeal.Read.val_main_v19 (F := Ideal) (m ((c : Thread nD τ).loc main_arg0)) (m ((c : Thread nD τ).loc main_arg2)) (ix2 e a) := by
  refine (congrFun (v20_eq m c) (ix2 e (Cert.Spec.lo3 a))).trans ?_
  exact concatenate_pair_apply_left (t := S32768x7) 1 _ _ concatenates_S32768x3_S32768x4_S32768x7_d1 (ix2 e (Cert.Spec.lo3 a)) rfl (ix2 e a)
    (fun b => by match b with | ⟨0, _⟩ => rfl | ⟨1, _⟩ => rfl)

/-- Columns 3–6 of the 7-column array are the edge attributes. -/
theorem glue_ea (c : Dev nD) (e : Fin 32768) (a : Fin 4) : V m c main_v20 (ix2 e (Cert.Spec.hi4 a)) = m ((c : Thread nD τ).loc main_arg5) (ix2 e a) := by
  refine (congrFun (v20_eq m c) (ix2 e (Cert.Spec.hi4 a))).trans ?_
  exact concatenate_pair_apply_right (t := S32768x7) 1 _ _ concatenates_S32768x3_S32768x4_S32768x7_d1 (ix2 e (Cert.Spec.hi4 a)) rfl rfl (ix2 e a)
    (fun b hb => by
      match b, hb with
      | ⟨0, _⟩, _ => rfl
      | ⟨1, _⟩, hb => exact absurd rfl hb)
    (by show a.val + 3 = 3 + a.val; omega)

end Cert.KernelIdeal.Val

end
-- ==== Proof.RefEdge.lean ====
/-
  The reference program read edge by edge.

  For an edge `e` the reference forms the difference `d` of its two end nodes' coordinates and lays the two end
  nodes' features side by side, `f`; every later stage of the edge part works on row `e` alone. This module reads
  those stages at an index and identifies them with the specification's per-edge functions:

  * the length `√(0 + Σₐ dₐ·dₐ)` and its square, which is the squared length because a sum of squares is not negative;
  * the input row `[f | √s·√s | attributes]`, read in its three column ranges;
  * a silu step, spelt `x · (1 / (1 + e⁻ˣ))` with the float word of 1.0, which is the real number 1;
  * the dense layers `Σₖ xₖ·Wₖₕ + bₕ` and the two two-layer networks;
  * the gate `σ(φ·iW + ib)` and the gated message; the coordinate update `15·tanh(φₓ) · d / (max(√s, ε) + 1)`.
-/
import proofs.«148962_j8203387535901_2_alg».proof.Proof.Gen.ReferenceIdeal.Read
import proofs.«148962_j8203387535901_2_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.RefSpec

open Cert.ReferenceIdeal Cert.ReferenceIdeal.Gen Cert.ReferenceIdeal.Read Idealize.ShloMosaic Idealize.ShloMosaic.ValueIdx Cert.Spec

/-- Two rank-2 indices (one rank-1 index) written by cases on the axis are equal when they agree axis by axis. -/
local macro "idx2" : tactic => `(tactic| (funext a; match a with | ⟨0, _⟩ => rfl | ⟨1, _⟩ => rfl))
local macro "idx1" : tactic => `(tactic| (funext a; match a with | ⟨0, _⟩ => rfl))

variable (x0 : (⟨S2048x3, .f32⟩ : BufTy).Contents (Elt Ideal)) (x1 : (⟨S2048x256, .f32⟩ : BufTy).Contents (Elt Ideal))
  (x2 : (⟨S32768x2, .i32⟩ : BufTy).Contents (Elt Ideal)) (x5 : (⟨S32768x4, .f32⟩ : BufTy).Contents (Elt Ideal))
  (x6 : (⟨S517x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S517x256, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))
  (x14 : (⟨S256x1, .f32⟩ : BufTy).Contents (Elt Ideal)) (x19 : (⟨S256x1, .f32⟩ : BufTy).Contents (Elt Ideal))
  (x20 : (⟨S1, .f32⟩ : BufTy).Contents (Elt Ideal))

/-! ## The length of the difference and the input row -/

/-- The word of 1.0 the program writes is the real number 1. -/
theorem word_one : Ideal.ofBits .f32 0x3F800000#32 = 1 := one_word

/-- The distance of edge `e`: the root of the squared length of its difference (the sum starts from the word of 0.0). -/
theorem dist_at (e : Fin 32768) :
    val_main_v20 (F := Ideal) x0 x2 (ix2 e (0 : Fin 1))
      = Ideal.sqrt (sqLen (arr2 32768 3 (val_main_v19 (F := Ideal) x0 x2) e)) := by
  rw [val_main_v20_apply, val_main_call0_v2_apply, val_main_call0_v1_apply, val_main_call0_cst_apply]
  show Ideal.sqrt (Ideal.ofBits .f32 0x00000000#32 + _) = _
  rw [Ideal.ofBits_zero_f32, zero_add]
  refine congrArg Ideal.sqrt (Finset.sum_congr rfl fun k _ => ?_)
  have hi : idx_main_call0_v1 (idx_main_call0_v2 (ix2 e (0 : Fin 1))) k = ix2 e k := by idx2
  rw [val_main_call0_v0_apply, hi]
  rfl

/-- The distance times itself is the squared length. -/
theorem sq_at (e : Fin 32768) :
    val_main_v21 (F := Ideal) x0 x2 (ix2 e (0 : Fin 1)) = sqLen (arr2 32768 3 (val_main_v19 (F := Ideal) x0 x2) e) := by
  rw [val_main_v21_apply, dist_at]
  exact sqrt_mul_self_sqLen _

/-- The input row of edge `e` at column `j`: features below 512, the squared length at 512, attributes above. -/
theorem row_at (e : Fin 32768) (j : Fin 517) :
    val_main_v22 (F := Ideal) x0 x1 x2 x5 (ix2 e j)
      = edgeIn (arr2 32768 512 (val_main_v14 (F := Ideal) x1 x2) e)
          (sqLen (arr2 32768 3 (val_main_v19 (F := Ideal) x0 x2) e)) (arr2 32768 4 x5 e) j := by
  have key := concatenate_apply_piece (α := EReal) (t := S32768x517) 1
    [⟨S32768x512, val_main_v14 (F := Ideal) x1 x2⟩, ⟨S32768x1, val_main_v21 (F := Ideal) x0 x2⟩, ⟨S32768x4, x5⟩]
    concatenates_S32768x512_S32768x1_S32768x4_S32768x517_d1 (ix2 e j)
  unfold val_main_v22 edgeIn
  by_cases h1 : j.val < 512
  · rw [dif_pos h1]
    exact key 0 (by show 0 < 3; omega) S32768x512 (val_main_v14 (F := Ideal) x1 x2) rfl rfl 0 rfl (ix2 e ⟨j.val, h1⟩)
      (fun b hb => by
        match b, hb with
        | ⟨0, _⟩, _ => rfl
        | ⟨1, _⟩, hb => exact absurd rfl hb)
      (by show 0 + j.val = j.val; omega)
  · rw [dif_neg h1]
    by_cases h2 : j.val = 512
    · rw [dif_pos h2, ← sq_at x0 x2 e]
      exact key 1 (by show 1 < 3; omega) S32768x1 (val_main_v21 (F := Ideal) x0 x2) rfl rfl 512 rfl (ix2 e (0 : Fin 1))
        (fun b hb => by
        match b, hb with
        | ⟨0, _⟩, _ => rfl
        | ⟨1, _⟩, hb => exact absurd rfl hb)
        (by show 512 + 0 = j.val; omega)
    · rw [dif_neg h2]
      exact key 2 (by show 2 < 3; omega) S32768x4 x5 rfl rfl 513 rfl (ix2 e ⟨j.val - 513, by have := j.isLt; omega⟩)
        (fun b hb => by
        match b, hb with
        | ⟨0, _⟩, _ => rfl
        | ⟨1, _⟩, hb => exact absurd rfl hb)
        (by show 513 + (j.val - 513) = j.val; omega)

/-- The whole input row of edge `e`. -/
theorem row_eq (e : Fin 32768) :
    (fun j : Fin 517 => val_main_v22 (F := Ideal) x0 x1 x2 x5 (ix2 e j))
      = edgeIn (arr2 32768 512 (val_main_v14 (F := Ideal) x1 x2) e)
          (sqLen (arr2 32768 3 (val_main_v19 (F := Ideal) x0 x2) e)) (arr2 32768 4 x5 e) :=
  funext (row_at x0 x1 x2 x5 e)

/-! ## The silu steps -/

/-- `x · (1 / (1 + e⁻ˣ))`, written with the word of 1.0, is `x · σ(x)`. -/
theorem silu_word (x : EReal) :
    x * Ideal.div (Ideal.ofBits .f32 0x3F800000#32) (Ideal.ofBits .f32 0x3F800000#32 + Ideal.exp (-x)) = silu x := by
  rw [word_one]
  rfl

/-- The message network's first silu step. -/
theorem v27_silu (i : S32768x256.Idx) :
    val_main_v27 (F := Ideal) x0 x1 x2 x5 x6 x7 i = silu (val_main_v26 (F := Ideal) x0 x1 x2 x5 x6 x7 i) := by
  rw [val_main_v27_apply, val_main_call1_v5_apply, val_main_call1_v4_apply, val_main_call1_cst_0_apply,
    val_main_call1_v3_apply, val_main_call1_v2_apply, val_main_call1_cst_apply, val_main_call1_v1_apply,
    val_main_call1_v0_apply]
  exact silu_word _

/-- The message network's second silu step. -/
theorem v32_silu (i : S32768x256.Idx) :
    val_main_v32 (F := Ideal) x0 x1 x2 x5 x6 x7 x8 x9 i = silu (val_main_v31 (F := Ideal) x0 x1 x2 x5 x6 x7 x8 x9 i) := by
  rw [val_main_v32_apply, val_main_call2_v5_apply, val_main_call2_v4_apply, val_main_call2_cst_0_apply,
    val_main_call2_v3_apply, val_main_call2_v2_apply, val_main_call2_cst_apply, val_main_call2_v1_apply,
    val_main_call2_v0_apply]
  exact silu_word _

/-- The coordinate network's first silu step. -/
theorem v37_silu (i : S32768x256.Idx) :
    val_main_v37 (F := Ideal) x0 x1 x2 x5 x10 x11 i = silu (val_main_v36 (F := Ideal) x0 x1 x2 x5 x10 x11 i) := by
  rw [val_main_v37_apply, val_main_call3_v5_apply, val_main_call3_v4_apply, val_main_call3_cst_0_apply,
    val_main_call3_v3_apply, val_main_call3_v2_apply, val_main_call3_cst_apply, val_main_call3_v1_apply,
    val_main_call3_v0_apply]
  exact silu_word _

/-- The coordinate network's second silu step. -/
theorem v42_silu (i : S32768x256.Idx) :
    val_main_v42 (F := Ideal) x0 x1 x2 x5 x10 x11 x12 x13 i = silu (val_main_v41 (F := Ideal) x0 x1 x2 x5 x10 x11 x12 x13 i) := by
  rw [val_main_v42_apply, val_main_call4_v5_apply, val_main_call4_v4_apply, val_main_call4_cst_0_apply,
    val_main_call4_v3_apply, val_main_call4_v2_apply, val_main_call4_cst_apply, val_main_call4_v1_apply,
    val_main_call4_v0_apply]
  exact silu_word _

/-! ## The dense layers -/

/-- The message network's first dense layer, over the 517 entries of the input row. -/
theorem v26_lin (e : Fin 32768) (h : Fin 256) :
    val_main_v26 (F := Ideal) x0 x1 x2 x5 x6 x7 (ix2 e h)
      = lin (fun k : Fin 517 => val_main_v22 (F := Ideal) x0 x1 x2 x5 (ix2 e k)) (arr2 517 256 x6) (arr1 256 x7) h := by
  have hb : idx_main_v24 (idx_main_v25 (ix2 e h)) = ix1 h := by idx1
  rw [val_main_v26_apply, val_main_v23_apply, val_main_v25_apply, val_main_v24_apply, hb]
  refine congrArg (fun s : EReal => s + x7 (ix1 h)) (Finset.sum_congr rfl fun k _ => ?_)
  have hl : lidx_main_v23 (ix2 e h) k = ix2 e k := by idx2
  have hr : ridx_main_v23 (ix2 e h) k = ix2 k h := by idx2
  rw [hl, hr]
  rfl

/-- The message network's second dense layer, over the 256 outputs of its first silu step. -/
theorem v31_lin (e : Fin 32768) (h : Fin 256) :
    val_main_v31 (F := Ideal) x0 x1 x2 x5 x6 x7 x8 x9 (ix2 e h)
      = lin (fun k : Fin 256 => val_main_v27 (F := Ideal) x0 x1 x2 x5 x6 x7 (ix2 e k)) (arr2 256 256 x8) (arr1 256 x9) h := by
  have hb : idx_main_v29 (idx_main_v30 (ix2 e h)) = ix1 h := by idx1
  rw [val_main_v31_apply, val_main_v28_apply, val_main_v30_apply, val_main_v29_apply, hb]
  refine congrArg (fun s : EReal => s + x9 (ix1 h)) (Finset.sum_congr rfl fun k _ => ?_)
  have hl : lidx_main_v28 (ix2 e h) k = ix2 e k := by idx2
  have hr : ridx_main_v28 (ix2 e h) k = ix2 k h := by idx2
  rw [hl, hr]
  rfl

/-- The coordinate network's first dense layer, over the 517 entries of the input row. -/
theorem v36_lin (e : Fin 32768) (h : Fin 256) :
    val_main_v36 (F := Ideal) x0 x1 x2 x5 x10 x11 (ix2 e h)
      = lin (fun k : Fin 517 => val_main_v22 (F := Ideal) x0 x1 x2 x5 (ix2 e k)) (arr2 517 256 x10) (arr1 256 x11) h := by
  have hb : idx_main_v34 (idx_main_v35 (ix2 e h)) = ix1 h := by idx1
  rw [val_main_v36_apply, val_main_v33_apply, val_main_v35_apply, val_main_v34_apply, hb]
  refine congrArg (fun s : EReal => s + x11 (ix1 h)) (Finset.sum_congr rfl fun k _ => ?_)
  have hl : lidx_main_v33 (ix2 e h) k = ix2 e k := by idx2
  have hr : ridx_main_v33 (ix2 e h) k = ix2 k h := by idx2
  rw [hl, hr]
  rfl

/-- The coordinate network's second dense layer, over the 256 outputs of its first silu step. -/
theorem v41_lin (e : Fin 32768) (h : Fin 256) :
    val_main_v41 (F := Ideal) x0 x1 x2 x5 x10 x11 x12 x13 (ix2 e h)
      = lin (fun k : Fin 256 => val_main_v37 (F := Ideal) x0 x1 x2 x5 x10 x11 (ix2 e k)) (arr2 256 256 x12) (arr1 256 x13) h := by
  have hb : idx_main_v39 (idx_main_v40 (ix2 e h)) = ix1 h := by idx1
  rw [val_main_v41_apply, val_main_v38_apply, val_main_v40_apply, val_main_v39_apply, hb]
  refine congrArg (fun s : EReal => s + x13 (ix1 h)) (Finset.sum_congr rfl fun k _ => ?_)
  have hl : lidx_main_v38 (ix2 e h) k = ix2 e k := by idx2
  have hr : ridx_main_v38 (ix2 e h) k = ix2 k h := by idx2
  rw [hl, hr]
  rfl

/-! ## The two networks on the input row -/

/-- The message network on the input row of edge `e`. -/
theorem msg_net (e : Fin 32768) (h : Fin 256) :
    val_main_v32 (F := Ideal) x0 x1 x2 x5 x6 x7 x8 x9 (ix2 e h)
      = mlp2 (edgeIn (arr2 32768 512 (val_main_v14 (F := Ideal) x1 x2) e) (sqLen (arr2 32768 3 (val_main_v19 (F := Ideal) x0 x2) e)) (arr2 32768 4 x5 e))
          (arr2 517 256 x6) (arr1 256 x7) (arr2 256 256 x8) (arr1 256 x9) h := by
  rw [v32_silu, v31_lin, ← row_eq x0 x1 x2 x5 e]
  unfold mlp2
  refine congrArg silu (congrArg (fun x : Fin 256 → EReal => lin x (arr2 256 256 x8) (arr1 256 x9) h) (funext fun k => ?_))
  rw [v27_silu, v26_lin]

/-- The coordinate network on the input row of edge `e`. -/
theorem crd_net (e : Fin 32768) (h : Fin 256) :
    val_main_v42 (F := Ideal) x0 x1 x2 x5 x10 x11 x12 x13 (ix2 e h)
      = mlp2 (edgeIn (arr2 32768 512 (val_main_v14 (F := Ideal) x1 x2) e) (sqLen (arr2 32768 3 (val_main_v19 (F := Ideal) x0 x2) e)) (arr2 32768 4 x5 e))
          (arr2 517 256 x10) (arr1 256 x11) (arr2 256 256 x12) (arr1 256 x13) h := by
  rw [v42_silu, v41_lin, ← row_eq x0 x1 x2 x5 e]
  unfold mlp2
  refine congrArg silu (congrArg (fun x : Fin 256 → EReal => lin x (arr2 256 256 x12) (arr1 256 x13) h) (funext fun k => ?_))
  rw [v37_silu, v36_lin]

/-! ## The gate and the gated message -/

/-- The gate of edge `e`: the logistic function of the message network's output against `iW`, plus `ib`. -/
theorem gate_at (e : Fin 32768) :
    val_main_v53 (F := Ideal) x0 x1 x2 x5 x6 x7 x8 x9 x19 x20 (ix2 e (0 : Fin 1))
      = Ideal.logistic ((∑ j : Fin 256, mlp2 (edgeIn (arr2 32768 512 (val_main_v14 (F := Ideal) x1 x2) e) (sqLen (arr2 32768 3 (val_main_v19 (F := Ideal) x0 x2) e)) (arr2 32768 4 x5 e))
            (arr2 517 256 x6) (arr1 256 x7) (arr2 256 256 x8) (arr1 256 x9) j * col1 256 x19 j) + x20 (ix1 0)) := by
  have hb : idx_main_v45 (idx_main_v46 (ix2 e (0 : Fin 1))) = ix1 (0 : Fin 1) := by idx1
  rw [val_main_v53_apply, val_main_v52_apply, val_main_cst_3_apply, val_main_v51_apply, val_main_v50_apply,
    val_main_cst_apply, val_main_v49_apply, val_main_v48_apply, val_main_v47_apply, val_main_v44_apply,
    val_main_v46_apply, val_main_v45_apply, hb]
  show Ideal.div (Ideal.ofBits .f32 0x3F800000#32) (Ideal.ofBits .f32 0x3F800000#32 + Ideal.exp (-(_ + x20 (ix1 0)))) = _
  rw [word_one]
  refine congrArg (fun s : EReal => Ideal.div 1 (1 + Ideal.exp (-(s + x20 (ix1 0))))) (Finset.sum_congr rfl fun k _ => ?_)
  have hl : lidx_main_v44 (ix2 e (0 : Fin 1)) k = ix2 e k := by idx2
  have hr : ridx_main_v44 (ix2 e (0 : Fin 1)) k = ix2 k (0 : Fin 1) := by idx2
  rw [hl, hr, msg_net]
  rfl

/-- **The message of edge `e`, column `h`.** -/
theorem msg_eq (e : Fin 32768) (h : Fin 256) :
    val_main_v55 (F := Ideal) x0 x1 x2 x5 x6 x7 x8 x9 x19 x20 (ix2 e h)
      = edgeMsg (arr2 32768 512 (val_main_v14 (F := Ideal) x1 x2) e) (arr2 32768 3 (val_main_v19 (F := Ideal) x0 x2) e) (arr2 32768 4 x5 e)
          (arr2 517 256 x6) (arr1 256 x7) (arr2 256 256 x8) (arr1 256 x9) (col1 256 x19) (x20 (ix1 0)) h := by
  have hi : idx_main_v54 (ix2 e h) = ix2 e (0 : Fin 1) := by idx2
  rw [val_main_v55_apply, val_main_v54_apply, hi, gate_at, msg_net]
  rfl

/-! ## The coordinate update -/

/-- The scale of edge `e`'s update: `15 · tanh` of the coordinate network's output against `cW3`. -/
theorem scale_at (e : Fin 32768) :
    val_main_v70 (F := Ideal) x0 x1 x2 x5 x10 x11 x12 x13 x14 (ix2 e (0 : Fin 1))
      = c15 * Ideal.tanh (∑ j : Fin 256, mlp2 (edgeIn (arr2 32768 512 (val_main_v14 (F := Ideal) x1 x2) e) (sqLen (arr2 32768 3 (val_main_v19 (F := Ideal) x0 x2) e)) (arr2 32768 4 x5 e))
            (arr2 517 256 x10) (arr1 256 x11) (arr2 256 256 x12) (arr1 256 x13) j * col1 256 x14 j) := by
  rw [val_main_v70_apply, val_main_v69_apply, val_main_cst_4_apply, val_main_v68_apply, val_main_v43_apply]
  refine congrArg (fun s : EReal => c15 * Ideal.tanh s) (Finset.sum_congr rfl fun k _ => ?_)
  have hl : lidx_main_v43 (ix2 e (0 : Fin 1)) k = ix2 e k := by idx2
  have hr : ridx_main_v43 (ix2 e (0 : Fin 1)) k = ix2 k (0 : Fin 1) := by idx2
  rw [hl, hr, crd_net]
  rfl

/-- The divisor of edge `e`'s update: the distance, not below `ε`, plus one. -/
theorem den_at (e : Fin 32768) :
    val_main_v74 (F := Ideal) x0 x2 (ix2 e (0 : Fin 1))
      = max (Ideal.sqrt (sqLen (arr2 32768 3 (val_main_v19 (F := Ideal) x0 x2) e))) cEps + cOne := by
  rw [val_main_v74_apply, val_main_v73_apply, val_main_cst_6_apply, val_main_v72_apply, val_main_v71_apply,
    val_main_cst_5_apply, dist_at]
  rfl

/-- **The coordinate update of edge `e`, axis `a`.** -/
theorem upd_eq (e : Fin 32768) (a : Fin 3) :
    val_main_v78 (F := Ideal) x0 x1 x2 x5 x10 x11 x12 x13 x14 (ix2 e a)
      = edgeCrd (arr2 32768 512 (val_main_v14 (F := Ideal) x1 x2) e) (arr2 32768 3 (val_main_v19 (F := Ideal) x0 x2) e) (arr2 32768 4 x5 e)
          (arr2 517 256 x10) (arr1 256 x11) (arr2 256 256 x12) (arr1 256 x13) (col1 256 x14) a := by
  have h77 : idx_main_v77 (ix2 e a) = ix2 e (0 : Fin 1) := by idx2
  have h75 : idx_main_v75 (ix2 e a) = ix2 e (0 : Fin 1) := by idx2
  rw [val_main_v78_apply, val_main_v77_apply, val_main_v76_apply, val_main_v75_apply, h77, h75, scale_at, den_at]
  rfl

end Cert.RefSpec

end
-- ==== Proof.RefNode.lean ====
/-
  The reference program, node by node.

  Given the per-edge messages `M e h` and coordinate updates `U e a` as abstract functions, the reference's two results
  are the specification's node functions: a node's summed messages `Σₑ R[n,e]·M[e,h]`, its input row
  `[features | summed messages | node attributes]`, the two dense layers with `x·(1/(1+e⁻ˣ))` between them (which is
  `x·σ(x)` once the float word of 1.0 is read as the real 1), the residual sum with the node's own features; and for
  the coordinates the node's own plus `Σₑ R[n,e]·U[e,a]`.
-/
import proofs.«148962_j8203387535901_2_alg».proof.Proof.Gen.ReferenceIdeal.Read
import proofs.«148962_j8203387535901_2_alg».proof.Proof.Spec
import Idealize.ShloMosaic.Lib.Pipeline.Value
import Idealize.ShloMosaic.Lib.ValueIdx
import Idealize.ShloMosaic.PureOps.Ideal.Laws

noncomputable section

namespace Cert.RefSpec

open Cert.ReferenceIdeal Cert.ReferenceIdeal.Read Idealize.ShloMosaic Idealize.ShloMosaic.ValueIdx Cert.Spec

variable (x0 : (⟨S2048x3, .f32⟩ : BufTy).Contents (Elt Ideal)) (x1 : (⟨S2048x256, .f32⟩ : BufTy).Contents (Elt Ideal))
  (x2 : (⟨S32768x2, .i32⟩ : BufTy).Contents (Elt Ideal)) (x3 : (⟨S2048x32768, .f32⟩ : BufTy).Contents (Elt Ideal))
  (x4 : (⟨S2048x8, .f32⟩ : BufTy).Contents (Elt Ideal)) (x5 : (⟨S32768x4, .f32⟩ : BufTy).Contents (Elt Ideal))
  (x6 : (⟨S517x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S517x256, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))
  (x14 : (⟨S256x1, .f32⟩ : BufTy).Contents (Elt Ideal)) (x15 : (⟨S520x256, .f32⟩ : BufTy).Contents (Elt Ideal))
  (x16 : (⟨S256, .f32⟩ : BufTy).Contents (Elt Ideal)) (x17 : (⟨S256x256, .f32⟩ : BufTy).Contents (Elt Ideal))
  (x18 : (⟨S256, .f32⟩ : BufTy).Contents (Elt Ideal)) (x19 : (⟨S256x1, .f32⟩ : BufTy).Contents (Elt Ideal))
  (x20 : (⟨S1, .f32⟩ : BufTy).Contents (Elt Ideal))

/-! ## Indices by coordinates -/

theorem node_lidx79 (n : Fin 2048) (a : Fin 3) (k : Fin 32768) : lidx_main_v79 (ix2 n a) k = ix2 n k :=
  funext fun d => Fin.ext (by match d with | ⟨0, _⟩ => rfl | ⟨1, _⟩ => rfl)
theorem node_ridx79 (n : Fin 2048) (a : Fin 3) (k : Fin 32768) : ridx_main_v79 (ix2 n a) k = ix2 k a :=
  funext fun d => Fin.ext (by match d with | ⟨0, _⟩ => rfl | ⟨1, _⟩ => rfl)
theorem node_lidx56 (n : Fin 2048) (h : Fin 256) (k : Fin 32768) : lidx_main_v56 (ix2 n h) k = ix2 n k :=
  funext fun d => Fin.ext (by match d with | ⟨0, _⟩ => rfl | ⟨1, _⟩ => rfl)
theorem node_ridx56 (n : Fin 2048) (h : Fin 256) (k : Fin 32768) : ridx_main_v56 (ix2 n h) k = ix2 k h :=
  funext fun d => Fin.ext (by match d with | ⟨0, _⟩ => rfl | ⟨1, _⟩ => rfl)
theorem node_lidx58 (n : Fin 2048) (c : Fin 256) (k : Fin 520) : lidx_main_v58 (ix2 n c) k = ix2 n k :=
  funext fun d => Fin.ext (by match d with | ⟨0, _⟩ => rfl | ⟨1, _⟩ => rfl)
theorem node_ridx58 (n : Fin 2048) (c : Fin 256) (k : Fin 520) : ridx_main_v58 (ix2 n c) k = ix2 k c :=
  funext fun d => Fin.ext (by match d with | ⟨0, _⟩ => rfl | ⟨1, _⟩ => rfl)
theorem node_lidx63 (n : Fin 2048) (c : Fin 256) (k : Fin 256) : lidx_main_v63 (ix2 n c) k = ix2 n k :=
  funext fun d => Fin.ext (by match d with | ⟨0, _⟩ => rfl | ⟨1, _⟩ => rfl)
theorem node_ridx63 (n : Fin 2048) (c : Fin 256) (k : Fin 256) : ridx_main_v63 (ix2 n c) k = ix2 k c :=
  funext fun d => Fin.ext (by match d with | ⟨0, _⟩ => rfl | ⟨1, _⟩ => rfl)
/-- A bias vector broadcast down the rows is read at its column. -/
theorem node_idx60 (n : Fin 2048) (c : Fin 256) : idx_main_v59 (idx_main_v60 (ix2 n c)) = ix1 c :=
  funext fun d => Fin.ext (by match d with | ⟨0, _⟩ => rfl)
theorem node_idx65 (n : Fin 2048) (c : Fin 256) : idx_main_v64 (idx_main_v65 (ix2 n c)) = ix1 c :=
  funext fun d => Fin.ext (by match d with | ⟨0, _⟩ => rfl)

/-! ## The coordinates -/

/-- A node's new coordinates: its own plus the updates summed through `R`. -/
theorem crd_of_upd (U : Fin 32768 → Fin 3 → EReal)
    (hU : ∀ (e : Fin 32768) (a : Fin 3), val_main_v78 (F := Ideal) x0 x1 x2 x5 x10 x11 x12 x13 x14 (ix2 e a) = U e a)
    (n : Fin 2048) (a : Fin 3) :
    val_main_v80 (F := Ideal) x0 x1 x2 x3 x5 x10 x11 x12 x13 x14 (ix2 n a)
      = crdOut (arr2 2048 3 x0) (arr2 2048 32768 x3) U n a := by
  rw [val_main_v80_apply, val_main_v79_apply, Ideal.addf_def]
  unfold crdOut arr2
  refine congrArg₂ (· + ·) rfl (Finset.sum_congr rfl fun k _ => ?_)
  rw [node_lidx79, node_ridx79, hU]

/-! ## The features -/

/-- A node's summed messages. -/
theorem node_agg (M : Fin 32768 → Fin 256 → EReal)
    (hM : ∀ (e : Fin 32768) (h : Fin 256), val_main_v55 (F := Ideal) x0 x1 x2 x5 x6 x7 x8 x9 x19 x20 (ix2 e h) = M e h) (n : Fin 2048) (h : Fin 256) :
    val_main_v56 (F := Ideal) x0 x1 x2 x3 x5 x6 x7 x8 x9 x19 x20 (ix2 n h) = ∑ e : Fin 32768, arr2 2048 32768 x3 n e * M e h := by
  rw [val_main_v56_apply]
  unfold arr2
  refine Finset.sum_congr rfl fun k _ => ?_
  rw [node_lidx56, node_ridx56, hM]

/-- Three arrays laid side by side along the columns, 256 + 256 + 8 wide, read at row `n`, column `j`. -/
theorem node_concat (f g : S2048x256.Idx → EReal) (na : S2048x8.Idx → EReal)
    (hc : Shape.Concatenates [S2048x256, S2048x256, S2048x8] S2048x520 1) (n : Fin 2048) (j : Fin 520) :
    concatenate S2048x520 1 [⟨S2048x256, f⟩, ⟨S2048x256, g⟩, ⟨S2048x8, na⟩] hc (ix2 n j)
      = nodeIn (fun h => f (ix2 n h)) (fun h => g (ix2 n h)) (fun h => na (ix2 n h)) j := by
  unfold nodeIn
  by_cases h1 : j.val < 256
  · rw [dif_pos h1]
    exact concatenate_apply_piece (1 : Fin S2048x520.rank) _ _ (ix2 n j) 0 (by show 0 < 3; decide) S2048x256 f rfl rfl
      0 rfl (ix2 n ⟨j.val, h1⟩)
      (fun b hb => by match b with | ⟨0, _⟩ => rfl | ⟨1, _⟩ => exact absurd rfl hb) (Nat.zero_add _)
  · rw [dif_neg h1]
    by_cases h2 : j.val < 512
    · rw [dif_pos h2]
      exact concatenate_apply_piece (1 : Fin S2048x520.rank) _ _ (ix2 n j) 1 (by show 1 < 3; decide) S2048x256 g rfl rfl
        256 rfl (ix2 n ⟨j.val - 256, by omega⟩)
        (fun b hb => by match b with | ⟨0, _⟩ => rfl | ⟨1, _⟩ => exact absurd rfl hb)
        (by show 256 + (j.val - 256) = j.val; omega)
    · rw [dif_neg h2]
      exact concatenate_apply_piece (1 : Fin S2048x520.rank) _ _ (ix2 n j) 2 (by show 2 < 3; decide) S2048x8 na rfl rfl
        512 rfl (ix2 n ⟨j.val - 512, by have := j.isLt; omega⟩)
        (fun b hb => by match b with | ⟨0, _⟩ => rfl | ⟨1, _⟩ => exact absurd rfl hb)
        (by show 512 + (j.val - 512) = j.val; omega)

/-- A node's input row `[features | summed messages | node attributes]`. -/
theorem node_row (M : Fin 32768 → Fin 256 → EReal)
    (hM : ∀ (e : Fin 32768) (h : Fin 256), val_main_v55 (F := Ideal) x0 x1 x2 x5 x6 x7 x8 x9 x19 x20 (ix2 e h) = M e h) (n : Fin 2048) (j : Fin 520) :
    val_main_v57 (F := Ideal) x0 x1 x2 x3 x4 x5 x6 x7 x8 x9 x19 x20 (ix2 n j)
      = nodeIn (arr2 2048 256 x1 n) (fun h => ∑ e : Fin 32768, arr2 2048 32768 x3 n e * M e h) (arr2 2048 8 x4 n) j := by
  unfold val_main_v57
  refine (node_concat x1 (val_main_v56 (F := Ideal) x0 x1 x2 x3 x5 x6 x7 x8 x9 x19 x20) x4 _ n j).trans ?_
  have hg : (fun h : Fin 256 => val_main_v56 (F := Ideal) x0 x1 x2 x3 x5 x6 x7 x8 x9 x19 x20 (ix2 n h))
      = (fun h => ∑ e : Fin 32768, arr2 2048 32768 x3 n e * M e h) := funext fun h => node_agg x0 x1 x2 x3 x5 x6 x7 x8 x9 x19 x20 M hM n h
  rw [hg]
  rfl

/-- The first dense layer on the input row. -/
theorem node_hidden (M : Fin 32768 → Fin 256 → EReal)
    (hM : ∀ (e : Fin 32768) (h : Fin 256), val_main_v55 (F := Ideal) x0 x1 x2 x5 x6 x7 x8 x9 x19 x20 (ix2 e h) = M e h) (n : Fin 2048) (c : Fin 256) :
    val_main_v61 (F := Ideal) x0 x1 x2 x3 x4 x5 x6 x7 x8 x9 x15 x16 x19 x20 (ix2 n c)
      = lin (nodeIn (arr2 2048 256 x1 n) (fun h => ∑ e : Fin 32768, arr2 2048 32768 x3 n e * M e h) (arr2 2048 8 x4 n)) (arr2 520 256 x15) (arr1 256 x16) c := by
  rw [val_main_v61_apply, val_main_v58_apply, val_main_v60_apply, val_main_v59_apply, node_idx60, Ideal.addf_def]
  unfold lin
  refine congrArg₂ (· + ·) (Finset.sum_congr rfl fun k _ => ?_) rfl
  rw [node_lidx58, node_ridx58, node_row x0 x1 x2 x3 x4 x5 x6 x7 x8 x9 x19 x20 M hM]
  rfl

/-- `x · (1/(1 + e⁻ˣ))`, spelt with the float word of 1.0, is `x·σ(x)`. -/
theorem node_silu (n : Fin 2048) (c : Fin 256) :
    val_main_v62 (F := Ideal) x0 x1 x2 x3 x4 x5 x6 x7 x8 x9 x15 x16 x19 x20 (ix2 n c) = silu (val_main_v61 (F := Ideal) x0 x1 x2 x3 x4 x5 x6 x7 x8 x9 x15 x16 x19 x20 (ix2 n c)) := by
  rw [val_main_v62_apply, val_main_call5_v5_apply, val_main_call5_v4_apply, val_main_call5_cst_0_apply,
    val_main_call5_v3_apply, val_main_call5_v2_apply, val_main_call5_cst_apply, val_main_call5_v1_apply,
    val_main_call5_v0_apply]
  generalize val_main_v61 (F := Ideal) x0 x1 x2 x3 x4 x5 x6 x7 x8 x9 x15 x16 x19 x20 (ix2 n c) = x
  have h1 : Ideal.ofBits .f32 0x3F800000#32 = 1 := one_word
  simp only [Ideal.mulf_def, Ideal.hostDivf_def, Ideal.addf_def, Ideal.hostUnary_exp_def, Ideal.hostNegf_def,
    Ideal.negf_def, Ideal.ofBits_def, h1]
  rfl

/-- A node's new features: its own plus the node network of its input row. -/
theorem feat_of_msg (M : Fin 32768 → Fin 256 → EReal)
    (hM : ∀ (e : Fin 32768) (h : Fin 256), val_main_v55 (F := Ideal) x0 x1 x2 x5 x6 x7 x8 x9 x19 x20 (ix2 e h) = M e h) (n : Fin 2048) (c : Fin 256) :
    val_main_v67 (F := Ideal) x0 x1 x2 x3 x4 x5 x6 x7 x8 x9 x15 x16 x17 x18 x19 x20 (ix2 n c)
      = featOut (arr2 2048 256 x1) (arr2 2048 32768 x3) (arr2 2048 8 x4) M (arr2 520 256 x15) (arr1 256 x16)
          (arr2 256 256 x17) (arr1 256 x18) n c := by
  rw [val_main_v67_apply, val_main_v66_apply, val_main_v63_apply, val_main_v65_apply, val_main_v64_apply, node_idx65,
    Ideal.addf_def, Ideal.addf_def]
  unfold featOut nodeRow lin
  refine congrArg₂ (· + ·) rfl (congrArg₂ (· + ·) (Finset.sum_congr rfl fun k _ => ?_) rfl)
  rw [node_lidx63, node_ridx63, node_silu, node_hidden x0 x1 x2 x3 x4 x5 x6 x7 x8 x9 x15 x16 x19 x20 M hM]
  rfl

end Cert.RefSpec

end
-- ==== Proof.PayLib.lean ====
import proofs.«148962_j8203387535901_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-!
  One layer at a time, read at an index: a matrix product into the zero accumulator is the sum over the shared
  axis; a bias row, a column and a single number spread over a matrix read the entry they came from; a sum along
  the lanes of a row is the sum of the row's entries; three blocks laid side by side read the block whose columns
  hold the index. Everything is over the extended reals, where every float operation is the exact one.
-/

noncomputable section

namespace Cert.KernelIdeal.Pay

open Cert.KernelIdeal Cert.KernelIdeal.Gen Idealize.ShloMosaic Idealize.ShloMosaic.ValueIdx

/-! ## A matrix product -/

section Dot
variable {m k n : ℕ} (D : DotDims ⟨2, ![m, k]⟩ ⟨2, ![k, n]⟩ ⟨2, ![m, n]⟩)

/-- The left operand's row is the output's row. -/
theorem lhsIdx_row (h3 : D.lhsNonContracting = [0]) (h5 : D.lhsBatch = []) (i : (⟨2, ![m, n]⟩ : Shape).Idx)
    (q : D.contr.Idx) : (D.lhsIdx i q 0).val = (i 0).val := by
  unfold DotDims.lhsIdx
  rw [dif_neg (show ¬ (0 : Fin (⟨2, ![m, k]⟩ : Shape).rank) ∈ D.lhsBatch by rw [h5]; exact List.not_mem_nil),
    dif_pos (show (0 : Fin (⟨2, ![m, k]⟩ : Shape).rank) ∈ D.lhsNonContracting by
      rw [h3]; exact List.mem_singleton.mpr rfl)]
  simp only [Fin.val_cast]
  have key : ∀ (p : ℕ) (hp : p < 2), p = 0 → (i ⟨p, hp⟩).val = (i 0).val := fun p hp h => by subst h; rfl
  exact key _ _ (by rw [h5, h3]; rfl)

/-- The right operand's column is the output's column. -/
theorem rhsIdx_col (h3 : D.lhsNonContracting = [0]) (h4 : D.rhsNonContracting = [1]) (h5 : D.lhsBatch = [])
    (h6 : D.rhsBatch = []) (i : (⟨2, ![m, n]⟩ : Shape).Idx) (q : D.contr.Idx) :
    (D.rhsIdx i q 1).val = (i 1).val := by
  unfold DotDims.rhsIdx
  rw [dif_neg (show ¬ (1 : Fin (⟨2, ![k, n]⟩ : Shape).rank) ∈ D.rhsBatch by rw [h6]; exact List.not_mem_nil),
    dif_pos (show (1 : Fin (⟨2, ![k, n]⟩ : Shape).rank) ∈ D.rhsNonContracting by
      rw [h4]; exact List.mem_singleton.mpr rfl)]
  simp only [Fin.val_cast]
  have key : ∀ (p : ℕ) (hp : p < 2), p = 1 → (i ⟨p, hp⟩).val = (i 1).val := fun p hp h => by subst h; rfl
  exact key _ _ (by rw [h5, h3, h4]; rfl)

/-- A matrix product into the zero accumulator, read at row `r` and column `c`: the sum over the shared axis of
    the products of the row's and the column's entries. -/
theorem matmul_ix2 {φ₁ φ₂ : FTy}
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (lhs : FVec Ideal ⟨2, ![m, k]⟩ φ₁) (rhs : FVec Ideal ⟨2, ![k, n]⟩ φ₂)
    (r : Fin m) (c : Fin n) :
    matmul D prec lhs rhs (constant (F := Ideal) ⟨2, ![m, n]⟩ .f32 0x00000000#32) (ix2 r c)
      = ∑ q : Fin k, lhs (ix2 r q) * rhs (ix2 q c) := by
  have hlen : 0 < D.lhsContracting.length := by rw [h1]; exact Nat.one_pos
  have hr : D.contr.rank = 1 := by rw [D.rank_contr, h1]; rfl
  have hs : D.contr.size ⟨0, by omega⟩ = k :=
    (D.size_contr 0 hlen).trans (by rw [List.getElem_of_eq h1 hlen]; rfl)
  refine (Ideal.matmul_constant_zero_apply D prec lhs rhs (ix2 r c)).trans ?_
  rw [← Equiv.sum_comp (contrEquiv1 D k hr hs).symm]
  refine Finset.sum_congr rfl fun q _ => ?_
  have hq := contrEquiv1_symm_val D k hr hs q
  have el : D.lhsIdx (ix2 r c) ((contrEquiv1 D k hr hs).symm q) = ix2 r q :=
    funext fun a => Fin.ext (by
      match a with
      | ⟨0, _⟩ => exact lhsIdx_row D h3 h5 _ _
      | ⟨1, _⟩ => exact (D.lhsIdx_val_of_single h1 _ _).trans hq)
  have er : D.rhsIdx (ix2 r c) ((contrEquiv1 D k hr hs).symm q) = ix2 q c :=
    funext fun a => Fin.ext (by
      match a with
      | ⟨0, _⟩ => exact (D.rhsIdx_val_of_single h2 _ _).trans hq
      | ⟨1, _⟩ => exact rhsIdx_col D h3 h4 h5 h6 _ _)
  rw [el, er]

end Dot

/-! ## Spreading a row, a column, a number -/

section Layout
variable {α : Type}

/-- A bias `[b]` viewed as one row and spread over `a` rows reads, at `(p, c)`, the bias at `c`. -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A column `[a, 1]` spread over `b` columns reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## A sum along the lanes -/

/-- The sum of a matrix along its second axis, from the neutral accumulator, read at row `r`: the sum of the
    row's entries, with nothing in front. -/
theorem laneSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ q : Fin b, src (ix2 r q) := by
  refine (Ideal.multiReduction_add_single src acc h hφ hacc (ix1 r)).trans ?_
  refine Finset.sum_congr rfl fun q _ => congrArg src ?_
  funext ax
  apply Fin.ext
  match ax with
  | ⟨0, _⟩ => rfl
  | ⟨1, _⟩ => rfl

/-! ## Three blocks side by side -/

section Concat
variable {α : Type} {a n0 n1 n2 n : ℕ} (x0 : (⟨2, ![a, n0]⟩ : Shape).Idx → α) (x1 : (⟨2, ![a, n1]⟩ : Shape).Idx → α)
  (x2 : (⟨2, ![a, n2]⟩ : Shape).Idx → α)
  (h : Shape.Concatenates [(⟨2, ![a, n0]⟩ : Shape), ⟨2, ![a, n1]⟩, ⟨2, ![a, n2]⟩] ⟨2, ![a, n]⟩ 1)

/-- In the first block's columns the row `[x0 | x1 | x2]` reads `x0`. -/
theorem concat3_left (r : Fin a) (j : Fin n) (i : Fin n0) (hi : i.val = j.val) :
    concatenate ⟨2, ![a, n]⟩ 1 [⟨⟨2, ![a, n0]⟩, x0⟩, ⟨⟨2, ![a, n1]⟩, x1⟩, ⟨⟨2, ![a, n2]⟩, x2⟩] h (ix2 r j) = x0 (ix2 r i) :=
  concatenate_apply_piece 1 [⟨⟨2, ![a, n0]⟩, x0⟩, ⟨⟨2, ![a, n1]⟩, x1⟩, ⟨⟨2, ![a, n2]⟩, x2⟩] h (ix2 r j) 0 (by show (0 : ℕ) < 3; omega) ⟨2, ![a, n0]⟩ x0 rfl rfl 0 rfl (ix2 r i)
    (fun b hb => by
      match b with
      | ⟨0, _⟩ => rfl
      | ⟨1, _⟩ => exact absurd rfl hb)
    (by show 0 + i.val = j.val; omega)

/-- In the second block's columns it reads `x1`. -/
theorem concat3_mid (r : Fin a) (j : Fin n) (i : Fin n1) (hi : n0 + i.val = j.val) :
    concatenate ⟨2, ![a, n]⟩ 1 [⟨⟨2, ![a, n0]⟩, x0⟩, ⟨⟨2, ![a, n1]⟩, x1⟩, ⟨⟨2, ![a, n2]⟩, x2⟩] h (ix2 r j) = x1 (ix2 r i) :=
  concatenate_apply_piece 1 [⟨⟨2, ![a, n0]⟩, x0⟩, ⟨⟨2, ![a, n1]⟩, x1⟩, ⟨⟨2, ![a, n2]⟩, x2⟩] h (ix2 r j) 1 (by show (1 : ℕ) < 3; omega) ⟨2, ![a, n1]⟩ x1 rfl rfl n0 rfl (ix2 r i)
    (fun b hb => by
      match b with
      | ⟨0, _⟩ => rfl
      | ⟨1, _⟩ => exact absurd rfl hb)
    hi

/-- In the third block's columns it reads `x2`. -/
theorem concat3_right (r : Fin a) (j : Fin n) (i : Fin n2) (hi : n0 + n1 + i.val = j.val) :
    concatenate ⟨2, ![a, n]⟩ 1 [⟨⟨2, ![a, n0]⟩, x0⟩, ⟨⟨2, ![a, n1]⟩, x1⟩, ⟨⟨2, ![a, n2]⟩, x2⟩] h (ix2 r j) = x2 (ix2 r i) :=
  concatenate_apply_piece 1 [⟨⟨2, ![a, n0]⟩, x0⟩, ⟨⟨2, ![a, n1]⟩, x1⟩, ⟨⟨2, ![a, n2]⟩, x2⟩] h (ix2 r j) 2 (by show (2 : ℕ) < 3; omega) ⟨2, ![a, n2]⟩ x2 rfl rfl (n0 + n1) rfl (ix2 r i)
    (fun b hb => by
      match b with
      | ⟨0, _⟩ => rfl
      | ⟨1, _⟩ => exact absurd rfl hb)
    hi

end Concat

end Cert.KernelIdeal.Pay

end
-- ==== Proof.PayTile.lean ====
import proofs.«148962_j8203387535901_2_alg».proof.Proof.Gen.KernelIdeal.Skeleton
import proofs.«148962_j8203387535901_2_alg».proof.Proof.Spec
import proofs.«148962_j8203387535901_2_alg».proof.Proof.PayLib
import Idealize.ShloMosaic.PureOps.Ideal.Laws
import Idealize.ShloMosaic.Lib.ValueIdx
import Idealize.ShloMosaic.Lib.ValueLayout
import Idealize.ShloMosaic.Lib.Pipeline.Value

/-!
  The values the kernel body computes, read at one entry and compared with the layer written row by row.

  A tile holds 512 edges. Row `e` of the tile's input is `[features | s | attributes]` with `s` the squared length
  of the edge's coordinate difference; the message network's two dense layers, its gate, and the coordinate
  network's `15·tanh(φ_x)·d/(max(√s, ε)+1)` are then, entry by entry, the layer's message and coordinate update
  of that edge. The two carried sums grow by the product of the 0/1 rows with the tile's messages and updates,
  and the node network reads `[features | summed messages | attributes]`. Rounding to the narrow format on the
  way into a product is the identity on extended reals, so no product differs from the exact one.
-/

noncomputable section

namespace Cert.KernelIdeal.Pay

open Cert.KernelIdeal Cert.KernelIdeal.Gen Idealize.ShloMosaic Idealize.ShloMosaic.ValueIdx Cert.Spec

/-! ## The edge tile's input row -/

/-- A cast to the same shape changes nothing. -/
theorem pay7_eq (v5 : Vec Ideal S512x7 .f32) : k0_pay7 (F := Ideal) v5 = v5 :=
  shapeCast_self v5 _

/-- The first three columns are the coordinate difference. -/
theorem pay8_apply (v5 : Vec Ideal S512x7 .f32) (e : Fin 512) (a : Fin 3) :
    k0_pay8 (F := Ideal) v5 (ix2 e a) = v5 (ix2 e (lo3 a)) := by
  unfold k0_pay8
  refine (slice2_axis1_apply 0 (k0_pay7 (F := Ideal) v5) _ e a (lo3 a) (by show a.val = 0 + a.val; omega)).trans ?_
  rw [pay7_eq]

/-- The squared length of the difference, as a one-column array. -/
theorem pay9_apply (v5 : Vec Ideal S512x7 .f32) (e : Fin 512) (u : Fin 1) :
    k0_pay9 (F := Ideal) v5 (ix2 e u) = sqLen (fun a => v5 (ix2 e (lo3 a))) := by
  unfold k0_pay9
  refine (shapeCast_a_a1_apply _ _ e u).trans ?_
  refine (laneSum_apply _ _ _ _ _ e).trans ?_
  unfold sqLen
  refine Finset.sum_congr rfl fun a _ => ?_
  refine (mulf_apply _ _ _).trans ?_
  rw [pay8_apply]

/-- Its square root. -/
theorem pay10_apply (v5 : Vec Ideal S512x7 .f32) (e : Fin 512) (u : Fin 1) :
    k0_pay10 (F := Ideal) v5 (ix2 e u) = Ideal.sqrt (sqLen (fun a => v5 (ix2 e (lo3 a)))) := by
  unfold k0_pay10
  show Ideal.sqrt (k0_pay9 (F := Ideal) v5 (ix2 e u)) = _
  rw [pay9_apply]

/-- The input row of edge `e`: its features, the squared length, its attributes. -/
theorem pay11_apply (v3 : Vec Ideal S512x512 .f32) (v5 : Vec Ideal S512x7 .f32) (e : Fin 512) (j : Fin 517) :
    k0_pay11 (F := Ideal) v3 v5 (ix2 e j)
      = edgeIn (arr2 512 512 v3 e) (sqLen (fun a => v5 (ix2 e (lo3 a)))) (fun a => v5 (ix2 e (hi4 a))) j := by
  unfold k0_pay11 edgeIn
  split_ifs with hj h2
  · refine (concat3_left _ _ _ _ e j ⟨j.val, hj⟩ rfl).trans ?_
    rw [shapeCast_self]
    rfl
  · refine (concat3_mid _ _ _ _ e j (0 : Fin 1) (by show 512 + 0 = j.val; omega)).trans ?_
    exact pay9_apply v5 e 0
  · refine (concat3_right _ _ _ _ e j ⟨j.val - 513, by have := j.isLt; omega⟩
      (by show 512 + 1 + (j.val - 513) = j.val; have := j.isLt; omega)).trans ?_
    refine (slice2_axis1_apply 3 (k0_pay7 (F := Ideal) v5) _ e _ (hi4 ⟨j.val - 513, by have := j.isLt; omega⟩) rfl).trans ?_
    rw [pay7_eq]

/-! ## The matrix products of the program, one per triple of shapes -/

theorem mm_517 (lhs : FVec Ideal S512x517 .bf16) (rhs : FVec Ideal S517x256 .bf16) (e : Fin 512) (h : Fin 256) :
    matmul dot_S512x517_S517x256_S512x256_1_0_0_1_n_n none lhs rhs (constant (F := Ideal) S512x256 .f32 0x00000000#32) (ix2 e h)
      = ∑ q : Fin 517, lhs (ix2 e q) * rhs (ix2 q h) :=
  matmul_ix2 _ rfl rfl rfl rfl rfl rfl none lhs rhs e h

theorem mm_256 (lhs : FVec Ideal S512x256 .bf16) (rhs : FVec Ideal S256x256 .bf16) (e : Fin 512) (h : Fin 256) :
    matmul dot_S512x256_S256x256_S512x256_1_0_0_1_n_n none lhs rhs (constant (F := Ideal) S512x256 .f32 0x00000000#32) (ix2 e h)
      = ∑ q : Fin 256, lhs (ix2 e q) * rhs (ix2 q h) :=
  matmul_ix2 _ rfl rfl rfl rfl rfl rfl none lhs rhs e h

theorem mm_256x1 (lhs : FVec Ideal S512x256 .bf16) (rhs : FVec Ideal S256x1 .bf16) (e : Fin 512) (u : Fin 1) :
    matmul dot_S512x256_S256x1_S512x1_1_0_0_1_n_n none lhs rhs (constant (F := Ideal) S512x1 .f32 0x00000000#32) (ix2 e u)
      = ∑ q : Fin 256, lhs (ix2 e q) * rhs (ix2 q u) :=
  matmul_ix2 _ rfl rfl rfl rfl rfl rfl none lhs rhs e u

theorem mm_acc256 (lhs : FVec Ideal S1024x512 .bf16) (rhs : FVec Ideal S512x256 .bf16) (r : Fin 1024) (h : Fin 256) :
    matmul dot_S1024x512_S512x256_S1024x256_1_0_0_1_n_n none lhs rhs (constant (F := Ideal) S1024x256 .f32 0x00000000#32) (ix2 r h)
      = ∑ q : Fin 512, lhs (ix2 r q) * rhs (ix2 q h) :=
  matmul_ix2 _ rfl rfl rfl rfl rfl rfl none lhs rhs r h

theorem mm_acc3 (lhs : FVec Ideal S1024x512 .bf16) (rhs : FVec Ideal S512x3 .bf16) (r : Fin 1024) (a : Fin 3) :
    matmul dot_S1024x512_S512x3_S1024x3_1_0_0_1_n_n none lhs rhs (constant (F := Ideal) S1024x3 .f32 0x00000000#32) (ix2 r a)
      = ∑ q : Fin 512, lhs (ix2 r q) * rhs (ix2 q a) :=
  matmul_ix2 _ rfl rfl rfl rfl rfl rfl none lhs rhs r a

theorem mm_520 (lhs : FVec Ideal S1024x520 .bf16) (rhs : FVec Ideal S520x256 .bf16) (r : Fin 1024) (c : Fin 256) :
    matmul dot_S1024x520_S520x256_S1024x256_1_0_0_1_n_n none lhs rhs (constant (F := Ideal) S1024x256 .f32 0x00000000#32) (ix2 r c)
      = ∑ q : Fin 520, lhs (ix2 r q) * rhs (ix2 q c) :=
  matmul_ix2 _ rfl rfl rfl rfl rfl rfl none lhs rhs r c

theorem mm_n256 (lhs : FVec Ideal S1024x256 .bf16) (rhs : FVec Ideal S256x256 .bf16) (r : Fin 1024) (c : Fin 256) :
    matmul dot_S1024x256_S256x256_S1024x256_1_0_0_1_n_n none lhs rhs (constant (F := Ideal) S1024x256 .f32 0x00000000#32) (ix2 r c)
      = ∑ q : Fin 256, lhs (ix2 r q) * rhs (ix2 q c) :=
  matmul_ix2 _ rfl rfl rfl rfl rfl rfl none lhs rhs r c

/-! ## The values that need no network -/

/-- A change of float format is the identity on extended reals. -/
theorem pay16_eq (v80 : Vec Ideal S1024x512 .f32) : k0_pay16 (F := Ideal) v80 = v80 := rfl

theorem pay5_apply (j : S1024x256.Idx) : k0_pay5 (F := Ideal) j = 0 := by
  unfold k0_pay5
  rw [shapeCast_self]
  exact Ideal.ofBits_zero_f32

theorem pay6_apply (j : S1024x3.Idx) : k0_pay6 (F := Ideal) j = 0 := by
  unfold k0_pay6
  rw [shapeCast_self]
  exact Ideal.ofBits_zero_f32

theorem pay4_apply (v101 v103 : Vec Ideal S1024x3 .f32) (j : S1024x3.Idx) :
    k0_pay4 (F := Ideal) v101 v103 j = v101 j + v103 j := rfl

/-- The carried sum of messages grows by the tile's product with the 0/1 rows. -/
theorem pay1_apply (v68 : FVec Ideal S512x256 .f32) (v81 : FVec Ideal S1024x512 .bf16) (v82 : Vec Ideal S1024x256 .f32)
    (r : Fin 1024) (h : Fin 256) :
    k0_pay1 (F := Ideal) v68 v81 v82 (ix2 r h) = v82 (ix2 r h) + ∑ e : Fin 512, v81 (ix2 r e) * v68 (ix2 e h) := by
  unfold k0_pay1
  rw [shapeCast_self]
  refine (addf_apply _ _ _).trans ?_
  exact congrArg (v82 (ix2 r h) + ·) (mm_acc256 _ _ r h)

theorem pay2_apply (v79 : FVec Ideal S512x3 .f32) (v81 : FVec Ideal S1024x512 .bf16) (v89 : Vec Ideal S1024x3 .f32)
    (r : Fin 1024) (a : Fin 3) :
    k0_pay2 (F := Ideal) v79 v81 v89 (ix2 r a) = v89 (ix2 r a) + ∑ e : Fin 512, v81 (ix2 r e) * v79 (ix2 e a) := by
  unfold k0_pay2
  rw [shapeCast_self]
  refine (addf_apply _ _ _).trans ?_
  exact congrArg (v89 (ix2 r a) + ·) (mm_acc3 _ _ r a)

/-! ## The message network -/

/-- The first dense layer of the message network on edge `e`. -/
theorem pay12_apply (v3 : Vec Ideal S512x512 .f32) (v5 : Vec Ideal S512x7 .f32) (v14 : Vec Ideal S517x256 .f32)
    (v15 : Vec Ideal S256 .f32) (e : Fin 512) (h : Fin 256) :
    k0_pay12 (F := Ideal) v3 v5 v14 v15 (ix2 e h)
      = lin (edgeIn (arr2 512 512 v3 e) (sqLen (fun a => v5 (ix2 e (lo3 a)))) (fun a => v5 (ix2 e (hi4 a))))
          (arr2 517 256 v14) (arr1 256 v15) h := by
  unfold k0_pay12 lin
  refine (addf_apply _ _ _).trans ?_
  refine congrArg₂ (· + ·) ((mm_517 _ _ e h).trans (Finset.sum_congr rfl fun q _ => ?_)) (rowBias_apply v15 _ _ e h)
  show k0_pay11 (F := Ideal) v3 v5 (ix2 e q) * v14 (ix2 q h) = _
  rw [pay11_apply]
  rfl

theorem pay13_apply (v3 : Vec Ideal S512x512 .f32) (v5 : Vec Ideal S512x7 .f32) (v14 : Vec Ideal S517x256 .f32)
    (v15 : Vec Ideal S256 .f32) (e : Fin 512) (h : Fin 256) :
    k0_pay13 (F := Ideal) v3 v5 v14 v15 (ix2 e h) = Ideal.logistic (k0_pay12 (F := Ideal) v3 v5 v14 v15 (ix2 e h)) := rfl

/-! ## The unary operations at an index -/

theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl
theorem sqrt_apply {s : Shape} {φ : FTy} (v : FVec Ideal s φ) (i : s.Idx) : sqrt v i = Ideal.sqrt (v i) := rfl

/-- The message network from its first layer on: the second layer, the gate, the gated message. `y` is the
    first layer's activation on edge `e`. -/
theorem pay14_apply (v16 : Vec Ideal S256x256 .f32) (v17 : Vec Ideal S256 .f32) (v23 : Vec Ideal S256x1 .f32)
    (v24 : Vec Ideal S1 .f32) (v30 v31 : FVec Ideal S512x256 .f32) (e : Fin 512) (y : Fin 256 → EReal)
    (hy : ∀ j, v30 (ix2 e j) * v31 (ix2 e j) = y j) (h : Fin 256) :
    k0_pay14 (F := Ideal) v16 v17 v23 v24 v30 v31 (ix2 e h)
      = silu (lin y (arr2 256 256 v16) (arr1 256 v17) h)
          * Ideal.logistic ((∑ j : Fin 256, silu (lin y (arr2 256 256 v16) (arr1 256 v17) j) * col1 256 v23 j)
              + v24 (ix1 0)) := by
  unfold k0_pay14
  simp only [mulf_apply, addf_apply, truncf_apply, logistic_apply, mm_256, mm_256x1, rowBias_apply,
    broadcastTo_a1_ab_apply, hy]
  rfl

/-- **The message tile**: row `e` of the tile's gated messages is the layer's message of edge `e`. -/
theorem msg_tile (v3 : Vec Ideal S512x512 .f32) (v5 : Vec Ideal S512x7 .f32) (v14 : Vec Ideal S517x256 .f32) (v15 : Vec Ideal S256 .f32)
    (v16 : Vec Ideal S256x256 .f32) (v17 : Vec Ideal S256 .f32) (v23 : Vec Ideal S256x1 .f32) (v24 : Vec Ideal S1 .f32) (e : Fin 512) (h : Fin 256) :
    k0_pay14 (F := Ideal) v16 v17 v23 v24 (k0_pay12 v3 v5 v14 v15) (k0_pay13 v3 v5 v14 v15) (ix2 e h)
      = edgeMsg (arr2 512 512 v3 e) (fun a => v5 (ix2 e (lo3 a))) (fun a => v5 (ix2 e (hi4 a)))
          (arr2 517 256 v14) (arr1 256 v15) (arr2 256 256 v16) (arr1 256 v17) (col1 256 v23) (v24 (ix1 0)) h := by
  refine (pay14_apply v16 v17 v23 v24 _ _ e
    (fun j => silu (lin (edgeIn (arr2 512 512 v3 e) (sqLen fun a => v5 (ix2 e (lo3 a))) (fun a => v5 (ix2 e (hi4 a))))
      (arr2 517 256 v14) (arr1 256 v15) j))
    (fun j => ?_) h).trans ?_
  · rw [pay13_apply, pay12_apply]
    rfl
  · rfl

/-! ## The coordinate network -/

/-- The coordinate network on edge `e`, from the edge's input row `x`, its difference `v7` and the length `v12`. -/
theorem pay15_apply (v7 : FVec Ideal S512x3 .f32) (v12 : FVec Ideal S512x1 .f32) (v13 : FVec Ideal S512x517 .f32)
    (v18 : Vec Ideal S517x256 .f32) (v19 : Vec Ideal S256 .f32) (v20 : Vec Ideal S256x256 .f32) (v21 : Vec Ideal S256 .f32)
    (v22 : Vec Ideal S256x1 .f32) (e : Fin 512) (x : Fin 517 → EReal) (hx : ∀ q, v13 (ix2 e q) = x q) (a : Fin 3) :
    k0_pay15 (F := Ideal) v7 v12 v13 v18 v19 v20 v21 v22 (ix2 e a)
      = (c15 * Ideal.tanh (∑ j : Fin 256,
            mlp2 x (arr2 517 256 v18) (arr1 256 v19) (arr2 256 256 v20) (arr1 256 v21) j * col1 256 v22 j))
          * Ideal.div (v7 (ix2 e a)) (max (v12 (ix2 e (0 : Fin 1))) cEps + cOne) := by
  unfold k0_pay15
  simp only [mulf_apply, addf_apply, divf_apply, maximumf_apply, truncf_apply, logistic_apply, tanh_apply,
    broadcast_apply, mm_517, mm_256, mm_256x1, rowBias_apply, broadcastTo_a1_ab_apply, hx]
  rfl

/-- **The coordinate tile**: row `e` of the tile's coordinate updates is the layer's update of edge `e`. -/
theorem crd_tile (v3 : Vec Ideal S512x512 .f32) (v5 : Vec Ideal S512x7 .f32) (v18 : Vec Ideal S517x256 .f32) (v19 : Vec Ideal S256 .f32)
    (v20 : Vec Ideal S256x256 .f32) (v21 : Vec Ideal S256 .f32) (v22 : Vec Ideal S256x1 .f32) (e : Fin 512) (a : Fin 3) :
    k0_pay15 (F := Ideal) (k0_pay8 v5) (k0_pay10 v5) (k0_pay11 v3 v5) v18 v19 v20 v21 v22 (ix2 e a)
      = edgeCrd (arr2 512 512 v3 e) (fun a => v5 (ix2 e (lo3 a))) (fun a => v5 (ix2 e (hi4 a)))
          (arr2 517 256 v18) (arr1 256 v19) (arr2 256 256 v20) (arr1 256 v21) (col1 256 v22) a := by
  refine (pay15_apply _ _ _ v18 v19 v20 v21 v22 e _ (fun q => pay11_apply v3 v5 e q) a).trans ?_
  rw [pay8_apply, pay10_apply]
  rfl

/-! ## The node network -/

/-- A node's input row: its features, its summed messages, its attributes. -/
theorem nodeIn_apply (v99 : Vec Ideal S1024x256 .f32) (v102 : Vec Ideal S1024x256 .f32) (v100 : Vec Ideal S1024x8 .f32)
    (hc : Shape.Concatenates [S1024x256, S1024x256, S1024x8] S1024x520 1) (r : Fin 1024) (q : Fin 520) :
    concatenate S1024x520 1 [⟨S1024x256, v99⟩, ⟨S1024x256, v102⟩, ⟨S1024x8, v100⟩] hc (ix2 r q)
      = nodeIn (arr2 1024 256 v99 r) (arr2 1024 256 v102 r) (arr2 1024 8 v100 r) q := by
  unfold nodeIn
  split_ifs with hq h2
  · exact concat3_left _ _ _ _ r q ⟨q.val, hq⟩ rfl
  · exact concat3_mid _ _ _ _ r q ⟨q.val - 256, by omega⟩ (by show 256 + (q.val - 256) = q.val; omega)
  · exact concat3_right _ _ _ _ r q ⟨q.val - 512, by have := q.isLt; omega⟩
      (by show 256 + 256 + (q.val - 512) = q.val; omega)

/-- **The node tile**: row `r` of the tile's new features is the layer's node update. -/
theorem node_tile (v99 : Vec Ideal S1024x256 .f32) (v100 : Vec Ideal S1024x8 .f32) (v102 : Vec Ideal S1024x256 .f32) (v105 : Vec Ideal S520x256 .f32)
    (v106 : Vec Ideal S256 .f32) (v107 : Vec Ideal S256x256 .f32) (v108 : Vec Ideal S256 .f32) (r : Fin 1024) (c : Fin 256) :
    k0_pay3 (F := Ideal) v99 v100 v102 v105 v106 v107 v108 (ix2 r c)
      = nodeRow (arr2 1024 256 v99 r) (arr2 1024 256 v102 r) (arr2 1024 8 v100 r) (arr2 520 256 v105) (arr1 256 v106) (arr2 256 256 v107) (arr1 256 v108) c := by
  unfold k0_pay3
  generalize hX : (concatenate S1024x520 1 [⟨S1024x256, v99⟩, ⟨S1024x256, v102⟩, ⟨S1024x8, v100⟩]
      concatenates_S1024x256_S1024x256_S1024x8_S1024x520_d1 : FVec Ideal S1024x520 .f32) = X
  have hX' : ∀ q, X (ix2 r q) = nodeIn (arr2 1024 256 v99 r) (arr2 1024 256 v102 r) (arr2 1024 8 v100 r) q :=
    fun q => hX ▸ nodeIn_apply v99 v102 v100 _ r q
  simp only [mulf_apply, addf_apply, truncf_apply, logistic_apply, mm_520, mm_n256, rowBias_apply, hX']
  rfl

end Cert.KernelIdeal.Pay

end
-- ==== Proof.Bridge.lean ====
/-
  The two programs' result functions are one.

  The reference returns, for every node, its coordinates plus the coordinate updates of its edges summed through
  the 0/1 matrix, and its features plus the node network of `[features | summed messages | attributes]`. Read
  edge by edge, its message and coordinate update of an edge are the layer's per-edge functions of the edge's
  end-node features, coordinate difference and attributes. The kernel program prepares those three by the same
  operations and finds the weights as they were launched, and both programs are started on the same 21 arrays; so
  the per-edge functions agree, and with them the two sums over the edges and the two results.
-/
import proofs.«148962_j8203387535901_2_alg».proof.Defs
import proofs.«148962_j8203387535901_2_alg».proof.Proof.Gen.ReferenceIdeal.Read
import proofs.«148962_j8203387535901_2_alg».proof.Proof.KStep
import proofs.«148962_j8203387535901_2_alg».proof.Proof.KGlue
import proofs.«148962_j8203387535901_2_alg».proof.Proof.RefEdge
import proofs.«148962_j8203387535901_2_alg».proof.Proof.RefNode
import proofs.«148962_j8203387535901_2_alg».proof.Proof.PayTile

noncomputable section

namespace Cert.Proof.Bridge

open Idealize.ShloMosaic Idealize.ShloMosaic.TcCoe Idealize.SL.Sem Idealize.ShloMosaic.ValueIdx Cert.Spec

/-- The body's arithmetic, entry by entry, is the layer's. -/
theorem payFacts : Cert.KernelIdeal.Val.PayFacts :=
  ⟨Cert.KernelIdeal.Pay.pay16_eq, Cert.KernelIdeal.Pay.pay5_apply, Cert.KernelIdeal.Pay.pay6_apply, Cert.KernelIdeal.Pay.pay4_apply, Cert.KernelIdeal.Pay.pay1_apply,
    Cert.KernelIdeal.Pay.pay2_apply, Cert.KernelIdeal.Pay.msg_tile, Cert.KernelIdeal.Pay.crd_tile, Cert.KernelIdeal.Pay.node_tile⟩

/-- The two programs are started on the same 21 arrays. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- On the kernel side's arrays, the reference's coordinate update of an edge is the kernel side's. -/
theorem upd_on_m (e : Fin 32768) (a : Fin 3) :
    Cert.ReferenceIdeal.Read.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (ix2 e a) = Cert.KernelIdeal.Val.kUpd m c e a := by
  refine (Cert.RefSpec.upd_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) e a).trans ?_
  unfold Cert.KernelIdeal.Val.kUpd
  have hd : (fun a => Cert.KernelIdeal.Gen.V m c Cert.KernelIdeal.main_v20 (ix2 e (lo3 a)))
      = arr2 32768 3 (Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))) e :=
    funext fun a => Cert.KernelIdeal.Val.glue_d m c e a
  have hea : (fun a => Cert.KernelIdeal.Gen.V m c Cert.KernelIdeal.main_v20 (ix2 e (hi4 a))) = arr2 32768 4 (m ((c.tc : Thread Cert.KernelIdeal.nD Cert.KernelIdeal.τ).loc Cert.KernelIdeal.main_arg5)) e :=
    funext fun a => Cert.KernelIdeal.Val.glue_ea m c e a
  rw [hd, hea, Cert.KernelIdeal.Val.glue_h m c, Cert.KernelIdeal.Gen.V_main_arg10 m c, Cert.KernelIdeal.Gen.V_main_arg11 m c, Cert.KernelIdeal.Gen.V_main_arg12 m c, Cert.KernelIdeal.Gen.V_main_arg13 m c, Cert.KernelIdeal.Gen.V_main_arg14 m c]

/-- Likewise the message of an edge. -/
theorem msg_on_m (e : Fin 32768) (h : Fin 256) :
    Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (ix2 e h) = Cert.KernelIdeal.Val.kMsg m c e h := by
  refine (Cert.RefSpec.msg_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) e h).trans ?_
  unfold Cert.KernelIdeal.Val.kMsg
  have hd : (fun a => Cert.KernelIdeal.Gen.V m c Cert.KernelIdeal.main_v20 (ix2 e (lo3 a)))
      = arr2 32768 3 (Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))) e :=
    funext fun a => Cert.KernelIdeal.Val.glue_d m c e a
  have hea : (fun a => Cert.KernelIdeal.Gen.V m c Cert.KernelIdeal.main_v20 (ix2 e (hi4 a))) = arr2 32768 4 (m ((c.tc : Thread Cert.KernelIdeal.nD Cert.KernelIdeal.τ).loc Cert.KernelIdeal.main_arg5)) e :=
    funext fun a => Cert.KernelIdeal.Val.glue_ea m c e a
  rw [hd, hea, Cert.KernelIdeal.Val.glue_h m c, Cert.KernelIdeal.Gen.V_main_arg6 m c, Cert.KernelIdeal.Gen.V_main_arg7 m c, Cert.KernelIdeal.Gen.V_main_arg8 m c, Cert.KernelIdeal.Gen.V_main_arg9 m c, Cert.KernelIdeal.Gen.V_main_arg19 m c, Cert.KernelIdeal.Gen.V_main_arg20 m c]

/-- **The new coordinates are one function**: what the reference returns is the kernel side's `kCrd`. -/
theorem ref_crd (hagree : Agree m m' c) :
    Cert.ReferenceIdeal.Value.res_main_v80 m' c = fun i => Cert.KernelIdeal.Val.kCrd m c (i 0) (i 1) := by
  obtain ⟨h0, h1, h2, h3, h4, h5, h6, h7, h8, h9, h10, h11, h12, h13, h14, h15, h16, h17, h18, h19, h20⟩ := hagree
  rw [Cert.ReferenceIdeal.Read.val_main_v80_eq, h0, h1, h2, h3, h5, h10, h11, h12, h13, h14]
  funext i
  obtain ⟨n, a, rfl⟩ : ∃ (n : Fin 2048) (a : Fin 3), i = ix2 n a := ⟨i 0, i 1, eq_ix2 i⟩
  refine (Cert.RefSpec.crd_of_upd (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (Cert.KernelIdeal.Val.kUpd m c) (upd_on_m m c) n a).trans ?_
  unfold Cert.KernelIdeal.Val.kCrd
  rw [Cert.KernelIdeal.Gen.V_main_arg0 m c, Cert.KernelIdeal.Gen.V_main_arg3 m c]
  rfl

/-- **The new features are one function**: what the reference returns is the kernel side's `kFeat`. -/
theorem ref_feat (hagree : Agree m m' c) :
    Cert.ReferenceIdeal.Value.res_main_v67 m' c = fun i => Cert.KernelIdeal.Val.kFeat m c (i 0) (i 1) := by
  obtain ⟨h0, h1, h2, h3, h4, h5, h6, h7, h8, h9, h10, h11, h12, h13, h14, h15, h16, h17, h18, h19, h20⟩ := hagree
  rw [Cert.ReferenceIdeal.Read.val_main_v67_eq, h0, h1, h2, h3, h4, h5, h6, h7, h8, h9, h15, h16, h17, h18, h19, h20]
  funext i
  obtain ⟨n, q, rfl⟩ : ∃ (n : Fin 2048) (q : Fin 256), i = ix2 n q := ⟨i 0, i 1, eq_ix2 i⟩
  refine (Cert.RefSpec.feat_of_msg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (Cert.KernelIdeal.Val.kMsg m c) (msg_on_m m c) n q).trans ?_
  unfold Cert.KernelIdeal.Val.kFeat
  rw [Cert.KernelIdeal.Gen.V_main_arg1 m c, Cert.KernelIdeal.Gen.V_main_arg3 m c, Cert.KernelIdeal.Gen.V_main_arg4 m c, Cert.KernelIdeal.Gen.V_main_arg15 m c, Cert.KernelIdeal.Gen.V_main_arg16 m c, Cert.KernelIdeal.Gen.V_main_arg17 m c, Cert.KernelIdeal.Gen.V_main_arg18 m c]
  rfl

end Cert.Proof.Bridge

end
-- ==== Proof.lean ====
/-
  One message-passing layer on a graph, computed two ways.

  For every edge, from the features of its two end nodes, the difference `d` of their coordinates and its attributes,
  two small silu networks give a gated message (256 numbers) and a coordinate update `15·tanh(φ)·d/(max(|d|, ε)+1)`
  (3 numbers). Every node adds up the messages and updates of the edges a 0/1 matrix assigns to it; one more silu
  network over [its features | the summed messages | its attributes] gives its new features, and the summed updates
  are added to its coordinates.

  The kernel walks the 32768 edges in 64 tiles of 512, for each half of the 2048 nodes: at each grid point it forms
  the tile's messages and updates, multiplies them by its block of the matrix and adds the products into two sums it
  carries from point to point; the last point of a run of 64 applies the node network to the finished sums and writes
  the two result blocks. The reference does the same with whole arrays: one product of the matrix with all edges.

  Over the extended reals the two agree, entry by entry:
    • a sum over all edges is the sum of its 64 consecutive tiles (only associativity of `+`; no finiteness is used);
    • the kernel feeds the squared length `s = d·d` to the networks where the reference feeds `(√s)²`: equal since
      a sum of squares is not negative, at infinity too;
    • the kernel applies the logistic function where the reference spells `1/(1+e⁻ˣ)` with the float word of 1.0,
      which is the real number 1;
    • changes of float format are the identity, a product into a zero accumulator is the plain sum of products, and
      the host's gathers, slices and subtraction that prepare the per-edge arrays are the same operations in both
      programs, so they are carried through unopened.

  The frames of the two printed kernel programs are generated; the reference's frame is its generated run with the
  results dropped; the idealization rewrote nothing, so it preserves the program trivially.
-/
import proofs.«148962_j8203387535901_2_alg».proof.Defs
import proofs.«148962_j8203387535901_2_alg».proof.Proof.Gen.Kernel
import proofs.«148962_j8203387535901_2_alg».proof.Proof.Gen.Kernel.Skeleton
import proofs.«148962_j8203387535901_2_alg».proof.Proof.Gen.Kernel.Launch
import proofs.«148962_j8203387535901_2_alg».proof.Proof.Gen.Kernel.Points
import proofs.«148962_j8203387535901_2_alg».proof.Proof.GenP.Kernel.Frame
import proofs.«148962_j8203387535901_2_alg».proof.Proof.Gen.KernelIdeal
import proofs.«148962_j8203387535901_2_alg».proof.Proof.Gen.KernelIdeal.Skeleton
import proofs.«148962_j8203387535901_2_alg».proof.Proof.Gen.KernelIdeal.Launch
import proofs.«148962_j8203387535901_2_alg».proof.Proof.Gen.KernelIdeal.Points
import proofs.«148962_j8203387535901_2_alg».proof.Proof.GenP.KernelIdeal.Frame
import proofs.«148962_j8203387535901_2_alg».proof.Proof.Gen.ReferenceIdeal
import proofs.«148962_j8203387535901_2_alg».proof.Proof.Gen.Pre_finite_inputs
import proofs.«148962_j8203387535901_2_alg».proof.Proof.GenP.KernelIdeal.Value
import proofs.«148962_j8203387535901_2_alg».proof.Proof.Gen.ReferenceIdeal.Run
import proofs.«148962_j8203387535901_2_alg».proof.Proof.Gen.ReferenceIdeal.Read
import proofs.«148962_j8203387535901_2_alg».proof.Proof.KFold
import proofs.«148962_j8203387535901_2_alg».proof.Proof.KFinal
import proofs.«148962_j8203387535901_2_alg».proof.Proof.Bridge
import Idealize.ShloMosaic.Adequacy
import Idealize.ShloMosaic.Init

noncomputable section

namespace Cert.Proof

open Idealize.ShloMosaic Idealize.SL.Sem

/-- Both printed kernel programs run, fault-free, and leave their arguments alone. -/
theorem frame_k : Cert.frame_Kernel := fun m ρ _ => Cert.Kernel.Gen.frame m ρ
theorem frame_ki : Cert.frame_KernelIdeal := fun m ρ _ => Cert.KernelIdeal.Gen.frame m ρ

/-- So does the reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, both programs end with the new coordinates and the new features of
    every node: the kernel's two arrays, assembled from the blocks its runs' last points write, and the reference's
    two results are the same two functions of the arguments. -/
theorem algebraic : Cert.algebraic_KernelIdeal_ReferenceIdeal := by
  intro m ρ m' ρ' _ hagree
  refine ⟨fun c i => Cert.KernelIdeal.Val.kCrd m c (i 0) (i 1), fun c i => Cert.KernelIdeal.Val.kFeat m c (i 0) (i 1),
    Cert.KernelIdeal.Val.run_of m ρ (Cert.KernelIdeal.Val.kFeat m) (Cert.KernelIdeal.Val.kCrd m)
      (fun c t h63 r q => Cert.KernelIdeal.Val.out21_C m c Cert.Proof.Bridge.payFacts t h63 r q)
      (fun c t h63 r a => Cert.KernelIdeal.Val.out22_C m c Cert.Proof.Bridge.payFacts t h63 r a), ?_⟩
  exact (θ_run Cert.ReferenceIdeal.defs _ _).mono
    (fun _ h c => ⟨(h c).1.trans (Cert.Proof.Bridge.ref_crd m m' c (hagree c)),
      (h c).2.1.trans (Cert.Proof.Bridge.ref_feat m m' c (hagree c)), (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
